-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v174)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v174) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 292
  | .vmem => 39
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S1x1600000, .i32⟩
  | 16 => ⟨S1600000, .i32⟩
  | 17 => ⟨S1x1600000, .i32⟩
  | 18 => ⟨S1600000, .i32⟩
  | 19 => ⟨S128x128, .f32⟩
  | 20 => ⟨S100000x128, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S_, .f32⟩
  | 76 => ⟨S128, .f32⟩
  | 77 => ⟨S128, .f32⟩
  | 78 => ⟨S_, .i32⟩
  | 79 => ⟨S_, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S100000x128, .f32⟩
  | 86 => ⟨S100000x128, .f32⟩
  | 87 => ⟨S100000x128, .f32⟩
  | 88 => ⟨S_, .f32⟩
  | 89 => ⟨S_, .f32⟩
  | 90 => ⟨S_, .f32⟩
  | 91 => ⟨S_, .f32⟩
  | 92 => ⟨S128, .f32⟩
  | 93 => ⟨S128, .f32⟩
  | 94 => ⟨S128, .f32⟩
  | 95 => ⟨S_, .f32⟩
  | 96 => ⟨S_, .i1⟩
  | 97 => ⟨S_, .f32⟩
  | 98 => ⟨S_, .f32⟩
  | 99 => ⟨S128, .f32⟩
  | 100 => ⟨S128, .f32⟩
  | 101 => ⟨S_, .f32⟩
  | 102 => ⟨S128, .f32⟩
  | 103 => ⟨S128, .f32⟩
  | 104 => ⟨S128, .f32⟩
  | 105 => ⟨S1x128, .f32⟩
  | 106 => ⟨S1x128, .f32⟩
  | 107 => ⟨S1x128, .f32⟩
  | 108 => ⟨S1x128, .f32⟩
  | 109 => ⟨S100000x128, .f32⟩
  | 110 => ⟨S128x128, .f32⟩
  | 111 => ⟨S100000x128, .f32⟩
  | 112 => ⟨S_, .f32⟩
  | 113 => ⟨S100000, .f32⟩
  | 114 => ⟨S1600000x1, .i32⟩
  | 115 => ⟨S100000, .f32⟩
  | 116 => ⟨S_, .f32⟩
  | 117 => ⟨S100000, .f32⟩
  | 118 => ⟨S100000, .f32⟩
  | 119 => ⟨S100000, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000, .f32⟩
  | 1 => ⟨S1600000, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000, .f32⟩
  | 11 => ⟨S1600000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S1600000x1, .f32⟩
  | 22 => ⟨S1600000x128, .f32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S100000, .f32⟩
  | 29 => ⟨S100000x1, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S128, .f32⟩
  | 38 => ⟨S_, .f32⟩
  | 39 => ⟨S128, .f32⟩
  | 40 => ⟨S128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S_, .f32⟩
  | 53 => ⟨S_, .f32⟩
  | 54 => ⟨S_, .f32⟩
  | 55 => ⟨S128, .f32⟩
  | 56 => ⟨S128, .f32⟩
  | 57 => ⟨S128, .f32⟩
  | 58 => ⟨S_, .f32⟩
  | 59 => ⟨S_, .i1⟩
  | 60 => ⟨S_, .f32⟩
  | 61 => ⟨S_, .f32⟩
  | 62 => ⟨S128, .f32⟩
  | 63 => ⟨S128, .f32⟩
  | 64 => ⟨S_, .f32⟩
  | 65 => ⟨S128, .f32⟩
  | 66 => ⟨S128, .f32⟩
  | 67 => ⟨S128, .f32⟩
  | 68 => ⟨S1x128, .f32⟩
  | 69 => ⟨S1x128, .f32⟩
  | 70 => ⟨S1x128, .f32⟩
  | 71 => ⟨S1x128, .f32⟩
  | 72 => ⟨S100000x128, .f32⟩
  | 73 => ⟨S128x128, .f32⟩
  | 74 => ⟨S100000x128, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S1600000x1, .f32⟩
  | 113 => ⟨S1600000x128, .f32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S100000, .f32⟩
  | 120 => ⟨S100000x1, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_2 (i : Nat) : BufTy := match i % 128 with
  | 0 => ⟨S128, .f32⟩
  | 1 => ⟨S_, .f32⟩
  | 2 => ⟨S128, .f32⟩
  | 3 => ⟨S128, .f32⟩
  | 4 => ⟨S_, .i32⟩
  | 5 => ⟨S_, .f32⟩
  | 6 => ⟨S128, .f32⟩
  | 7 => ⟨S1x128, .f32⟩
  | 8 => ⟨S_, .f32⟩
  | 9 => ⟨S1x128, .f32⟩
  | 10 => ⟨S1x128, .f32⟩
  | 11 => ⟨S100000x128, .f32⟩
  | 12 => ⟨S100000x128, .f32⟩
  | 13 => ⟨S100000x128, .f32⟩
  | 14 => ⟨S_, .f32⟩
  | 15 => ⟨S_, .f32⟩
  | 16 => ⟨S_, .f32⟩
  | 17 => ⟨S_, .f32⟩
  | 18 => ⟨S128, .f32⟩
  | 19 => ⟨S128, .f32⟩
  | 20 => ⟨S128, .f32⟩
  | 21 => ⟨S_, .f32⟩
  | 22 => ⟨S_, .i1⟩
  | 23 => ⟨S_, .f32⟩
  | 24 => ⟨S_, .f32⟩
  | 25 => ⟨S128, .f32⟩
  | 26 => ⟨S128, .f32⟩
  | 27 => ⟨S_, .f32⟩
  | 28 => ⟨S128, .f32⟩
  | 29 => ⟨S128, .f32⟩
  | 30 => ⟨S128, .f32⟩
  | 31 => ⟨S1x128, .f32⟩
  | 32 => ⟨S1x128, .f32⟩
  | 33 => ⟨S1x128, .f32⟩
  | 34 => ⟨S1x128, .f32⟩
  | 35 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_2 : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_cst_0 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_cst_1 : Ref sig .tc := ⟨.hbm, 89, rfl⟩
abbrev main_call0_v8 : Ref sig .tc := ⟨.hbm, 90, rfl⟩
abbrev main_call0_cst_2 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_cst_3 : Ref sig .tc := ⟨.hbm, 95, rfl⟩
abbrev main_call0_v12 : Ref sig .tc := ⟨.hbm, 96, rfl⟩
abbrev main_call0_cst_4 : Ref sig .tc := ⟨.hbm, 97, rfl⟩
abbrev main_call0_call0_v0 : Ref sig .tc := ⟨.hbm, 98, rfl⟩
abbrev main_call0_call0_v1 : Ref sig .tc := ⟨.hbm, 99, rfl⟩
abbrev main_v52 : Ref sig .tc := ⟨.hbm, 100, rfl⟩
abbrev main_cst_10 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_11 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_12 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_c_13 : Ref sig .tc := ⟨.hbm, 120, rfl⟩
abbrev main_v69 : Ref sig .tc := ⟨.hbm, 121, rfl⟩
abbrev main_v70 : Ref sig .tc := ⟨.hbm, 122, rfl⟩
abbrev main_c_14 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_c_15 : Ref sig .tc := ⟨.hbm, 130, rfl⟩
abbrev main_v77 : Ref sig .tc := ⟨.hbm, 131, rfl⟩
abbrev main_v78 : Ref sig .tc := ⟨.hbm, 132, rfl⟩
abbrev main_c_16 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_c_17 : Ref sig .tc := ⟨.hbm, 140, rfl⟩
abbrev main_v85 : Ref sig .tc := ⟨.hbm, 141, rfl⟩
abbrev main_v86 : Ref sig .tc := ⟨.hbm, 142, rfl⟩
abbrev main_c_18 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_19 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_cst_20 : Ref sig .tc := ⟨.hbm, 164, rfl⟩
abbrev main_v106 : Ref sig .tc := ⟨.hbm, 165, rfl⟩
abbrev main_cst_21 : Ref sig .tc := ⟨.hbm, 166, rfl⟩
abbrev main_v107 : Ref sig .tc := ⟨.hbm, 167, rfl⟩
abbrev main_v108 : Ref sig .tc := ⟨.hbm, 168, rfl⟩
abbrev main_c_22 : Ref sig .tc := ⟨.hbm, 169, rfl⟩
abbrev main_call1_cst : Ref sig .tc := ⟨.hbm, 170, rfl⟩
abbrev main_call1_v0 : Ref sig .tc := ⟨.hbm, 171, rfl⟩
abbrev main_call1_v1 : Ref sig .tc := ⟨.hbm, 172, rfl⟩
abbrev main_call1_cst_0 : Ref sig .tc := ⟨.hbm, 173, rfl⟩
abbrev main_call1_v2 : Ref sig .tc := ⟨.hbm, 174, rfl⟩
abbrev main_call1_v3 : Ref sig .tc := ⟨.hbm, 175, rfl⟩
abbrev main_call1_v4 : Ref sig .tc := ⟨.hbm, 176, rfl⟩
abbrev main_call1_v5 : Ref sig .tc := ⟨.hbm, 177, rfl⟩
abbrev main_call1_v6 : Ref sig .tc := ⟨.hbm, 178, rfl⟩
abbrev main_call1_v7 : Ref sig .tc := ⟨.hbm, 179, rfl⟩
abbrev main_call1_cst_1 : Ref sig .tc := ⟨.hbm, 180, rfl⟩
abbrev main_call1_v8 : Ref sig .tc := ⟨.hbm, 181, rfl⟩
abbrev main_call1_cst_2 : Ref sig .tc := ⟨.hbm, 182, rfl⟩
abbrev main_call1_v9 : Ref sig .tc := ⟨.hbm, 183, rfl⟩
abbrev main_call1_v10 : Ref sig .tc := ⟨.hbm, 184, rfl⟩
abbrev main_call1_v11 : Ref sig .tc := ⟨.hbm, 185, rfl⟩
abbrev main_call1_cst_3 : Ref sig .tc := ⟨.hbm, 186, rfl⟩
abbrev main_call1_v12 : Ref sig .tc := ⟨.hbm, 187, rfl⟩
abbrev main_call1_cst_4 : Ref sig .tc := ⟨.hbm, 188, rfl⟩
abbrev main_call1_call0_v0 : Ref sig .tc := ⟨.hbm, 189, rfl⟩
abbrev main_call1_call0_v1 : Ref sig .tc := ⟨.hbm, 190, rfl⟩
abbrev main_v109 : Ref sig .tc := ⟨.hbm, 191, rfl⟩
abbrev main_cst_23 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_cst_24 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_cst_25 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_c_26 : Ref sig .tc := ⟨.hbm, 211, rfl⟩
abbrev main_v126 : Ref sig .tc := ⟨.hbm, 212, rfl⟩
abbrev main_v127 : Ref sig .tc := ⟨.hbm, 213, rfl⟩
abbrev main_c_27 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_c_28 : Ref sig .tc := ⟨.hbm, 221, rfl⟩
abbrev main_v134 : Ref sig .tc := ⟨.hbm, 222, rfl⟩
abbrev main_v135 : Ref sig .tc := ⟨.hbm, 223, rfl⟩
abbrev main_c_29 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_c_30 : Ref sig .tc := ⟨.hbm, 231, rfl⟩
abbrev main_v142 : Ref sig .tc := ⟨.hbm, 232, rfl⟩
abbrev main_v143 : Ref sig .tc := ⟨.hbm, 233, rfl⟩
abbrev main_c_31 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_cst_32 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_cst_33 : Ref sig .tc := ⟨.hbm, 255, rfl⟩
abbrev main_v163 : Ref sig .tc := ⟨.hbm, 256, rfl⟩
abbrev main_cst_34 : Ref sig .tc := ⟨.hbm, 257, rfl⟩
abbrev main_v164 : Ref sig .tc := ⟨.hbm, 258, rfl⟩
abbrev main_v165 : Ref sig .tc := ⟨.hbm, 259, rfl⟩
abbrev main_c_35 : Ref sig .tc := ⟨.hbm, 260, rfl⟩
abbrev main_call2_cst : Ref sig .tc := ⟨.hbm, 261, rfl⟩
abbrev main_call2_v0 : Ref sig .tc := ⟨.hbm, 262, rfl⟩
abbrev main_call2_v1 : Ref sig .tc := ⟨.hbm, 263, rfl⟩
abbrev main_call2_cst_0 : Ref sig .tc := ⟨.hbm, 264, rfl⟩
abbrev main_call2_v2 : Ref sig .tc := ⟨.hbm, 265, rfl⟩
abbrev main_call2_v3 : Ref sig .tc := ⟨.hbm, 266, rfl⟩
abbrev main_call2_v4 : Ref sig .tc := ⟨.hbm, 267, rfl⟩
abbrev main_call2_v5 : Ref sig .tc := ⟨.hbm, 268, rfl⟩
abbrev main_call2_v6 : Ref sig .tc := ⟨.hbm, 269, rfl⟩
abbrev main_call2_v7 : Ref sig .tc := ⟨.hbm, 270, rfl⟩
abbrev main_call2_cst_1 : Ref sig .tc := ⟨.hbm, 271, rfl⟩
abbrev main_call2_v8 : Ref sig .tc := ⟨.hbm, 272, rfl⟩
abbrev main_call2_cst_2 : Ref sig .tc := ⟨.hbm, 273, rfl⟩
abbrev main_call2_v9 : Ref sig .tc := ⟨.hbm, 274, rfl⟩
abbrev main_call2_v10 : Ref sig .tc := ⟨.hbm, 275, rfl⟩
abbrev main_call2_v11 : Ref sig .tc := ⟨.hbm, 276, rfl⟩
abbrev main_call2_cst_3 : Ref sig .tc := ⟨.hbm, 277, rfl⟩
abbrev main_call2_v12 : Ref sig .tc := ⟨.hbm, 278, rfl⟩
abbrev main_call2_cst_4 : Ref sig .tc := ⟨.hbm, 279, rfl⟩
abbrev main_call2_call0_v0 : Ref sig .tc := ⟨.hbm, 280, rfl⟩
abbrev main_call2_call0_v1 : Ref sig .tc := ⟨.hbm, 281, rfl⟩
abbrev main_v166 : Ref sig .tc := ⟨.hbm, 282, rfl⟩
abbrev main_cst_36 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_v173 : Ref sig .tc := ⟨.hbm, 290, rfl⟩
abbrev main_v174 : Ref sig .tc := ⟨.hbm, 291, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg5_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem5_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v105) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v113) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v114) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v115) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v116) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v117) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v117) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v118) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v119) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v162) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v170) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v171) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v172) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v173) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v174) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 322
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S1x1600000, .i32⟩
  | 16 => ⟨S1600000, .i32⟩
  | 17 => ⟨S1x1600000, .i32⟩
  | 18 => ⟨S1600000, .i32⟩
  | 19 => ⟨S128x128, .f32⟩
  | 20 => ⟨S100000x128, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S_, .f32⟩
  | 76 => ⟨S128, .f32⟩
  | 77 => ⟨S128, .f32⟩
  | 78 => ⟨S_, .i32⟩
  | 79 => ⟨S_, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S100000x128, .f32⟩
  | 86 => ⟨S100000x128, .f32⟩
  | 87 => ⟨S100000x128, .f32⟩
  | 88 => ⟨S_, .f32⟩
  | 89 => ⟨S_, .f32⟩
  | 90 => ⟨S_, .f32⟩
  | 91 => ⟨S_, .f32⟩
  | 92 => ⟨S128, .f32⟩
  | 93 => ⟨S128, .f32⟩
  | 94 => ⟨S128, .f32⟩
  | 95 => ⟨S_, .f32⟩
  | 96 => ⟨S_, .i1⟩
  | 97 => ⟨S_, .f32⟩
  | 98 => ⟨S_, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S_, .f32⟩
  | 105 => ⟨S128, .f32⟩
  | 106 => ⟨S128, .f32⟩
  | 107 => ⟨S128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S128x128, .f32⟩
  | 121 => ⟨S100000x128, .f32⟩
  | 122 => ⟨S_, .f32⟩
  | 123 => ⟨S100000, .f32⟩
  | 124 => ⟨S1600000x1, .i32⟩
  | 125 => ⟨S100000, .f32⟩
  | 126 => ⟨S_, .f32⟩
  | 127 => ⟨S100000, .f32⟩
  | _ => ⟨S100000x128, .f32⟩

abbrev hbmTy0_1 (i : Nat) : BufTy := match i % 128 with
  | 0 => ⟨S100000, .f32⟩
  | 1 => ⟨S100000, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000, .f32⟩
  | 11 => ⟨S1600000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000, .f32⟩
  | 21 => ⟨S1600000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S1600000x1, .f32⟩
  | 32 => ⟨S1600000x128, .f32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S100000, .f32⟩
  | 39 => ⟨S100000x1, .f32⟩
  | 40 => ⟨S100000x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S100000x128, .f32⟩
  | 59 => ⟨S100000x128, .f32⟩
  | 60 => ⟨S100000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S128x128, .f32⟩
  | 94 => ⟨S100000x128, .f32⟩
  | 95 => ⟨S_, .f32⟩
  | 96 => ⟨S100000, .f32⟩
  | 97 => ⟨S1600000x1, .i32⟩
  | 98 => ⟨S100000, .f32⟩
  | 99 => ⟨S_, .f32⟩
  | 100 => ⟨S100000, .f32⟩
  | 101 => ⟨S100000, .f32⟩
  | 102 => ⟨S100000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000, .f32⟩
  | 122 => ⟨S1600000, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_2 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S1600000x1, .f32⟩
  | 5 => ⟨S1600000x128, .f32⟩
  | 6 => ⟨S1600000x128, .f32⟩
  | 7 => ⟨S_, .f32⟩
  | 8 => ⟨S100000x128, .f32⟩
  | 9 => ⟨S1600000x1, .i32⟩
  | 10 => ⟨S100000x128, .f32⟩
  | 11 => ⟨S100000, .f32⟩
  | 12 => ⟨S100000x1, .f32⟩
  | 13 => ⟨S100000x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S128, .f32⟩
  | 21 => ⟨S_, .f32⟩
  | 22 => ⟨S128, .f32⟩
  | 23 => ⟨S128, .f32⟩
  | 24 => ⟨S_, .i32⟩
  | 25 => ⟨S_, .f32⟩
  | 26 => ⟨S128, .f32⟩
  | 27 => ⟨S1x128, .f32⟩
  | 28 => ⟨S_, .f32⟩
  | 29 => ⟨S1x128, .f32⟩
  | 30 => ⟨S1x128, .f32⟩
  | 31 => ⟨S100000x128, .f32⟩
  | 32 => ⟨S100000x128, .f32⟩
  | 33 => ⟨S100000x128, .f32⟩
  | 34 => ⟨S_, .f32⟩
  | 35 => ⟨S_, .f32⟩
  | 36 => ⟨S_, .f32⟩
  | 37 => ⟨S_, .f32⟩
  | 38 => ⟨S128, .f32⟩
  | 39 => ⟨S128, .f32⟩
  | 40 => ⟨S128, .f32⟩
  | 41 => ⟨S_, .f32⟩
  | 42 => ⟨S_, .i1⟩
  | 43 => ⟨S_, .f32⟩
  | 44 => ⟨S_, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S_, .f32⟩
  | 51 => ⟨S128, .f32⟩
  | 52 => ⟨S128, .f32⟩
  | 53 => ⟨S128, .f32⟩
  | 54 => ⟨S1x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_2 : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_cst_0 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_cst_1 : Ref sig .tc := ⟨.hbm, 89, rfl⟩
abbrev main_call0_v8 : Ref sig .tc := ⟨.hbm, 90, rfl⟩
abbrev main_call0_cst_2 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_cst_3 : Ref sig .tc := ⟨.hbm, 95, rfl⟩
abbrev main_call0_v12 : Ref sig .tc := ⟨.hbm, 96, rfl⟩
abbrev main_call0_cst_4 : Ref sig .tc := ⟨.hbm, 97, rfl⟩
abbrev main_call0_call0_v0 : Ref sig .tc := ⟨.hbm, 98, rfl⟩
abbrev main_call0_call0_v1 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_10 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_11 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_12 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_cst_13 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_14 : Ref sig .tc := ⟨.hbm, 130, rfl⟩
abbrev main_v78 : Ref sig .tc := ⟨.hbm, 131, rfl⟩
abbrev main_v79 : Ref sig .tc := ⟨.hbm, 132, rfl⟩
abbrev main_c_15 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_16 : Ref sig .tc := ⟨.hbm, 140, rfl⟩
abbrev main_v86 : Ref sig .tc := ⟨.hbm, 141, rfl⟩
abbrev main_v87 : Ref sig .tc := ⟨.hbm, 142, rfl⟩
abbrev main_c_17 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_c_18 : Ref sig .tc := ⟨.hbm, 150, rfl⟩
abbrev main_v94 : Ref sig .tc := ⟨.hbm, 151, rfl⟩
abbrev main_v95 : Ref sig .tc := ⟨.hbm, 152, rfl⟩
abbrev main_c_19 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_cst_20 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_cst_21 : Ref sig .tc := ⟨.hbm, 174, rfl⟩
abbrev main_v115 : Ref sig .tc := ⟨.hbm, 175, rfl⟩
abbrev main_cst_22 : Ref sig .tc := ⟨.hbm, 176, rfl⟩
abbrev main_v116 : Ref sig .tc := ⟨.hbm, 177, rfl⟩
abbrev main_v117 : Ref sig .tc := ⟨.hbm, 178, rfl⟩
abbrev main_c_23 : Ref sig .tc := ⟨.hbm, 179, rfl⟩
abbrev main_call1_cst : Ref sig .tc := ⟨.hbm, 180, rfl⟩
abbrev main_call1_v0 : Ref sig .tc := ⟨.hbm, 181, rfl⟩
abbrev main_call1_v1 : Ref sig .tc := ⟨.hbm, 182, rfl⟩
abbrev main_call1_cst_0 : Ref sig .tc := ⟨.hbm, 183, rfl⟩
abbrev main_call1_v2 : Ref sig .tc := ⟨.hbm, 184, rfl⟩
abbrev main_call1_v3 : Ref sig .tc := ⟨.hbm, 185, rfl⟩
abbrev main_call1_v4 : Ref sig .tc := ⟨.hbm, 186, rfl⟩
abbrev main_call1_v5 : Ref sig .tc := ⟨.hbm, 187, rfl⟩
abbrev main_call1_v6 : Ref sig .tc := ⟨.hbm, 188, rfl⟩
abbrev main_call1_v7 : Ref sig .tc := ⟨.hbm, 189, rfl⟩
abbrev main_call1_cst_1 : Ref sig .tc := ⟨.hbm, 190, rfl⟩
abbrev main_call1_v8 : Ref sig .tc := ⟨.hbm, 191, rfl⟩
abbrev main_call1_cst_2 : Ref sig .tc := ⟨.hbm, 192, rfl⟩
abbrev main_call1_v9 : Ref sig .tc := ⟨.hbm, 193, rfl⟩
abbrev main_call1_v10 : Ref sig .tc := ⟨.hbm, 194, rfl⟩
abbrev main_call1_v11 : Ref sig .tc := ⟨.hbm, 195, rfl⟩
abbrev main_call1_cst_3 : Ref sig .tc := ⟨.hbm, 196, rfl⟩
abbrev main_call1_v12 : Ref sig .tc := ⟨.hbm, 197, rfl⟩
abbrev main_call1_cst_4 : Ref sig .tc := ⟨.hbm, 198, rfl⟩
abbrev main_call1_call0_v0 : Ref sig .tc := ⟨.hbm, 199, rfl⟩
abbrev main_call1_call0_v1 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_cst_24 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_cst_25 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_cst_26 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_cst_27 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_c_28 : Ref sig .tc := ⟨.hbm, 231, rfl⟩
abbrev main_v144 : Ref sig .tc := ⟨.hbm, 232, rfl⟩
abbrev main_v145 : Ref sig .tc := ⟨.hbm, 233, rfl⟩
abbrev main_c_29 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_c_30 : Ref sig .tc := ⟨.hbm, 241, rfl⟩
abbrev main_v152 : Ref sig .tc := ⟨.hbm, 242, rfl⟩
abbrev main_v153 : Ref sig .tc := ⟨.hbm, 243, rfl⟩
abbrev main_c_31 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_c_32 : Ref sig .tc := ⟨.hbm, 251, rfl⟩
abbrev main_v160 : Ref sig .tc := ⟨.hbm, 252, rfl⟩
abbrev main_v161 : Ref sig .tc := ⟨.hbm, 253, rfl⟩
abbrev main_c_33 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_cst_34 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_v180 : Ref sig .tc := ⟨.hbm, 274, rfl⟩
abbrev main_cst_35 : Ref sig .tc := ⟨.hbm, 275, rfl⟩
abbrev main_v181 : Ref sig .tc := ⟨.hbm, 276, rfl⟩
abbrev main_cst_36 : Ref sig .tc := ⟨.hbm, 277, rfl⟩
abbrev main_v182 : Ref sig .tc := ⟨.hbm, 278, rfl⟩
abbrev main_v183 : Ref sig .tc := ⟨.hbm, 279, rfl⟩
abbrev main_c_37 : Ref sig .tc := ⟨.hbm, 280, rfl⟩
abbrev main_call2_cst : Ref sig .tc := ⟨.hbm, 281, rfl⟩
abbrev main_call2_v0 : Ref sig .tc := ⟨.hbm, 282, rfl⟩
abbrev main_call2_v1 : Ref sig .tc := ⟨.hbm, 283, rfl⟩
abbrev main_call2_cst_0 : Ref sig .tc := ⟨.hbm, 284, rfl⟩
abbrev main_call2_v2 : Ref sig .tc := ⟨.hbm, 285, rfl⟩
abbrev main_call2_v3 : Ref sig .tc := ⟨.hbm, 286, rfl⟩
abbrev main_call2_v4 : Ref sig .tc := ⟨.hbm, 287, rfl⟩
abbrev main_call2_v5 : Ref sig .tc := ⟨.hbm, 288, rfl⟩
abbrev main_call2_v6 : Ref sig .tc := ⟨.hbm, 289, rfl⟩
abbrev main_call2_v7 : Ref sig .tc := ⟨.hbm, 290, rfl⟩
abbrev main_call2_cst_1 : Ref sig .tc := ⟨.hbm, 291, rfl⟩
abbrev main_call2_v8 : Ref sig .tc := ⟨.hbm, 292, rfl⟩
abbrev main_call2_cst_2 : Ref sig .tc := ⟨.hbm, 293, rfl⟩
abbrev main_call2_v9 : Ref sig .tc := ⟨.hbm, 294, rfl⟩
abbrev main_call2_v10 : Ref sig .tc := ⟨.hbm, 295, rfl⟩
abbrev main_call2_v11 : Ref sig .tc := ⟨.hbm, 296, rfl⟩
abbrev main_call2_cst_3 : Ref sig .tc := ⟨.hbm, 297, rfl⟩
abbrev main_call2_v12 : Ref sig .tc := ⟨.hbm, 298, rfl⟩
abbrev main_call2_cst_4 : Ref sig .tc := ⟨.hbm, 299, rfl⟩
abbrev main_call2_call0_v0 : Ref sig .tc := ⟨.hbm, 300, rfl⟩
abbrev main_call2_call0_v1 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_cst_38 : Ref sig .tc := ⟨.hbm, 306, rfl⟩
abbrev main_v188 : Ref sig .tc := ⟨.hbm, 307, rfl⟩
abbrev main_v189 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_v195 : Ref sig .tc := ⟨.hbm, 314, rfl⟩
abbrev main_v196 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_39 : Ref sig .tc := ⟨.hbm, 319, rfl⟩
abbrev main_v200 : Ref sig .tc := ⟨.hbm, 320, rfl⟩
abbrev main_v201 : Ref sig .tc := ⟨.hbm, 321, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRun.lean ====
/-
  The idealized kernel program's run with every buffer named.

  @main is six kernel regions among stretches of host operations.  Every weakly fair execution from a memory with
  zero counters terminates without a fault, and in the final state every unscoped TensorCore buffer holds the last
  boundary's contents: the launch memory folded through the host stretches, each region's arrays replaced by what its
  write-backs leave.  The segments, their chaining and the launch are the frame's; only the final reading differs:
  all buffers instead of the arguments alone.
-/
import proofs.«114926_j41686952575093_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each unscoped buffer at the last boundary's contents. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W18 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c b hb => h c _ (mem_uc b hb))

end Cert.KernelIdeal.KRun

end
-- ==== Proof.Spec.lean ====
/-
  The function both programs compute, one graph-convolution layer at a time.

  A layer takes the node features h (100000 × 128), the two rows src, dst of the edge list, the edge weights w, and the
  layer's parameters W (128 × 128), b, γ, β (128 each):
    x      = h · Wᵀ                                              (the dense projection)
    deg    = 1 + Σ_{e : dst e = v} w e,   dinv = deg^(-1/2)        (weighted in-degree with a self-loop)
    norm e = dinv (src e) · w e · dinv (dst e)
    agg v  = Σ_{e : dst e = v} x (src e) · norm e                  (rows gathered, scaled, scattered back)
    o      = agg + x · dinv² + b                                  (self-loop term and bias)
    μ, σ²  = column mean and biased column variance of o over the nodes
    out    = max(((o − μ) · (σ² + ε)^(-1/2)) · γ + β, 0).
  Every operation is the host's own (gather, accumulating scatter, column sum), kept folded: the two programs apply the
  same ones in the same order, and nothing below looks inside them.  Negative indices are wrapped by 100000 first, as
  the host does.  The network is three layers.
-/
import proofs.«114926_j41686952575093_1_alg».proof.ReferenceIdeal

noncomputable section

namespace Cert.Proof.Spec

open Idealize.ShloMosaic Cert.ReferenceIdeal Cert.ReferenceIdeal.Facts₀

variable {F : FTy → Type} [FloatOps F] [Cert.ReferenceIdeal.Facts]

/-- The dense projection h · Wᵀ: the host's product of h with the transposed weight. -/
def xOf (h : FVec F S100000x128 .f32) (W : FVec F S128x128 .f32) : FVec F S100000x128 .f32 :=
  Host.dotGeneral dot_S100000x128_S128x128_S100000x128_1_0_0_1_n_n none h
    (transpose S128x128 [1, 0] W transposes_S128x128_S128x128_1_0)

/-- An edge endpoint as a gather index: a negative entry is wrapped by the number of nodes, then the vector is made
    a one-column table. -/
def wrapIdx (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- deg^(-1/2), deg v = 1 + the sum of the weights of the edges into v. -/
def dinvOf (dst : IVec S1600000 32) (w : FVec F S1600000 .f32) : FVec F S100000 .f32 :=
  Host.rsqrt
    (addf
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst) w)
      (broadcastInDim S100000 ![] bcast_S_S100000 (constant S_ .f32 0x3F800000#32)))

/-- The symmetric normalisation of an edge: dinv at its source, times its weight, times dinv at its target. -/
def normOf (dinv : FVec F S100000 .f32) (src dst : IVec S1600000 32) (w : FVec F S1600000 .f32) : FVec F S1600000 .f32 :=
  mulf
    (mulf (Host.gather gather_S100000_S1600000x1_S1600000_n_0_n_n_0_1_1 dinv (wrapIdx src)) w)
    (Host.gather gather_S100000_S1600000x1_S1600000_n_0_n_n_0_1_1 dinv (wrapIdx dst))

/-- The aggregated messages: the source rows of x scaled by the edge normalisation, summed into their targets. -/
def aggOf (x : FVec F S100000x128 .f32) (norm : FVec F S1600000 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (Host.gather gather_S100000x128_S1600000x1_S1600000x128_1_0_n_n_0_1_1128 x (wrapIdx src))
      (broadcastInDim S1600000x128 ![0, 1] bcast_S1600000x1_S1600000x128_0_1
        (broadcastInDim S1600000x1 ![0] bcast_S1600000_S1600000x1_0 norm)))

/-- A vector over the 128 columns repeated on every node's row. -/
def rowsOf (v : FVec F S128 .f32) : FVec F S100000x128 .f32 :=
  broadcastInDim S100000x128 ![0, 1] bcast_S1x128_S100000x128_0_1 (broadcastInDim S1x128 ![1] bcast_S128_S1x128_1 v)

/-- The layer before normalisation: aggregated messages, the self-loop term x · dinv², the bias. -/
def preOf (x : FVec F S100000x128 .f32) (src dst : IVec S1600000 32) (w : FVec F S1600000 .f32) (b : FVec F S128 .f32) :
    FVec F S100000x128 .f32 :=
  addf
    (addf (aggOf x (normOf (dinvOf dst w) src dst w) src dst)
      (mulf x
        (broadcastInDim S100000x128 ![0, 1] bcast_S100000x1_S100000x128_0_1
          (broadcastInDim S100000x1 ![0] bcast_S100000_S100000x1_0 (mulf (dinvOf dst w) (dinvOf dst w))))))
    (rowsOf b)

/-- The column mean over the nodes: the column sum divided by 100000. -/
def meanOf (o : FVec F S100000x128 .f32) : FVec F S128 .f32 :=
  Host.divf (Host.reduceAdd o (constant S_ .f32 0x00000000#32) reducesTo_S100000x128_S128_d0 h_S_)
    (broadcastInDim S128 ![] bcast_S_S128 (constant S_ .f32 0x47C35000#32))

/-- The biased column variance over the nodes, as the host's variance routine computes it: the mean (kept as a row)
    subtracted, squared, summed down the columns, divided by 100000 − 0; the routine's guard for a non-positive divisor
    selects a not-a-number vector instead, and is carried as written. -/
def varOf (o : FVec F S100000x128 .f32) : FVec F S128 .f32 :=
  (fun (p : IVec S_ 1) (a b : FVec F S128 .f32) => select (broadcastInDim S128 ![] bcast_S_S128 p) a b)
    (cmpf .ogt (subf (constant (F := F) S_ .f32 0x47C35000#32) (sitofp .f32 (constantI S_ 32 0#32))) (constant (F := F) S_ .f32 0x00000000#32))
    (Host.divf
      (Host.reduceAdd
        (mulf
          (subf o (broadcastInDim S100000x128 ![0, 1] bcast_S1x128_S100000x128_0_1
            (Host.divf (broadcastInDim S1x128 ![1] bcast_S128_S1x128_1
                (Host.reduceAdd o (constant S_ .f32 0x00000000#32) reducesTo_S100000x128_S128_d0 h_S_))
              (broadcastInDim S1x128 ![] bcast_S_S1x128 (constant S_ .f32 0x47C35000#32)))))
          (subf o (broadcastInDim S100000x128 ![0, 1] bcast_S1x128_S100000x128_0_1
            (Host.divf (broadcastInDim S1x128 ![1] bcast_S128_S1x128_1
                (Host.reduceAdd o (constant S_ .f32 0x00000000#32) reducesTo_S100000x128_S128_d0 h_S_))
              (broadcastInDim S1x128 ![] bcast_S_S1x128 (constant S_ .f32 0x47C35000#32))))))
        (constant S_ .f32 0x00000000#32) reducesTo_S100000x128_S128_d0 h_S_)
      (broadcastInDim S128 ![] bcast_S_S128
        (subf (constant S_ .f32 0x47C35000#32) (sitofp .f32 (constantI S_ 32 0#32)))))
    (broadcastInDim S128 ![] bcast_S_S128 (id (constant S_ .f32 0x7FC00000#32)))

/-- (σ² + ε)^(-1/2), ε the single-precision 1e-5. -/
def rstdOf (var : FVec F S128 .f32) : FVec F S128 .f32 :=
  Host.rsqrt (addf var (broadcastInDim S128 ![] bcast_S_S128 (constant S_ .f32 0x3727C5AC#32)))

/-- Normalisation, scale, shift and the positive part, entry by entry. -/
def bnOf (o : FVec F S100000x128 .f32) (mean var g be : FVec F S128 .f32) : FVec F S100000x128 .f32 :=
  maximumf
    (addf (mulf (mulf (subf o (rowsOf mean)) (rowsOf (rstdOf var))) (rowsOf g)) (rowsOf be))
    (broadcastInDim S100000x128 ![] bcast_S_S100000x128 (constant S_ .f32 0x00000000#32))

/-- One layer. -/
def layer (h : FVec F S100000x128 .f32) (src dst : IVec S1600000 32) (w : FVec F S1600000 .f32)
    (W : FVec F S128x128 .f32) (b g be : FVec F S128 .f32) : FVec F S100000x128 .f32 :=
  bnOf (preOf (xOf h W) src dst w b) (meanOf (preOf (xOf h W) src dst w b)) (varOf (preOf (xOf h W) src dst w b)) g be

/-- The two rows of the edge list. -/
def srcOf (ei : IVec S2x1600000 32) : IVec S1600000 32 :=
  shapeCast S1600000 (extractStridedSlice S1x1600000 ![0, 0] ei slices_S2x1600000_S1x1600000_0_0) shapeCasts_S1x1600000_S1600000
def dstOf (ei : IVec S2x1600000 32) : IVec S1600000 32 :=
  shapeCast S1600000 (extractStridedSlice S1x1600000 ![1, 0] ei slices_S2x1600000_S1x1600000_1_0) shapeCasts_S1x1600000_S1600000

end Cert.Proof.Spec

end
-- ==== Proof.KGood.lean ====
/-
  What every later layer still needs from the buffers: the two rows of the edge list, the edge weights and the
  parameters of the second and third layers, each as launched (the rows as sliced from the launched edge list).
-/
import proofs.«114926_j41686952575093_1_alg».proof.Proof.Gen.KernelIdeal.Frame
import proofs.«114926_j41686952575093_1_alg».proof.Proof.Spec
import proofs.«114926_j41686952575093_1_alg».proof.Proof.Gen.ReferenceIdeal
import Idealize.ShloMosaic.PureOps.Ideal.Laws

noncomputable section

namespace Cert.Proof.KGood

open Idealize.ShloMosaic Idealize.ShloMosaic.TcCoe Idealize.ShloMosaic.StableHlo Idealize.SL.Sem
open Cert.KernelIdeal Cert.KernelIdeal.Gen

/-- The buffers later layers read hold what the launch gave them. -/
structure Good (m : (ℓ : Loc nD τ sig) → Buf (Elt Ideal) ℓ) (c : Dev nD) (W : Valuation τ sig (Elt Ideal)) : Prop where
  v1 : W (Proc.devRef .tc main_v1) = Spec.srcOf (m ((c : Thread nD τ).loc main_arg1))
  v3 : W (Proc.devRef .tc main_v3) = Spec.dstOf (m ((c : Thread nD τ).loc main_arg1))
  a2 : W (Proc.devRef .tc main_arg2) = m ((c : Thread nD τ).loc main_arg2)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  a12 : W (Proc.devRef .tc main_arg12) = m ((c : Thread nD τ).loc main_arg12)
  a13 : W (Proc.devRef .tc main_arg13) = m ((c : Thread nD τ).loc main_arg13)
  a14 : W (Proc.devRef .tc main_arg14) = m ((c : Thread nD τ).loc main_arg14)

/-- A stretch or region that leaves those buffers alone keeps the property. -/
theorem Good.of_keep {m : (ℓ : Loc nD τ sig) → Buf (Elt Ideal) ℓ} {c : Dev nD} {W W' : Valuation τ sig (Elt Ideal)} (h : Good m c W)
    (k1 : W' (Proc.devRef .tc main_v1) = W (Proc.devRef .tc main_v1)) (k3 : W' (Proc.devRef .tc main_v3) = W (Proc.devRef .tc main_v3))
    (k2 : W' (Proc.devRef .tc main_arg2) = W (Proc.devRef .tc main_arg2))
    (k7 : W' (Proc.devRef .tc main_arg7) = W (Proc.devRef .tc main_arg7)) (k8 : W' (Proc.devRef .tc main_arg8) = W (Proc.devRef .tc main_arg8))
    (k9 : W' (Proc.devRef .tc main_arg9) = W (Proc.devRef .tc main_arg9)) (k10 : W' (Proc.devRef .tc main_arg10) = W (Proc.devRef .tc main_arg10))
    (k11 : W' (Proc.devRef .tc main_arg11) = W (Proc.devRef .tc main_arg11)) (k12 : W' (Proc.devRef .tc main_arg12) = W (Proc.devRef .tc main_arg12))
    (k13 : W' (Proc.devRef .tc main_arg13) = W (Proc.devRef .tc main_arg13)) (k14 : W' (Proc.devRef .tc main_arg14) = W (Proc.devRef .tc main_arg14)) :
    Good m c W' :=
  ⟨k1.trans h.v1, k3.trans h.v3, k2.trans h.a2, k7.trans h.a7, k8.trans h.a8, k9.trans h.a9, k10.trans h.a10, k11.trans h.a11,
    k12.trans h.a12, k13.trans h.a13, k14.trans h.a14⟩

end Cert.Proof.KGood

end
-- ==== Proof.LibBroadcasts.lean ====
/-
  Broadcasts read at an index, for the few forms a host program over vectors and matrices uses.

  A broadcast copies the operand along the axes it adds and along the operand's axes of extent one.  So a scalar
  broadcast to any shape has the scalar everywhere; a vector of m entries made a column [m, 1] has entry e at (e, 0);
  a column [m, 1] widened to [m, q] has entry (e, 0) at (e, c); a vector of q entries made a row [1, q] has entry c
  at (0, c); and a row [1, q] repeated to [n, q] has entry (0, c) at (p, c).
-/
import Idealize.ShloMosaic.Lib.ValueIdx
import Idealize.ShloMosaic.Lib.Pipeline.Value

noncomputable section

namespace Broadcasts

open Idealize.ShloMosaic Idealize.ShloMosaic.ValueIdx

variable {α : Type}

/-- A scalar broadcast to any shape reads the scalar at every index. -/
theorem scalar_apply (t : Shape) (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads entry e at (e, 0). -/
theorem column_apply {m : Nat} (h : (⟨1, ![m]⟩ : Shape).BroadcastsInDim ⟨2, ![m, 1]⟩ (![0] : Fin 1 → Fin 2))
    (x : (⟨1, ![m]⟩ : Shape).Idx → α) (e : Fin m) :
    broadcastInDim (⟨2, ![m, 1]⟩ : Shape) ![0] h x (ix2 e (0 : Fin 1)) = x (ix1 e) :=
  broadcastInDim_apply _ h x _ (ix1 e) (fun a => match a with
    | ⟨0, _⟩ => by
      show e.val = if m = 1 then 0 else e.val
      split
      · have := e.isLt; omega
      · rfl)

/-- A column widened to q columns reads entry (e, 0) at (e, c). -/
theorem widen_apply {m q : Nat} (h : (⟨2, ![m, 1]⟩ : Shape).BroadcastsInDim ⟨2, ![m, q]⟩ (![0, 1] : Fin 2 → Fin 2))
    (x : (⟨2, ![m, 1]⟩ : Shape).Idx → α) (e : Fin m) (c : Fin q) :
    broadcastInDim (⟨2, ![m, q]⟩ : Shape) ![0, 1] h x (ix2 e c) = x (ix2 e (0 : Fin 1)) :=
  broadcastInDim_apply _ h x _ (ix2 e (0 : Fin 1)) (fun a => match a with
    | ⟨0, _⟩ => by
      show e.val = if m = 1 then 0 else e.val
      split
      · have := e.isLt; omega
      · rfl
    | ⟨1, _⟩ => by
      show 0 = if (1 : Nat) = 1 then 0 else c.val
      rw [if_pos rfl])

/-- A vector made a row reads entry c at (0, c). -/
theorem row_apply {q : Nat} (h : (⟨1, ![q]⟩ : Shape).BroadcastsInDim ⟨2, ![1, q]⟩ (![1] : Fin 1 → Fin 2))
    (x : (⟨1, ![q]⟩ : Shape).Idx → α) (c : Fin q) :
    broadcastInDim (⟨2, ![1, q]⟩ : Shape) ![1] h x (ix2 (0 : Fin 1) c) = x (ix1 c) :=
  broadcastInDim_apply _ h x _ (ix1 c) (fun a => match a with
    | ⟨0, _⟩ => by
      show c.val = if q = 1 then 0 else c.val
      split
      · have := c.isLt; omega
      · rfl)

/-- A row repeated n times reads entry (0, c) at (p, c). -/
theorem repeat_apply {n q : Nat} (h : (⟨2, ![1, q]⟩ : Shape).BroadcastsInDim ⟨2, ![n, q]⟩ (![0, 1] : Fin 2 → Fin 2))
    (x : (⟨2, ![1, q]⟩ : Shape).Idx → α) (p : Fin n) (c : Fin q) :
    broadcastInDim (⟨2, ![n, q]⟩ : Shape) ![0, 1] h x (ix2 p c) = x (ix2 (0 : Fin 1) c) :=
  broadcastInDim_apply _ h x _ (ix2 (0 : Fin 1) c) (fun a => match a with
    | ⟨0, _⟩ => by
      show 0 = if (1 : Nat) = 1 then 0 else p.val
      rw [if_pos rfl]
    | ⟨1, _⟩ => by
      show c.val = if q = 1 then 0 else c.val
      split
      · have := c.isLt; omega
      · rfl)

end Broadcasts

end
-- ==== Proof.Shared.lean ====
/-
  The two functions the kernel regions compute, stated once, and their agreement with the host's forms.

  A projection region computes the host's product of the feature array with a 128 × 128 matrix; when the matrix is the
  transposed weight this is the layer's projection.  A normalisation region computes, entry by entry,
  max(((o − μ) · ρ) · γ + β, 0) from an array o and four one-row arrays; when the rows are the column mean, the
  reciprocal deviation, γ and β reshaped from 128-vectors to rows, this is the host's normalisation, which broadcasts
  the same vectors to rows and then down the rows.
-/
import proofs.«114926_j41686952575093_1_alg».proof.Proof.Spec
import proofs.«114926_j41686952575093_1_alg».proof.Proof.Gen.ReferenceIdeal
import proofs.«114926_j41686952575093_1_alg».proof.Proof.LibBroadcasts
import Idealize.ShloMosaic.Lib.StackMember
import Idealize.ShloMosaic.Lib.ValueLayout
import Idealize.ShloMosaic.Lib.Pipeline.Value
import Idealize.ShloMosaic.Lib.ValueIdx

noncomputable section

namespace Cert.Proof.Shared

open Idealize.ShloMosaic Idealize.ShloMosaic.ValueIdx
open Cert.ReferenceIdeal Cert.ReferenceIdeal.Facts₀

theorem hz : (![0, 0] : Fin 2 → Nat) = fun _ => 0 := funext fun a => by fin_cases a <;> rfl

/-- The host's product of the whole node-feature array with a 128 × 128 matrix. -/
def prod (h : FVec Ideal S100000x128 .f32) (M : FVec Ideal S128x128 .f32) : FVec Ideal S100000x128 .f32 :=
  Host.dotGeneral (F := Ideal) dot_S100000x128_S128x128_S100000x128_1_0_0_1_n_n none h M

/-- The host's product at an entry is the sum over the contracted coordinate. -/
theorem prod_apply (h : FVec Ideal S100000x128 .f32) (M : FVec Ideal S128x128 .f32) (a : Fin 100000) (q : Fin 128) :
    prod h M (ix2 a q) = ∑ k : Fin 128, h (ix2 a k) * M (ix2 k q) :=
  Idealize.ShloMosaic.StackMember.dotGeneral_plain_apply (m := 100000) (n := 128) (φ₁ := .f32) (φ₂ := .f32) none h M a q

/-- With the transposed weight as the matrix it is the layer's projection. -/
theorem prod_transpose (h : FVec Ideal S100000x128 .f32) (W : FVec Ideal S128x128 .f32) :
    prod h (transpose S128x128 [1, 0] W transposes_S128x128_S128x128_1_0) = Spec.xOf h W := rfl

/-- One entry of a normalisation: centred, scaled by the reciprocal deviation and by γ, shifted by β, positive part. -/
def bnPt (o mu rs g be : EReal) : EReal :=
  max ((o - mu) * rs * g + be) (Ideal.ofBits .f32 0x00000000#32)

/-- The whole array: entry (a, q) from o (a, q) and column q of the four rows. -/
def bnRows (o : FVec Ideal S100000x128 .f32) (mu rs g be : FVec Ideal S1x128 .f32) : FVec Ideal S100000x128 .f32 :=
  fun i => bnPt (o i) (mu (ix2 (0 : Fin 1) (i 1))) (rs (ix2 (0 : Fin 1) (i 1))) (g (ix2 (0 : Fin 1) (i 1))) (be (ix2 (0 : Fin 1) (i 1)))

theorem bnRows_apply (o : FVec Ideal S100000x128 .f32) (mu rs g be : FVec Ideal S1x128 .f32) (a : Fin 100000) (q : Fin 128) :
    bnRows o mu rs g be (ix2 a q)
      = bnPt (o (ix2 a q)) (mu (ix2 (0 : Fin 1) q)) (rs (ix2 (0 : Fin 1) q)) (g (ix2 (0 : Fin 1) q)) (be (ix2 (0 : Fin 1) q)) := rfl

/-- A 128-vector repeated on every node's row, at an entry. -/
theorem rowsOf_apply (v : FVec Ideal S128 .f32) (a : Fin 100000) (q : Fin 128) : Spec.rowsOf v (ix2 a q) = v (ix1 q) := by
  unfold Spec.rowsOf
  rw [Broadcasts.repeat_apply, Broadcasts.row_apply]

/-- The host's normalisation at an entry. -/
theorem bnOf_apply (o : FVec Ideal S100000x128 .f32) (mean var g be : FVec Ideal S128 .f32) (a : Fin 100000) (q : Fin 128) :
    Spec.bnOf o mean var g be (ix2 a q)
      = bnPt (o (ix2 a q)) (mean (ix1 q)) (Spec.rstdOf var (ix1 q)) (g (ix1 q)) (be (ix1 q)) := by
  unfold Spec.bnOf
  show max (((o (ix2 a q) - Spec.rowsOf mean (ix2 a q)) * Spec.rowsOf (Spec.rstdOf var) (ix2 a q)) * Spec.rowsOf g (ix2 a q)
      + Spec.rowsOf be (ix2 a q))
      (broadcastInDim S100000x128 ![] bcast_S_S100000x128 (constant (F := Ideal) S_ .f32 0x00000000#32) (ix2 a q)) = _
  rw [rowsOf_apply, rowsOf_apply, rowsOf_apply, rowsOf_apply, Broadcasts.scalar_apply]
  rfl

/-- The kernel's normalisation over the four vectors seen as rows is the host's normalisation. -/
theorem bnRows_reshaped (o : FVec Ideal S100000x128 .f32) (mean var g be : FVec Ideal S128 .f32)
    (h : S128.ShapeCasts S1x128) :
    bnRows o (shapeCast S1x128 mean h) (shapeCast S1x128 (Spec.rstdOf var) h) (shapeCast S1x128 g h) (shapeCast S1x128 be h)
      = Spec.bnOf o mean var g be := by
  funext i
  obtain ⟨a, q, rfl⟩ : ∃ (a : Fin 100000) (q : Fin 128), i = ix2 a q := ⟨i 0, i 1, eq_ix2 i⟩
  rw [bnRows_apply, bnOf_apply, shapeCast_a_1a_apply, shapeCast_a_1a_apply, shapeCast_a_1a_apply, shapeCast_a_1a_apply]

end Cert.Proof.Shared

end
-- ==== Proof.LibPlainMatmul.lean ====
import Idealize.ShloMosaic.PureOps.Ideal.Laws
import Idealize.ShloMosaic.Lib.ValueLayout
import Idealize.ShloMosaic.Lib.StackMember

/-!
A plain matrix product (rows by contraction, times contraction by columns) accumulated into the zero
matrix, read at one entry at the ideal values: the sum over the contracted coordinate of the products
of the two operands' entries.  Also: a record of dimension numbers with the plain product's lists IS
the plain product's record, and the bit pattern of the float `1.0` denotes the extended real `1`.
-/

noncomputable section

namespace Cert.Proof.LibPlainMatmul

open Idealize.ShloMosaic Idealize.ShloMosaic.ValueIdx

/-- The plain `m × k` by `k × n` product into the zero accumulator, at entry `(a, b)`, is
    `∑ c, A (a, c) * B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The bit pattern of the single-precision `1.0` denotes the extended real `1`. -/
theorem ofBits_one_f32 : Ideal.ofBits .f32 0x3F800000#32 = 1 :=
  IdealRules.sign_bit.ideal_onePat .f32

end Cert.Proof.LibPlainMatmul

end
-- ==== Proof.KLin0.lean ====
/-
  The first dense projection, read off the kernel region that computes it.

  The region walks 20 grid points; at point t it loads rows 5000·t … 5000·t + 4999 of the node features and the whole
  128 × 128 matrix, multiplies them (both operands narrowed to bf16 on the way in: at the ideal values a change of
  format is the identity) into a zero accumulator, and writes the 5000 × 128 block back at the same rows.  Entry (r, q)
  of that block is Σ_k h(5000·t + r, k) · M(k, q), which is entry (5000·t + r, q) of the host's product h · M.  The
  twenty blocks tile the 100000 rows, so the result array ends holding h · M.
-/
import proofs.«114926_j41686952575093_1_alg».proof.Proof.Gen.KernelIdeal.Frame
import proofs.«114926_j41686952575093_1_alg».proof.Proof.Shared
import proofs.«114926_j41686952575093_1_alg».proof.Proof.LibPlainMatmul

set_option maxRecDepth 16384

noncomputable section

namespace Cert.Proof.KLin0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Proof.Shared

variable (V : (c : Dev nD) → (b : Ref sig .tc) → Buf (Elt Ideal) ((c : Thread nD τ).loc b))

/-- The body's product at an entry of the block is the sum over the contracted coordinate. -/
theorem pay_apply (A : Vec Ideal S5000x128 .f32) (B : Vec Ideal S128x128 .f32) (r : Fin 5000) (q : Fin 128) :
    k0_pay1 (F := Ideal) A B (ix2 r q) = ∑ k : Fin 128, A (ix2 r k) * B (ix2 k q) := by
  unfold k0_pay1
  simp only [shapeCast_self]
  exact Cert.Proof.LibPlainMatmul.matmul_plain_zero_apply (φ₁ := .bf16) (φ₂ := .bf16) none A B r q

/-- The printed index maps over the grid: the feature and result windows move down one block per point, the matrix
    window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row of the array that row r of block t is. -/
def rowAt (t : Fin cfg0.N) (r : Fin 5000) : Fin 100000 :=
  ⟨5000 * t.val + r.val, by have := t.isLt; have h : cfg0.N = 20 := N_0; have := r.isLt; omega⟩

/-- Where the entries of the three windows' blocks at point t sit in their arrays. -/
theorem emb_feat (t : Fin cfg0.N) (r : Fin 5000) (k : Fin 128) :
    ((cfg0.win 0).blk t).view.emb (ix2 r k) = ix2 (rowAt t r) k := by
  obtain ⟨e0, e1, -, -, -, -⟩ := idx_facts t
  funext a; apply Fin.ext
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

theorem emb_mat (t : Fin cfg0.N) (k : Fin 128) (q : Fin 128) :
    ((cfg0.win 1).blk t).view.emb (ix2 k q) = ix2 k q := by
  obtain ⟨-, -, e2, e3, -, -⟩ := idx_facts t
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

theorem emb_out (t : Fin cfg0.N) (r : Fin 5000) (q : Fin 128) :
    ((cfg0.win 2).blk t).view.emb (ix2 r q) = ix2 (rowAt t r) q := by
  obtain ⟨-, -, -, -, e4, e5⟩ := idx_facts t
  funext a; apply Fin.ext
  match a with
  | ⟨0, _⟩ => show win0_2.index t (0 : Fin 2) * 5000 + 1 * r.val = 5000 * t.val + r.val; rw [e4]; omega
  | ⟨1, _⟩ => show win0_2.index t (1 : Fin 2) * 128 + 1 * q.val = q.val; rw [e5]; omega

/-- What point t writes back is block t of the host's product of the arrays the region finds. -/
theorem flushed_eq (c : Dev nD) (t : Fin cfg0.N) :
    (dat0 (F := Ideal) V c).flushed 2 t
      = ((cfg0.win 2).blk t).view.read (Elt Ideal) (prod (V c main_arg0) (V c main_v4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨r, q, rfl⟩ : ∃ (r : Fin 5000) (q : Fin 128), j = ix2 r q := ⟨j 0, j 1, eq_ix2 j⟩
  show k0_pay1 (iblk0 V c 0 t) (iblk0 V c 1 t) (ix2 r q)
    = prod (V c main_arg0) (V c main_v4) (((cfg0.win 2).blk t).view.emb (ix2 r q))
  refine (pay_apply (iblk0 V c 0 t) (iblk0 V c 1 t) r q).trans ?_
  rw [emb_out t r q, prod_apply]
  refine Finset.sum_congr rfl fun k _ => ?_
  have h0 : iblk0 V c 0 t (ix2 r k) = (V c main_arg0 : FVec Ideal S100000x128 .f32) (ix2 (rowAt t r) k) := by
    show V c main_arg0 (((cfg0.win 0).blk t).view.emb (ix2 r k)) = _
    rw [emb_feat t r k]
  have h1 : iblk0 V c 1 t (ix2 k q) = (V c main_v4 : FVec Ideal S128x128 .f32) (ix2 k q) := by
    show V c main_v4 (((cfg0.win 1).blk t).view.emb (ix2 k q)) = _
    rw [emb_mat t k q]
  rw [h0, h1]

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v5).slice (win0_2.rect t)).set ↔ _
  rw [View.set_slice_whole, Rect.mem_set_unit]
  exact Iff.rfl

/-- Every row lies in the block of the point that is its number divided by 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by omega⟩, flush0_2 _, ?_⟩
  rw [mem_blk]
  obtain ⟨-, -, -, -, e4, e5⟩ := idx_facts ⟨(i 0).val / 5000, by omega⟩
  intro a
  match a with
  | ⟨0, _⟩ =>
    show win0_2.index ⟨(i 0).val / 5000, _⟩ (0 : Fin 2) * 5000 ≤ (i 0).val ∧ (i 0).val < win0_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, _⟩ (1 : Fin 2) * 128 ≤ (i 1).val ∧ (i 1).val < win0_2.index ⟨(i 0).val / 5000, _⟩ (1 : Fin 2) * 128 + 128
    rw [e5]; omega

/-- The result array after the region: the host's product of the feature array with the matrix array. -/
theorem final (c : Dev nD) : (dat0 (F := Ideal) V c).arrAt 2 cfg0.N = prod (V c main_arg0) (V c main_v4) :=
  (dat0 V c).arrAt_eq_of_cover 2 (prod (V c main_arg0) (V c main_v4)) (fun t _ => flushed_eq V c t) cover

end Cert.Proof.KLin0

end
-- ==== Proof.KBn1.lean ====
/-
  The first normalisation, read off the kernel region that computes it.

  The region walks 20 grid points; at point t it loads rows 5000·t … 5000·t + 4999 of the pre-normalisation array o and
  four one-row arrays (mean, reciprocal deviation, scale, shift), and writes back, entry by entry,
  max(((o − μ) · ρ) · γ + β, 0), each row array repeated down the block's rows.  The twenty blocks tile the rows, so
  the result array ends holding that function of o and the four rows.  When the four rows are the 128-vectors
  mean, (var + ε)^(-1/2), γ, β seen as rows, it is the host's normalisation of o.
-/
import proofs.«114926_j41686952575093_1_alg».proof.Proof.Gen.KernelIdeal.Frame
import proofs.«114926_j41686952575093_1_alg».proof.Proof.Shared

set_option maxRecDepth 16384

noncomputable section

namespace Cert.Proof.KBn1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Proof.Shared

variable (V : (c : Dev nD) → (b : Ref sig .tc) → Buf (Elt Ideal) ((c : Thread nD τ).loc b))

/-- The body's value at an entry of the block. -/
theorem pay_apply (x0 : Vec Ideal S5000x128 .f32) (x1 x2 x3 x4 : Vec Ideal S1x128 .f32) (r : Fin 5000) (q : Fin 128) :
    k1_pay1 (F := Ideal) x0 x1 x2 x3 x4 (ix2 r q)
      = bnPt (x0 (ix2 r q)) (x1 (ix2 (0 : Fin 1) q)) (x2 (ix2 (0 : Fin 1) q)) (x3 (ix2 (0 : Fin 1) q)) (x4 (ix2 (0 : Fin 1) q)) := by
  unfold k1_pay1
  simp only [shapeCast_self]
  show max (((x0 (ix2 r q) - broadcastTo S5000x128 x1 broadcasts_S1x128_S5000x128 (ix2 r q))
        * broadcastTo S5000x128 x2 broadcasts_S1x128_S5000x128 (ix2 r q))
        * broadcastTo S5000x128 x3 broadcasts_S1x128_S5000x128 (ix2 r q)
      + broadcastTo S5000x128 x4 broadcasts_S1x128_S5000x128 (ix2 r q)) (Ideal.ofBits .f32 0x00000000#32) = _
  rw [broadcastTo_1b_ab_apply x1, broadcastTo_1b_ab_apply x2, broadcastTo_1b_ab_apply x3, broadcastTo_1b_ab_apply x4]
  rfl

/-- The printed index maps over the grid: the data and result windows move down one block per point, the four row
    windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The row of the array that row r of block t is. -/
def rowAt (t : Fin cfg1.N) (r : Fin 5000) : Fin 100000 :=
  ⟨5000 * t.val + r.val, by have := t.isLt; have h : cfg1.N = 20 := N_1; have := r.isLt; omega⟩

theorem emb_data (t : Fin cfg1.N) (r : Fin 5000) (q : Fin 128) :
    ((cfg1.win 0).blk t).view.emb (ix2 r q) = ix2 (rowAt t r) q := by
  obtain ⟨e0, e1, -⟩ := idx_facts t
  funext a; apply Fin.ext
  match a with
  | ⟨0, _⟩ => show win1_0.index t (0 : Fin 2) * 5000 + 1 * r.val = 5000 * t.val + r.val; rw [e0]; omega
  | ⟨1, _⟩ => show win1_0.index t (1 : Fin 2) * 128 + 1 * q.val = q.val; rw [e1]; omega

theorem emb_row1 (t : Fin cfg1.N) (q : Fin 128) : ((cfg1.win 1).blk t).view.emb (ix2 (0 : Fin 1) q) = ix2 (0 : Fin 1) q := by
  obtain ⟨-, -, e0, e1, -⟩ := idx_facts t
  funext a; apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

theorem emb_row2 (t : Fin cfg1.N) (q : Fin 128) : ((cfg1.win 2).blk t).view.emb (ix2 (0 : Fin 1) q) = ix2 (0 : Fin 1) q := by
  obtain ⟨-, -, -, -, e0, e1, -⟩ := idx_facts t
  funext a; apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

theorem emb_row3 (t : Fin cfg1.N) (q : Fin 128) : ((cfg1.win 3).blk t).view.emb (ix2 (0 : Fin 1) q) = ix2 (0 : Fin 1) q := by
  obtain ⟨-, -, -, -, -, -, e0, e1, -⟩ := idx_facts t
  funext a; apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

theorem emb_row4 (t : Fin cfg1.N) (q : Fin 128) : ((cfg1.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

theorem emb_out (t : Fin cfg1.N) (r : Fin 5000) (q : Fin 128) :
    ((cfg1.win 5).blk t).view.emb (ix2 r q) = ix2 (rowAt t r) q := by
  obtain ⟨-, -, -, -, -, -, -, -, -, -, e4, e5⟩ := idx_facts t
  funext a; apply Fin.ext
  match a with
  | ⟨0, _⟩ => show win1_5.index t (0 : Fin 2) * 5000 + 1 * r.val = 5000 * t.val + r.val; rw [e4]; omega
  | ⟨1, _⟩ => show win1_5.index t (1 : Fin 2) * 128 + 1 * q.val = q.val; rw [e5]; omega

/-- What point t writes back is block t of the normalisation of the arrays the region finds. -/
theorem flushed_eq (c : Dev nD) (t : Fin cfg1.N) :
    (dat1 (F := Ideal) V c).flushed 5 t
      = ((cfg1.win 5).blk t).view.read (Elt Ideal)
          (bnRows (V c main_v48) (V c main_v56) (V c main_v57) (V c main_v58) (V c main_v59)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  obtain ⟨r, q, rfl⟩ : ∃ (r : Fin 5000) (q : Fin 128), j = ix2 r q := ⟨j 0, j 1, eq_ix2 j⟩
  show k1_pay1 (iblk1 V c 0 t) (iblk1 V c 1 t) (iblk1 V c 2 t) (iblk1 V c 3 t) (iblk1 V c 4 t) (ix2 r q)
    = bnRows (V c main_v48) (V c main_v56) (V c main_v57) (V c main_v58) (V c main_v59) (((cfg1.win 5).blk t).view.emb (ix2 r q))
  refine (pay_apply (iblk1 V c 0 t) (iblk1 V c 1 t) (iblk1 V c 2 t) (iblk1 V c 3 t) (iblk1 V c 4 t) r q).trans ?_
  rw [emb_out t r q, bnRows_apply]
  show bnPt (V c main_v48 (((cfg1.win 0).blk t).view.emb (ix2 r q)))
      (V c main_v56 (((cfg1.win 1).blk t).view.emb (ix2 (0 : Fin 1) q)))
      (V c main_v57 (((cfg1.win 2).blk t).view.emb (ix2 (0 : Fin 1) q)))
      (V c main_v58 (((cfg1.win 3).blk t).view.emb (ix2 (0 : Fin 1) q)))
      (V c main_v59 (((cfg1.win 4).blk t).view.emb (ix2 (0 : Fin 1) q))) = _
  rw [emb_data t r q, emb_row1 t q, emb_row2 t q, emb_row3 t q, emb_row4 t q]

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v60).slice (win1_5.rect t)).set ↔ _
  rw [View.set_slice_whole, Rect.mem_set_unit]
  exact Iff.rfl

/-- Every row lies in the block of the point that is its number divided by 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by omega⟩, flush1_5 _, ?_⟩
  rw [mem_blk]
  obtain ⟨-, -, -, -, -, -, -, -, -, -, e4, e5⟩ := idx_facts ⟨(i 0).val / 5000, by omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e5]; omega

/-- The result array after the region. -/
theorem final (c : Dev nD) : (dat1 (F := Ideal) V c).arrAt 5 cfg1.N
    = bnRows (V c main_v48) (V c main_v56) (V c main_v57) (V c main_v58) (V c main_v59) :=
  (dat1 V c).arrAt_eq_of_cover 5 _ (fun t _ => flushed_eq V c t) cover

end Cert.Proof.KBn1

end
-- ==== Proof.KMid0.lean ====
/-
  The host operations between the first projection and the first normalisation, read back.

  From any buffer contents W, the three stretches of host operations leave: in the pre-normalisation buffer the
  aggregation-plus-self-loop-plus-bias array of the projection, the edge rows and the weights that W holds; in the
  four row buffers the column mean, the reciprocal deviation (variance + ε)^(-1/2), γ and β, each reshaped to one row;
  and they write none of the buffers that later layers read (the edge rows, the weights, the parameters).
-/
import proofs.«114926_j41686952575093_1_alg».proof.Proof.Gen.KernelIdeal.Launch
import proofs.«114926_j41686952575093_1_alg».proof.Proof.Spec
import proofs.«114926_j41686952575093_1_alg».proof.Proof.Gen.ReferenceIdeal
import Idealize.ShloMosaic.Lib.StableHlo.Run

set_option maxRecDepth 16384

noncomputable section

namespace Cert.Proof.KMid0

open Idealize.ShloMosaic Idealize.ShloMosaic.TcCoe Idealize.ShloMosaic.StableHlo
open Cert.KernelIdeal Cert.KernelIdeal.Gen

variable {F : FTy → Type} [FloatOps F]

/-- The buffer contents after the three stretches, from contents W. -/
abbrev mid (W : Valuation τ sig (Elt F)) : Valuation τ sig (Elt F) :=
  after hostOps1_2 (after hostOps1_1 (after hostOps1 W))

/-- A buffer none of the operations of a stretch writes keeps its contents. -/
macro "keep_through" : tactic => `(tactic| (
  refine StableHlo.after_of_forall_not_mem _ _ (List.forall_iff_forall_mem.mp ?_)
  simp only [hostOps1, hostOps1_1, hostOps1_2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

theorem keep (W : Valuation τ sig (Elt F)) (b : Ref sig .tc)
    (h0 : after hostOps1 W (Proc.devRef .tc b) = W (Proc.devRef .tc b))
    (h1 : after hostOps1_1 (after hostOps1 W) (Proc.devRef .tc b) = after hostOps1 W (Proc.devRef .tc b))
    (h2 : mid W (Proc.devRef .tc b) = after hostOps1_1 (after hostOps1 W) (Proc.devRef .tc b)) :
    mid W (Proc.devRef .tc b) = W (Proc.devRef .tc b) := h2.trans (h1.trans h0)

theorem keep_v1 (W : Valuation τ sig (Elt F)) : mid W (Proc.devRef .tc main_v1) = W (Proc.devRef .tc main_v1) :=
  keep W main_v1 (by keep_through) (by keep_through) (by keep_through)
theorem keep_v3 (W : Valuation τ sig (Elt F)) : mid W (Proc.devRef .tc main_v3) = W (Proc.devRef .tc main_v3) :=
  keep W main_v3 (by keep_through) (by keep_through) (by keep_through)
theorem keep_arg2 (W : Valuation τ sig (Elt F)) : mid W (Proc.devRef .tc main_arg2) = W (Proc.devRef .tc main_arg2) :=
  keep W main_arg2 (by keep_through) (by keep_through) (by keep_through)
theorem keep_arg7 (W : Valuation τ sig (Elt F)) : mid W (Proc.devRef .tc main_arg7) = W (Proc.devRef .tc main_arg7) :=
  keep W main_arg7 (by keep_through) (by keep_through) (by keep_through)
theorem keep_arg8 (W : Valuation τ sig (Elt F)) : mid W (Proc.devRef .tc main_arg8) = W (Proc.devRef .tc main_arg8) :=
  keep W main_arg8 (by keep_through) (by keep_through) (by keep_through)
theorem keep_arg9 (W : Valuation τ sig (Elt F)) : mid W (Proc.devRef .tc main_arg9) = W (Proc.devRef .tc main_arg9) :=
  keep W main_arg9 (by keep_through) (by keep_through) (by keep_through)
theorem keep_arg10 (W : Valuation τ sig (Elt F)) : mid W (Proc.devRef .tc main_arg10) = W (Proc.devRef .tc main_arg10) :=
  keep W main_arg10 (by keep_through) (by keep_through) (by keep_through)
theorem keep_arg11 (W : Valuation τ sig (Elt F)) : mid W (Proc.devRef .tc main_arg11) = W (Proc.devRef .tc main_arg11) :=
  keep W main_arg11 (by keep_through) (by keep_through) (by keep_through)
theorem keep_arg12 (W : Valuation τ sig (Elt F)) : mid W (Proc.devRef .tc main_arg12) = W (Proc.devRef .tc main_arg12) :=
  keep W main_arg12 (by keep_through) (by keep_through) (by keep_through)
theorem keep_arg13 (W : Valuation τ sig (Elt F)) : mid W (Proc.devRef .tc main_arg13) = W (Proc.devRef .tc main_arg13) :=
  keep W main_arg13 (by keep_through) (by keep_through) (by keep_through)
theorem keep_arg14 (W : Valuation τ sig (Elt F)) : mid W (Proc.devRef .tc main_arg14) = W (Proc.devRef .tc main_arg14) :=
  keep W main_arg14 (by keep_through) (by keep_through) (by keep_through)

attribute [local irreducible] Host.reduceAdd Host.gather Host.scatterAdd in
/-- The pre-normalisation array. -/
theorem mid_pre (W : Valuation τ sig (Elt F)) :
    mid W (Proc.devRef .tc main_v48)
      = Spec.preOf (W (Proc.devRef .tc main_v5)) (W (Proc.devRef .tc main_v1)) (W (Proc.devRef .tc main_v3))
          (W (Proc.devRef .tc main_arg2)) (W (Proc.devRef .tc main_arg4)) := by
  after_results_simp
  rfl

attribute [local irreducible] Host.reduceAdd Host.gather Host.scatterAdd in
/-- The column mean, as a row. -/
theorem mid_mean (W : Valuation τ sig (Elt F)) :
    mid W (Proc.devRef .tc main_v56)
      = shapeCast S1x128 (Spec.meanOf (Spec.preOf (W (Proc.devRef .tc main_v5)) (W (Proc.devRef .tc main_v1)) (W (Proc.devRef .tc main_v3))
          (W (Proc.devRef .tc main_arg2)) (W (Proc.devRef .tc main_arg4)))) Cert.KernelIdeal.Facts₀.shapeCasts_S128_S1x128 := by
  after_results_simp
  rfl

attribute [local irreducible] Host.reduceAdd Host.gather Host.scatterAdd in
/-- The reciprocal deviation, as a row. -/
theorem mid_rstd (W : Valuation τ sig (Elt F)) :
    mid W (Proc.devRef .tc main_v57)
      = shapeCast S1x128 (Spec.rstdOf (Spec.varOf (Spec.preOf (W (Proc.devRef .tc main_v5)) (W (Proc.devRef .tc main_v1)) (W (Proc.devRef .tc main_v3))
          (W (Proc.devRef .tc main_arg2)) (W (Proc.devRef .tc main_arg4))))) Cert.KernelIdeal.Facts₀.shapeCasts_S128_S1x128 := by
  after_results_simp
  rfl

/-- γ and β, as rows. -/
theorem mid_gamma (W : Valuation τ sig (Elt F)) :
    mid W (Proc.devRef .tc main_v58) = shapeCast S1x128 (W (Proc.devRef .tc main_arg5)) Cert.KernelIdeal.Facts₀.shapeCasts_S128_S1x128 := by
  after_results_simp
  rfl
theorem mid_beta (W : Valuation τ sig (Elt F)) :
    mid W (Proc.devRef .tc main_v59) = shapeCast S1x128 (W (Proc.devRef .tc main_arg6)) Cert.KernelIdeal.Facts₀.shapeCasts_S128_S1x128 := by
  after_results_simp
  rfl

end Cert.Proof.KMid0

end
-- ==== Proof.KLayer0.lean ====
/-
  The first layer of the idealized kernel program, from the launch to its normalisation region's exit.

  The host slices the edge list into its two rows and transposes the first weight; the projection region leaves the
  product of the launched features with that transpose; the host computes the pre-normalisation array, its column mean
  and reciprocal deviation and reshapes them and γ, β to rows; the normalisation region leaves the host's normalisation
  of them.  Put together, the buffer the region writes holds the layer function of the launched arguments, and the
  buffers later layers read are as launched.
-/
import proofs.«114926_j41686952575093_1_alg».proof.Proof.KGood
import proofs.«114926_j41686952575093_1_alg».proof.Proof.KLin0
import proofs.«114926_j41686952575093_1_alg».proof.Proof.KBn1
import proofs.«114926_j41686952575093_1_alg».proof.Proof.KMid0

set_option maxRecDepth 16384

noncomputable section

namespace Cert.Proof.KLayer0

open Idealize.ShloMosaic Idealize.ShloMosaic.TcCoe Idealize.ShloMosaic.StableHlo Idealize.SL.Sem
open Cert.KernelIdeal Cert.KernelIdeal.Gen Cert.Proof.Shared Cert.Proof.KGood

variable (m : (ℓ : Loc nD τ sig) → Buf (Elt Ideal) ℓ) (ρ : Dev nD → PrngReg) (c : Dev nD)

/-- A buffer none of the first stretch's operations writes keeps its launch contents. -/
macro "keep_first" : tactic => `(tactic| (
  refine (StableHlo.after_of_forall_not_mem _ _ (List.forall_iff_forall_mem.mp ?_)).trans rfl
  simp only [hostOps0, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## After the first stretch -/

theorem w1_v1 : W1 m ρ c (Proc.devRef .tc main_v1) = Spec.srcOf (m ((c : Thread nD τ).loc main_arg1)) := by
  show after hostOps0 (W0 m ρ c) (Proc.devRef .tc main_v1) = _
  after_results
  all_goals rfl
theorem w1_v3 : W1 m ρ c (Proc.devRef .tc main_v3) = Spec.dstOf (m ((c : Thread nD τ).loc main_arg1)) := by
  show after hostOps0 (W0 m ρ c) (Proc.devRef .tc main_v3) = _
  after_results
  all_goals rfl
theorem w1_v4 : W1 m ρ c (Proc.devRef .tc main_v4)
    = transpose Cert.ReferenceIdeal.S128x128 [1, 0] (m ((c : Thread nD τ).loc main_arg3)) Cert.ReferenceIdeal.Facts₀.transposes_S128x128_S128x128_1_0 := by
  show after hostOps0 (W0 m ρ c) (Proc.devRef .tc main_v4) = _
  after_results
  all_goals rfl
theorem w1_arg0 : W1 m ρ c (Proc.devRef .tc main_arg0) = m ((c : Thread nD τ).loc main_arg0) := by keep_first
theorem w1_arg4 : W1 m ρ c (Proc.devRef .tc main_arg4) = m ((c : Thread nD τ).loc main_arg4) := by keep_first
theorem w1_arg5 : W1 m ρ c (Proc.devRef .tc main_arg5) = m ((c : Thread nD τ).loc main_arg5) := by keep_first
theorem w1_arg6 : W1 m ρ c (Proc.devRef .tc main_arg6) = m ((c : Thread nD τ).loc main_arg6) := by keep_first

theorem good1 : Good m c (W1 m ρ c) :=
  ⟨w1_v1 m ρ c, w1_v3 m ρ c, by keep_first, by keep_first, by keep_first, by keep_first, by keep_first, by keep_first, by keep_first,
    by keep_first, by keep_first⟩

/-! ## After the projection region -/

theorem good2 : Good m c (W2 m ρ c) :=
  (good1 m ρ c).of_keep (W2_of_ne m ρ c main_v1 (by decide)) (W2_of_ne m ρ c main_v3 (by decide)) (W2_of_ne m ρ c main_arg2 (by decide))
    (W2_of_ne m ρ c main_arg7 (by decide)) (W2_of_ne m ρ c main_arg8 (by decide)) (W2_of_ne m ρ c main_arg9 (by decide))
    (W2_of_ne m ρ c main_arg10 (by decide)) (W2_of_ne m ρ c main_arg11 (by decide)) (W2_of_ne m ρ c main_arg12 (by decide))
    (W2_of_ne m ρ c main_arg13 (by decide)) (W2_of_ne m ρ c main_arg14 (by decide))

/-- The projection: the launched features times the transposed first weight. -/
theorem w2_x : W2 m ρ c (Proc.devRef .tc main_v5) = Spec.xOf (F := Ideal) (m ((c : Thread nD τ).loc main_arg0)) (m ((c : Thread nD τ).loc main_arg3)) := by
  refine (W2_arr m ρ c 2).trans ((KLin0.final (V1 m ρ) c).trans ?_)
  show prod (W1 m ρ c (Proc.devRef .tc main_arg0)) (W1 m ρ c (Proc.devRef .tc main_v4)) = _
  rw [w1_arg0, w1_v4]
  exact prod_transpose _ _

theorem w2_arg4 : W2 m ρ c (Proc.devRef .tc main_arg4) = m ((c : Thread nD τ).loc main_arg4) := (W2_of_ne m ρ c main_arg4 (by decide)).trans (w1_arg4 m ρ c)
theorem w2_arg5 : W2 m ρ c (Proc.devRef .tc main_arg5) = m ((c : Thread nD τ).loc main_arg5) := (W2_of_ne m ρ c main_arg5 (by decide)).trans (w1_arg5 m ρ c)
theorem w2_arg6 : W2 m ρ c (Proc.devRef .tc main_arg6) = m ((c : Thread nD τ).loc main_arg6) := (W2_of_ne m ρ c main_arg6 (by decide)).trans (w1_arg6 m ρ c)

/-! ## After the host stretches and the normalisation region -/

theorem good5 : Good m c (W5 m ρ c) :=
  (good2 m ρ c).of_keep (KMid0.keep_v1 _) (KMid0.keep_v3 _) (KMid0.keep_arg2 _) (KMid0.keep_arg7 _) (KMid0.keep_arg8 _) (KMid0.keep_arg9 _)
    (KMid0.keep_arg10 _) (KMid0.keep_arg11 _) (KMid0.keep_arg12 _) (KMid0.keep_arg13 _) (KMid0.keep_arg14 _)

theorem good6 : Good m c (W6 m ρ c) :=
  (good5 m ρ c).of_keep (W6_of_ne m ρ c main_v1 (by decide)) (W6_of_ne m ρ c main_v3 (by decide)) (W6_of_ne m ρ c main_arg2 (by decide))
    (W6_of_ne m ρ c main_arg7 (by decide)) (W6_of_ne m ρ c main_arg8 (by decide)) (W6_of_ne m ρ c main_arg9 (by decide))
    (W6_of_ne m ρ c main_arg10 (by decide)) (W6_of_ne m ρ c main_arg11 (by decide)) (W6_of_ne m ρ c main_arg12 (by decide))
    (W6_of_ne m ρ c main_arg13 (by decide)) (W6_of_ne m ρ c main_arg14 (by decide))

/-- The first layer's output. -/
theorem out : W6 m ρ c (Proc.devRef .tc main_v60)
    = Spec.layer (F := Ideal) (m ((c : Thread nD τ).loc main_arg0)) (Spec.srcOf (m ((c : Thread nD τ).loc main_arg1))) (Spec.dstOf (m ((c : Thread nD τ).loc main_arg1))) (m ((c : Thread nD τ).loc main_arg2))
        (m ((c : Thread nD τ).loc main_arg3)) (m ((c : Thread nD τ).loc main_arg4)) (m ((c : Thread nD τ).loc main_arg5)) (m ((c : Thread nD τ).loc main_arg6)) := by
  refine (W6_arr m ρ c 5).trans ((KBn1.final (V5 m ρ) c).trans ?_)
  show bnRows (KMid0.mid (W2 m ρ c) (Proc.devRef .tc main_v48)) (KMid0.mid (W2 m ρ c) (Proc.devRef .tc main_v56)) (KMid0.mid (W2 m ρ c) (Proc.devRef .tc main_v57))
      (KMid0.mid (W2 m ρ c) (Proc.devRef .tc main_v58)) (KMid0.mid (W2 m ρ c) (Proc.devRef .tc main_v59)) = _
  rw [KMid0.mid_pre, KMid0.mid_mean, KMid0.mid_rstd, KMid0.mid_gamma, KMid0.mid_beta, bnRows_reshaped,
    w2_x, (good2 m ρ c).v1, (good2 m ρ c).v3, (good2 m ρ c).a2, w2_arg4, w2_arg5, w2_arg6]
  rfl

end Cert.Proof.KLayer0

end
-- ==== Proof.KLin2.lean ====
/-
  The second dense projection, read off the kernel region that computes it.

  The region walks 20 grid points; at point t it loads rows 5000·t … 5000·t + 4999 of the node features and the whole
  128 × 128 matrix, multiplies them (both operands narrowed to bf16 on the way in: at the ideal values a change of
  format is the identity) into a zero accumulator, and writes the 5000 × 128 block back at the same rows.  Entry (r, q)
  of that block is Σ_k h(5000·t + r, k) · M(k, q), which is entry (5000·t + r, q) of the host's product h · M.  The
  twenty blocks tile the 100000 rows, so the result array ends holding h · M.
-/
import proofs.«114926_j41686952575093_1_alg».proof.Proof.Gen.KernelIdeal.Frame
import proofs.«114926_j41686952575093_1_alg».proof.Proof.Shared
import proofs.«114926_j41686952575093_1_alg».proof.Proof.LibPlainMatmul

set_option maxRecDepth 16384

noncomputable section

namespace Cert.Proof.KLin2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Proof.Shared

variable (V : (c : Dev nD) → (b : Ref sig .tc) → Buf (Elt Ideal) ((c : Thread nD τ).loc b))

/-- The body's product at an entry of the block is the sum over the contracted coordinate. -/
theorem pay_apply (A : Vec Ideal S5000x128 .f32) (B : Vec Ideal S128x128 .f32) (r : Fin 5000) (q : Fin 128) :
    k2_pay1 (F := Ideal) A B (ix2 r q) = ∑ k : Fin 128, A (ix2 r k) * B (ix2 k q) := by
  unfold k2_pay1
  simp only [shapeCast_self]
  exact Cert.Proof.LibPlainMatmul.matmul_plain_zero_apply (φ₁ := .bf16) (φ₂ := .bf16) none A B r q

/-- The printed index maps over the grid: the feature and result windows move down one block per point, the matrix
    window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row of the array that row r of block t is. -/
def rowAt (t : Fin cfg2.N) (r : Fin 5000) : Fin 100000 :=
  ⟨5000 * t.val + r.val, by have := t.isLt; have h : cfg2.N = 20 := N_2; have := r.isLt; omega⟩

/-- Where the entries of the three windows' blocks at point t sit in their arrays. -/
theorem emb_feat (t : Fin cfg2.N) (r : Fin 5000) (k : Fin 128) :
    ((cfg2.win 0).blk t).view.emb (ix2 r k) = ix2 (rowAt t r) k := by
  obtain ⟨e0, e1, -, -, -, -⟩ := idx_facts t
  funext a; apply Fin.ext
  match a with
  | ⟨0, _⟩ => show win2_0.index t (0 : Fin 2) * 5000 + 1 * r.val = 5000 * t.val + r.val; rw [e0]; omega
  | ⟨1, _⟩ => show win2_0.index t (1 : Fin 2) * 128 + 1 * k.val = k.val; rw [e1]; omega

theorem emb_mat (t : Fin cfg2.N) (k : Fin 128) (q : Fin 128) :
    ((cfg2.win 1).blk t).view.emb (ix2 k q) = ix2 k q := by
  obtain ⟨-, -, e2, e3, -, -⟩ := idx_facts t
  funext a; apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

theorem emb_out (t : Fin cfg2.N) (r : Fin 5000) (q : Fin 128) :
    ((cfg2.win 2).blk t).view.emb (ix2 r q) = ix2 (rowAt t r) q := by
  obtain ⟨-, -, -, -, e4, e5⟩ := idx_facts t
  funext a; apply Fin.ext
  match a with
  | ⟨0, _⟩ => show win2_2.index t (0 : Fin 2) * 5000 + 1 * r.val = 5000 * t.val + r.val; rw [e4]; omega
  | ⟨1, _⟩ => show win2_2.index t (1 : Fin 2) * 128 + 1 * q.val = q.val; rw [e5]; omega

/-- What point t writes back is block t of the host's product of the arrays the region finds. -/
theorem flushed_eq (c : Dev nD) (t : Fin cfg2.N) :
    (dat2 (F := Ideal) V c).flushed 2 t
      = ((cfg2.win 2).blk t).view.read (Elt Ideal) (prod (V c main_v60) (V c main_v61)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext j
  obtain ⟨r, q, rfl⟩ : ∃ (r : Fin 5000) (q : Fin 128), j = ix2 r q := ⟨j 0, j 1, eq_ix2 j⟩
  show k2_pay1 (iblk2 V c 0 t) (iblk2 V c 1 t) (ix2 r q)
    = prod (V c main_v60) (V c main_v61) (((cfg2.win 2).blk t).view.emb (ix2 r q))
  refine (pay_apply (iblk2 V c 0 t) (iblk2 V c 1 t) r q).trans ?_
  rw [emb_out t r q, prod_apply]
  refine Finset.sum_congr rfl fun k _ => ?_
  have h0 : iblk2 V c 0 t (ix2 r k) = (V c main_v60 : FVec Ideal S100000x128 .f32) (ix2 (rowAt t r) k) := by
    show V c main_v60 (((cfg2.win 0).blk t).view.emb (ix2 r k)) = _
    rw [emb_feat t r k]
  have h1 : iblk2 V c 1 t (ix2 k q) = (V c main_v61 : FVec Ideal S128x128 .f32) (ix2 k q) := by
    show V c main_v61 (((cfg2.win 1).blk t).view.emb (ix2 k q)) = _
    rw [emb_mat t k q]
  rw [h0, h1]

/-- An index of the array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v62).slice (win2_2.rect t)).set ↔ _
  rw [View.set_slice_whole, Rect.mem_set_unit]
  exact Iff.rfl

/-- Every row lies in the block of the point that is its number divided by 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  refine ⟨⟨(i 0).val / 5000, by omega⟩, flush2_2 _, ?_⟩
  rw [mem_blk]
  obtain ⟨-, -, -, -, e4, e5⟩ := idx_facts ⟨(i 0).val / 5000, by omega⟩
  intro a
  match a with
  | ⟨0, _⟩ =>
    show win2_2.index ⟨(i 0).val / 5000, _⟩ (0 : Fin 2) * 5000 ≤ (i 0).val ∧ (i 0).val < win2_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, _⟩ (1 : Fin 2) * 128 ≤ (i 1).val ∧ (i 1).val < win2_2.index ⟨(i 0).val / 5000, _⟩ (1 : Fin 2) * 128 + 128
    rw [e5]; omega

/-- The result array after the region: the host's product of the feature array with the matrix array. -/
theorem final (c : Dev nD) : (dat2 (F := Ideal) V c).arrAt 2 cfg2.N = prod (V c main_v60) (V c main_v61) :=
  (dat2 V c).arrAt_eq_of_cover 2 (prod (V c main_v60) (V c main_v61)) (fun t _ => flushed_eq V c t) cover

end Cert.Proof.KLin2

end
-- ==== Proof.KBn3.lean ====
/-
  The second normalisation, read off the kernel region that computes it.

  The region walks 20 grid points; at point t it loads rows 5000·t … 5000·t + 4999 of the pre-normalisation array o and
  four one-row arrays (mean, reciprocal deviation, scale, shift), and writes back, entry by entry,
  max(((o − μ) · ρ) · γ + β, 0), each row array repeated down the block's rows.  The twenty blocks tile the rows, so
  the result array ends holding that function of o and the four rows.  When the four rows are the 128-vectors
  mean, (var + ε)^(-1/2), γ, β seen as rows, it is the host's normalisation of o.
-/
import proofs.«114926_j41686952575093_1_alg».proof.Proof.Gen.KernelIdeal.Frame
import proofs.«114926_j41686952575093_1_alg».proof.Proof.Shared

set_option maxRecDepth 16384

noncomputable section

namespace Cert.Proof.KBn3

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Proof.Shared

variable (V : (c : Dev nD) → (b : Ref sig .tc) → Buf (Elt Ideal) ((c : Thread nD τ).loc b))

/-- The body's value at an entry of the block. -/
theorem pay_apply (x0 : Vec Ideal S5000x128 .f32) (x1 x2 x3 x4 : Vec Ideal S1x128 .f32) (r : Fin 5000) (q : Fin 128) :
    k3_pay1 (F := Ideal) x0 x1 x2 x3 x4 (ix2 r q)
      = bnPt (x0 (ix2 r q)) (x1 (ix2 (0 : Fin 1) q)) (x2 (ix2 (0 : Fin 1) q)) (x3 (ix2 (0 : Fin 1) q)) (x4 (ix2 (0 : Fin 1) q)) := by
  unfold k3_pay1
  simp only [shapeCast_self]
  show max (((x0 (ix2 r q) - broadcastTo S5000x128 x1 broadcasts_S1x128_S5000x128 (ix2 r q))
        * broadcastTo S5000x128 x2 broadcasts_S1x128_S5000x128 (ix2 r q))
        * broadcastTo S5000x128 x3 broadcasts_S1x128_S5000x128 (ix2 r q)
      + broadcastTo S5000x128 x4 broadcasts_S1x128_S5000x128 (ix2 r q)) (Ideal.ofBits .f32 0x00000000#32) = _
  rw [broadcastTo_1b_ab_apply x1, broadcastTo_1b_ab_apply x2, broadcastTo_1b_ab_apply x3, broadcastTo_1b_ab_apply x4]
  rfl

/-- The printed index maps over the grid: the data and result windows move down one block per point, the four row
    windows stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The row of the array that row r of block t is. -/
def rowAt (t : Fin cfg3.N) (r : Fin 5000) : Fin 100000 :=
  ⟨5000 * t.val + r.val, by have := t.isLt; have h : cfg3.N = 20 := N_3; have := r.isLt; omega⟩

theorem emb_data (t : Fin cfg3.N) (r : Fin 5000) (q : Fin 128) :
    ((cfg3.win 0).blk t).view.emb (ix2 r q) = ix2 (rowAt t r) q := by
  obtain ⟨e0, e1, -⟩ := idx_facts t
  funext a; apply Fin.ext
  match a with
  | ⟨0, _⟩ => show win3_0.index t (0 : Fin 2) * 5000 + 1 * r.val = 5000 * t.val + r.val; rw [e0]; omega
  | ⟨1, _⟩ => show win3_0.index t (1 : Fin 2) * 128 + 1 * q.val = q.val; rw [e1]; omega

theorem emb_row1 (t : Fin cfg3.N) (q : Fin 128) : ((cfg3.win 1).blk t).view.emb (ix2 (0 : Fin 1) q) = ix2 (0 : Fin 1) q := by
  obtain ⟨-, -, e0, e1, -⟩ := idx_facts t
  funext a; apply Fin.ext
  match a with
  | ⟨0, _⟩ => show win3_1.index t (0 : Fin 2) * 1 + 1 * 0 = 0; rw [e0]
  | ⟨1, _⟩ => show win3_1.index t (1 : Fin 2) * 128 + 1 * q.val = q.val; rw [e1]; omega

theorem emb_row2 (t : Fin cfg3.N) (q : Fin 128) : ((cfg3.win 2).blk t).view.emb (ix2 (0 : Fin 1) q) = ix2 (0 : Fin 1) q := by
  obtain ⟨-, -, -, -, e0, e1, -⟩ := idx_facts t
  funext a; apply Fin.ext
  match a with
  | ⟨0, _⟩ => show win3_2.index t (0 : Fin 2) * 1 + 1 * 0 = 0; rw [e0]
  | ⟨1, _⟩ => show win3_2.index t (1 : Fin 2) * 128 + 1 * q.val = q.val; rw [e1]; omega

theorem emb_row3 (t : Fin cfg3.N) (q : Fin 128) : ((cfg3.win 3).blk t).view.emb (ix2 (0 : Fin 1) q) = ix2 (0 : Fin 1) q := by
  obtain ⟨-, -, -, -, -, -, e0, e1, -⟩ := idx_facts t
  funext a; apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega

theorem emb_row4 (t : Fin cfg3.N) (q : Fin 128) : ((cfg3.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win3_4.index t (0 : Fin 2) * 1 + 1 * 0 = 0; rw [e0]
  | ⟨1, _⟩ => show win3_4.index t (1 : Fin 2) * 128 + 1 * q.val = q.val; rw [e1]; omega

theorem emb_out (t : Fin cfg3.N) (r : Fin 5000) (q : Fin 128) :
    ((cfg3.win 5).blk t).view.emb (ix2 r q) = ix2 (rowAt t r) q := by
  obtain ⟨-, -, -, -, -, -, -, -, -, -, e4, e5⟩ := idx_facts t
  funext a; apply Fin.ext
  match a with
  | ⟨0, _⟩ => show win3_5.index t (0 : Fin 2) * 5000 + 1 * r.val = 5000 * t.val + r.val; rw [e4]; omega
  | ⟨1, _⟩ => show win3_5.index t (1 : Fin 2) * 128 + 1 * q.val = q.val; rw [e5]; omega

/-- What point t writes back is block t of the normalisation of the arrays the region finds. -/
theorem flushed_eq (c : Dev nD) (t : Fin cfg3.N) :
    (dat3 (F := Ideal) V c).flushed 5 t
      = ((cfg3.win 5).blk t).view.read (Elt Ideal)
          (bnRows (V c main_v105) (V c main_v113) (V c main_v114) (V c main_v115) (V c main_v116)) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  funext j
  obtain ⟨r, q, rfl⟩ : ∃ (r : Fin 5000) (q : Fin 128), j = ix2 r q := ⟨j 0, j 1, eq_ix2 j⟩
  show k3_pay1 (iblk3 V c 0 t) (iblk3 V c 1 t) (iblk3 V c 2 t) (iblk3 V c 3 t) (iblk3 V c 4 t) (ix2 r q)
    = bnRows (V c main_v105) (V c main_v113) (V c main_v114) (V c main_v115) (V c main_v116) (((cfg3.win 5).blk t).view.emb (ix2 r q))
  refine (pay_apply (iblk3 V c 0 t) (iblk3 V c 1 t) (iblk3 V c 2 t) (iblk3 V c 3 t) (iblk3 V c 4 t) r q).trans ?_
  rw [emb_out t r q, bnRows_apply]
  show bnPt (V c main_v105 (((cfg3.win 0).blk t).view.emb (ix2 r q)))
      (V c main_v113 (((cfg3.win 1).blk t).view.emb (ix2 (0 : Fin 1) q)))
      (V c main_v114 (((cfg3.win 2).blk t).view.emb (ix2 (0 : Fin 1) q)))
      (V c main_v115 (((cfg3.win 3).blk t).view.emb (ix2 (0 : Fin 1) q)))
      (V c main_v116 (((cfg3.win 4).blk t).view.emb (ix2 (0 : Fin 1) q))) = _
  rw [emb_data t r q, emb_row1 t q, emb_row2 t q, emb_row3 t q, emb_row4 t q]

/-- An index of the array is in point t's block iff each coordinate is in the block's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v117).slice (win3_5.rect t)).set ↔ _
  rw [View.set_slice_whole, Rect.mem_set_unit]
  exact Iff.rfl

/-- Every row lies in the block of the point that is its number divided by 5000. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  refine ⟨⟨(i 0).val / 5000, by omega⟩, flush3_5 _, ?_⟩
  rw [mem_blk]
  obtain ⟨-, -, -, -, -, -, -, -, -, -, e4, e5⟩ := idx_facts ⟨(i 0).val / 5000, by omega⟩
  intro a
  match a with
  | ⟨0, _⟩ =>
    show win3_5.index ⟨(i 0).val / 5000, _⟩ (0 : Fin 2) * 5000 ≤ (i 0).val ∧ (i 0).val < win3_5.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win3_5.index ⟨(i 0).val / 5000, _⟩ (1 : Fin 2) * 128 ≤ (i 1).val ∧ (i 1).val < win3_5.index ⟨(i 0).val / 5000, _⟩ (1 : Fin 2) * 128 + 128
    rw [e5]; omega

/-- The result array after the region. -/
theorem final (c : Dev nD) : (dat3 (F := Ideal) V c).arrAt 5 cfg3.N
    = bnRows (V c main_v105) (V c main_v113) (V c main_v114) (V c main_v115) (V c main_v116) :=
  (dat3 V c).arrAt_eq_of_cover 5 _ (fun t _ => flushed_eq V c t) cover

end Cert.Proof.KBn3

end
-- ==== Proof.KMid2.lean ====
/-
  The host operations between the second projection and the second normalisation, read back.

  From any buffer contents W, the three stretches of host operations leave: in the pre-normalisation buffer the
  aggregation-plus-self-loop-plus-bias array of the projection, the edge rows and the weights that W holds; in the
  four row buffers the column mean, the reciprocal deviation (variance + ε)^(-1/2), γ and β, each reshaped to one row;
  and they write none of the buffers that later layers read (the edge rows, the weights, the parameters).
-/
import proofs.«114926_j41686952575093_1_alg».proof.Proof.Gen.KernelIdeal.Launch
import proofs.«114926_j41686952575093_1_alg».proof.Proof.Spec
import proofs.«114926_j41686952575093_1_alg».proof.Proof.Gen.ReferenceIdeal
import Idealize.ShloMosaic.Lib.StableHlo.Run

set_option maxRecDepth 16384

noncomputable section

namespace Cert.Proof.KMid2

open Idealize.ShloMosaic Idealize.ShloMosaic.TcCoe Idealize.ShloMosaic.StableHlo
open Cert.KernelIdeal Cert.KernelIdeal.Gen

variable {F : FTy → Type} [FloatOps F]

/-- The buffer contents after the three stretches, from contents W. -/
abbrev mid (W : Valuation τ sig (Elt F)) : Valuation τ sig (Elt F) :=
  after hostOps3_2 (after hostOps3_1 (after hostOps3 W))

/-- A buffer none of the operations of a stretch writes keeps its contents. -/
macro "keep_through" : tactic => `(tactic| (
  refine StableHlo.after_of_forall_not_mem _ _ (List.forall_iff_forall_mem.mp ?_)
  simp only [hostOps3, hostOps3_1, hostOps3_2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

theorem keep (W : Valuation τ sig (Elt F)) (b : Ref sig .tc)
    (h0 : after hostOps3 W (Proc.devRef .tc b) = W (Proc.devRef .tc b))
    (h1 : after hostOps3_1 (after hostOps3 W) (Proc.devRef .tc b) = after hostOps3 W (Proc.devRef .tc b))
    (h2 : mid W (Proc.devRef .tc b) = after hostOps3_1 (after hostOps3 W) (Proc.devRef .tc b)) :
    mid W (Proc.devRef .tc b) = W (Proc.devRef .tc b) := h2.trans (h1.trans h0)

theorem keep_v1 (W : Valuation τ sig (Elt F)) : mid W (Proc.devRef .tc main_v1) = W (Proc.devRef .tc main_v1) :=
  keep W main_v1 (by keep_through) (by keep_through) (by keep_through)
theorem keep_v3 (W : Valuation τ sig (Elt F)) : mid W (Proc.devRef .tc main_v3) = W (Proc.devRef .tc main_v3) :=
  keep W main_v3 (by keep_through) (by keep_through) (by keep_through)
theorem keep_arg2 (W : Valuation τ sig (Elt F)) : mid W (Proc.devRef .tc main_arg2) = W (Proc.devRef .tc main_arg2) :=
  keep W main_arg2 (by keep_through) (by keep_through) (by keep_through)
theorem keep_arg7 (W : Valuation τ sig (Elt F)) : mid W (Proc.devRef .tc main_arg7) = W (Proc.devRef .tc main_arg7) :=
  keep W main_arg7 (by keep_through) (by keep_through) (by keep_through)
theorem keep_arg8 (W : Valuation τ sig (Elt F)) : mid W (Proc.devRef .tc main_arg8) = W (Proc.devRef .tc main_arg8) :=
  keep W main_arg8 (by keep_through) (by keep_through) (by keep_through)
theorem keep_arg9 (W : Valuation τ sig (Elt F)) : mid W (Proc.devRef .tc main_arg9) = W (Proc.devRef .tc main_arg9) :=
  keep W main_arg9 (by keep_through) (by keep_through) (by keep_through)
theorem keep_arg10 (W : Valuation τ sig (Elt F)) : mid W (Proc.devRef .tc main_arg10) = W (Proc.devRef .tc main_arg10) :=
  keep W main_arg10 (by keep_through) (by keep_through) (by keep_through)
theorem keep_arg11 (W : Valuation τ sig (Elt F)) : mid W (Proc.devRef .tc main_arg11) = W (Proc.devRef .tc main_arg11) :=
  keep W main_arg11 (by keep_through) (by keep_through) (by keep_through)
theorem keep_arg12 (W : Valuation τ sig (Elt F)) : mid W (Proc.devRef .tc main_arg12) = W (Proc.devRef .tc main_arg12) :=
  keep W main_arg12 (by keep_through) (by keep_through) (by keep_through)
theorem keep_arg13 (W : Valuation τ sig (Elt F)) : mid W (Proc.devRef .tc main_arg13) = W (Proc.devRef .tc main_arg13) :=
  keep W main_arg13 (by keep_through) (by keep_through) (by keep_through)
theorem keep_arg14 (W : Valuation τ sig (Elt F)) : mid W (Proc.devRef .tc main_arg14) = W (Proc.devRef .tc main_arg14) :=
  keep W main_arg14 (by keep_through) (by keep_through) (by keep_through)

attribute [local irreducible] Host.reduceAdd Host.gather Host.scatterAdd in
/-- The pre-normalisation array. -/
theorem mid_pre (W : Valuation τ sig (Elt F)) :
    mid W (Proc.devRef .tc main_v105)
      = Spec.preOf (W (Proc.devRef .tc main_v62)) (W (Proc.devRef .tc main_v1)) (W (Proc.devRef .tc main_v3))
          (W (Proc.devRef .tc main_arg2)) (W (Proc.devRef .tc main_arg8)) := by
  after_results_simp
  rfl

attribute [local irreducible] Host.reduceAdd Host.gather Host.scatterAdd in
/-- The column mean, as a row. -/
theorem mid_mean (W : Valuation τ sig (Elt F)) :
    mid W (Proc.devRef .tc main_v113)
      = shapeCast S1x128 (Spec.meanOf (Spec.preOf (W (Proc.devRef .tc main_v62)) (W (Proc.devRef .tc main_v1)) (W (Proc.devRef .tc main_v3))
          (W (Proc.devRef .tc main_arg2)) (W (Proc.devRef .tc main_arg8)))) Cert.KernelIdeal.Facts₀.shapeCasts_S128_S1x128 := by
  after_results_simp
  rfl

attribute [local irreducible] Host.reduceAdd Host.gather Host.scatterAdd in
/-- The reciprocal deviation, as a row. -/
theorem mid_rstd (W : Valuation τ sig (Elt F)) :
    mid W (Proc.devRef .tc main_v114)
      = shapeCast S1x128 (Spec.rstdOf (Spec.varOf (Spec.preOf (W (Proc.devRef .tc main_v62)) (W (Proc.devRef .tc main_v1)) (W (Proc.devRef .tc main_v3))
          (W (Proc.devRef .tc main_arg2)) (W (Proc.devRef .tc main_arg8))))) Cert.KernelIdeal.Facts₀.shapeCasts_S128_S1x128 := by
  after_results_simp
  rfl

/-- γ and β, as rows. -/
theorem mid_gamma (W : Valuation τ sig (Elt F)) :
    mid W (Proc.devRef .tc main_v115) = shapeCast S1x128 (W (Proc.devRef .tc main_arg9)) Cert.KernelIdeal.Facts₀.shapeCasts_S128_S1x128 := by
  after_results_simp
  rfl
theorem mid_beta (W : Valuation τ sig (Elt F)) :
    mid W (Proc.devRef .tc main_v116) = shapeCast S1x128 (W (Proc.devRef .tc main_arg10)) Cert.KernelIdeal.Facts₀.shapeCasts_S128_S1x128 := by
  after_results_simp
  rfl

end Cert.Proof.KMid2

end
-- ==== Proof.KLayer2.lean ====
/-
  The second layer of the idealized kernel program, from the first layer's exit to its own normalisation region's exit.

  The host transposes the layer's weight; the projection region leaves the product of the previous layer's output with
  that transpose; the host computes the pre-normalisation array, its column mean and reciprocal deviation and reshapes
  them and γ, β to rows; the normalisation region leaves the host's normalisation of them.  So if the previous layer's
  buffer holds H and the buffers later layers read are as launched, the buffer this layer's region writes holds the
  layer function of H, and those buffers are still as launched.
-/
import proofs.«114926_j41686952575093_1_alg».proof.Proof.KGood
import proofs.«114926_j41686952575093_1_alg».proof.Proof.KLin2
import proofs.«114926_j41686952575093_1_alg».proof.Proof.KBn3
import proofs.«114926_j41686952575093_1_alg».proof.Proof.KMid2

set_option maxRecDepth 16384

noncomputable section

namespace Cert.Proof.KLayer2

open Idealize.ShloMosaic Idealize.ShloMosaic.TcCoe Idealize.ShloMosaic.StableHlo Idealize.SL.Sem
open Cert.KernelIdeal Cert.KernelIdeal.Gen Cert.Proof.Shared Cert.Proof.KGood

variable (m : (ℓ : Loc nD τ sig) → Buf (Elt Ideal) ℓ) (ρ : Dev nD → PrngReg) (c : Dev nD)

/-- A buffer the weight's transposition does not write keeps its contents. -/
macro "keep_first" : tactic => `(tactic| (
  refine StableHlo.after_of_forall_not_mem _ _ (List.forall_iff_forall_mem.mp ?_)
  simp only [hostOps2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## After the transposition -/

theorem w7_wt : W7 m ρ c (Proc.devRef .tc main_v61)
    = transpose Cert.ReferenceIdeal.S128x128 [1, 0] (W6 m ρ c (Proc.devRef .tc main_arg7)) Cert.ReferenceIdeal.Facts₀.transposes_S128x128_S128x128_1_0 := by
  show after hostOps2 (W6 m ρ c) (Proc.devRef .tc main_v61) = _
  after_results
  all_goals rfl
theorem w7_h : W7 m ρ c (Proc.devRef .tc main_v60) = W6 m ρ c (Proc.devRef .tc main_v60) := by keep_first
theorem w7_arg8 : W7 m ρ c (Proc.devRef .tc main_arg8) = W6 m ρ c (Proc.devRef .tc main_arg8) := by keep_first
theorem w7_arg9 : W7 m ρ c (Proc.devRef .tc main_arg9) = W6 m ρ c (Proc.devRef .tc main_arg9) := by keep_first
theorem w7_arg10 : W7 m ρ c (Proc.devRef .tc main_arg10) = W6 m ρ c (Proc.devRef .tc main_arg10) := by keep_first

theorem good7 (h6 : Good m c (W6 m ρ c)) : Good m c (W7 m ρ c) :=
  h6.of_keep (by keep_first) (by keep_first) (by keep_first) (by keep_first) (by keep_first) (by keep_first) (by keep_first)
    (by keep_first) (by keep_first) (by keep_first) (by keep_first)

/-! ## After the projection region -/

theorem good8 (h6 : Good m c (W6 m ρ c)) : Good m c (W8 m ρ c) :=
  (good7 m ρ c h6).of_keep (W8_of_ne m ρ c main_v1 (by decide)) (W8_of_ne m ρ c main_v3 (by decide)) (W8_of_ne m ρ c main_arg2 (by decide))
    (W8_of_ne m ρ c main_arg7 (by decide)) (W8_of_ne m ρ c main_arg8 (by decide)) (W8_of_ne m ρ c main_arg9 (by decide))
    (W8_of_ne m ρ c main_arg10 (by decide)) (W8_of_ne m ρ c main_arg11 (by decide)) (W8_of_ne m ρ c main_arg12 (by decide))
    (W8_of_ne m ρ c main_arg13 (by decide)) (W8_of_ne m ρ c main_arg14 (by decide))

/-- The projection: the previous layer's output times the transposed weight. -/
theorem w8_x (h6 : Good m c (W6 m ρ c)) (H : FVec Ideal Cert.ReferenceIdeal.S100000x128 .f32) (hH : W6 m ρ c (Proc.devRef .tc main_v60) = H) :
    W8 m ρ c (Proc.devRef .tc main_v62) = Spec.xOf (F := Ideal) H (m ((c : Thread nD τ).loc main_arg7)) := by
  refine (W8_arr m ρ c 2).trans ((KLin2.final (V7 m ρ) c).trans ?_)
  show prod (W7 m ρ c (Proc.devRef .tc main_v60)) (W7 m ρ c (Proc.devRef .tc main_v61)) = _
  rw [w7_h, w7_wt, hH, h6.a7]
  exact prod_transpose _ _

theorem w8_arg8 (h6 : Good m c (W6 m ρ c)) : W8 m ρ c (Proc.devRef .tc main_arg8) = m ((c : Thread nD τ).loc main_arg8) :=
  (W8_of_ne m ρ c main_arg8 (by decide)).trans ((w7_arg8 m ρ c).trans h6.a8)
theorem w8_arg9 (h6 : Good m c (W6 m ρ c)) : W8 m ρ c (Proc.devRef .tc main_arg9) = m ((c : Thread nD τ).loc main_arg9) :=
  (W8_of_ne m ρ c main_arg9 (by decide)).trans ((w7_arg9 m ρ c).trans h6.a9)
theorem w8_arg10 (h6 : Good m c (W6 m ρ c)) : W8 m ρ c (Proc.devRef .tc main_arg10) = m ((c : Thread nD τ).loc main_arg10) :=
  (W8_of_ne m ρ c main_arg10 (by decide)).trans ((w7_arg10 m ρ c).trans h6.a10)

/-! ## After the host stretches and the normalisation region -/

theorem good11 (h6 : Good m c (W6 m ρ c)) : Good m c (W11 m ρ c) :=
  (good8 m ρ c h6).of_keep (KMid2.keep_v1 _) (KMid2.keep_v3 _) (KMid2.keep_arg2 _) (KMid2.keep_arg7 _) (KMid2.keep_arg8 _) (KMid2.keep_arg9 _)
    (KMid2.keep_arg10 _) (KMid2.keep_arg11 _) (KMid2.keep_arg12 _) (KMid2.keep_arg13 _) (KMid2.keep_arg14 _)

theorem good12 (h6 : Good m c (W6 m ρ c)) : Good m c (W12 m ρ c) :=
  (good11 m ρ c h6).of_keep (W12_of_ne m ρ c main_v1 (by decide)) (W12_of_ne m ρ c main_v3 (by decide)) (W12_of_ne m ρ c main_arg2 (by decide))
    (W12_of_ne m ρ c main_arg7 (by decide)) (W12_of_ne m ρ c main_arg8 (by decide)) (W12_of_ne m ρ c main_arg9 (by decide))
    (W12_of_ne m ρ c main_arg10 (by decide)) (W12_of_ne m ρ c main_arg11 (by decide)) (W12_of_ne m ρ c main_arg12 (by decide))
    (W12_of_ne m ρ c main_arg13 (by decide)) (W12_of_ne m ρ c main_arg14 (by decide))

/-- The layer's output. -/
theorem out (h6 : Good m c (W6 m ρ c)) (H : FVec Ideal Cert.ReferenceIdeal.S100000x128 .f32) (hH : W6 m ρ c (Proc.devRef .tc main_v60) = H) :
    W12 m ρ c (Proc.devRef .tc main_v117)
      = Spec.layer (F := Ideal) H (Spec.srcOf (m ((c : Thread nD τ).loc main_arg1))) (Spec.dstOf (m ((c : Thread nD τ).loc main_arg1))) (m ((c : Thread nD τ).loc main_arg2))
          (m ((c : Thread nD τ).loc main_arg7)) (m ((c : Thread nD τ).loc main_arg8)) (m ((c : Thread nD τ).loc main_arg9)) (m ((c : Thread nD τ).loc main_arg10)) := by
  refine (W12_arr m ρ c 5).trans ((KBn3.final (V11 m ρ) c).trans ?_)
  show bnRows (KMid2.mid (W8 m ρ c) (Proc.devRef .tc main_v105)) (KMid2.mid (W8 m ρ c) (Proc.devRef .tc main_v113)) (KMid2.mid (W8 m ρ c) (Proc.devRef .tc main_v114))
      (KMid2.mid (W8 m ρ c) (Proc.devRef .tc main_v115)) (KMid2.mid (W8 m ρ c) (Proc.devRef .tc main_v116)) = _
  rw [KMid2.mid_pre, KMid2.mid_mean, KMid2.mid_rstd, KMid2.mid_gamma, KMid2.mid_beta, bnRows_reshaped,
    w8_x m ρ c h6 H hH, (good8 m ρ c h6).v1, (good8 m ρ c h6).v3, (good8 m ρ c h6).a2, w8_arg8 m ρ c h6, w8_arg9 m ρ c h6, w8_arg10 m ρ c h6]
  rfl

end Cert.Proof.KLayer2

end
-- ==== Proof.KLin4.lean ====
/-
  The third dense projection, read off the kernel region that computes it.

  The region walks 20 grid points; at point t it loads rows 5000·t … 5000·t + 4999 of the node features and the whole
  128 × 128 matrix, multiplies them (both operands narrowed to bf16 on the way in: at the ideal values a change of
  format is the identity) into a zero accumulator, and writes the 5000 × 128 block back at the same rows.  Entry (r, q)
  of that block is Σ_k h(5000·t + r, k) · M(k, q), which is entry (5000·t + r, q) of the host's product h · M.  The
  twenty blocks tile the 100000 rows, so the result array ends holding h · M.
-/
import proofs.«114926_j41686952575093_1_alg».proof.Proof.Gen.KernelIdeal.Frame
import proofs.«114926_j41686952575093_1_alg».proof.Proof.Shared
import proofs.«114926_j41686952575093_1_alg».proof.Proof.LibPlainMatmul

set_option maxRecDepth 16384

noncomputable section

namespace Cert.Proof.KLin4

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Proof.Shared

variable (V : (c : Dev nD) → (b : Ref sig .tc) → Buf (Elt Ideal) ((c : Thread nD τ).loc b))

/-- The body's product at an entry of the block is the sum over the contracted coordinate. -/
theorem pay_apply (A : Vec Ideal S5000x128 .f32) (B : Vec Ideal S128x128 .f32) (r : Fin 5000) (q : Fin 128) :
    k4_pay1 (F := Ideal) A B (ix2 r q) = ∑ k : Fin 128, A (ix2 r k) * B (ix2 k q) := by
  unfold k4_pay1
  simp only [shapeCast_self]
  exact Cert.Proof.LibPlainMatmul.matmul_plain_zero_apply (φ₁ := .bf16) (φ₂ := .bf16) none A B r q

/-- The printed index maps over the grid: the feature and result windows move down one block per point, the matrix
    window stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The row of the array that row r of block t is. -/
def rowAt (t : Fin cfg4.N) (r : Fin 5000) : Fin 100000 :=
  ⟨5000 * t.val + r.val, by have := t.isLt; have h : cfg4.N = 20 := N_4; have := r.isLt; omega⟩

/-- Where the entries of the three windows' blocks at point t sit in their arrays. -/
theorem emb_feat (t : Fin cfg4.N) (r : Fin 5000) (k : Fin 128) :
    ((cfg4.win 0).blk t).view.emb (ix2 r k) = ix2 (rowAt t r) k := by
  obtain ⟨e0, e1, -, -, -, -⟩ := idx_facts t
  funext a; apply Fin.ext
  match a with
  | ⟨0, _⟩ => show win4_0.index t (0 : Fin 2) * 5000 + 1 * r.val = 5000 * t.val + r.val; rw [e0]; omega
  | ⟨1, _⟩ => show win4_0.index t (1 : Fin 2) * 128 + 1 * k.val = k.val; rw [e1]; omega

theorem emb_mat (t : Fin cfg4.N) (k : Fin 128) (q : Fin 128) :
    ((cfg4.win 1).blk t).view.emb (ix2 k q) = ix2 k q := by
  obtain ⟨-, -, e2, e3, -, -⟩ := idx_facts t
  funext a; apply Fin.ext
  match a with
  | ⟨0, _⟩ => show win4_1.index t (0 : Fin 2) * 128 + 1 * k.val = k.val; rw [e2]; omega
  | ⟨1, _⟩ => show win4_1.index t (1 : Fin 2) * 128 + 1 * q.val = q.val; rw [e3]; omega

theorem emb_out (t : Fin cfg4.N) (r : Fin 5000) (q : Fin 128) :
    ((cfg4.win 2).blk t).view.emb (ix2 r q) = ix2 (rowAt t r) q := by
  obtain ⟨-, -, -, -, e4, e5⟩ := idx_facts t
  funext a; apply Fin.ext
  match a with
  | ⟨0, _⟩ => show win4_2.index t (0 : Fin 2) * 5000 + 1 * r.val = 5000 * t.val + r.val; rw [e4]; omega
  | ⟨1, _⟩ => show win4_2.index t (1 : Fin 2) * 128 + 1 * q.val = q.val; rw [e5]; omega

/-- What point t writes back is block t of the host's product of the arrays the region finds. -/
theorem flushed_eq (c : Dev nD) (t : Fin cfg4.N) :
    (dat4 (F := Ideal) V c).flushed 2 t
      = ((cfg4.win 2).blk t).view.read (Elt Ideal) (prod (V c main_v117) (V c main_v118)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  funext j
  obtain ⟨r, q, rfl⟩ : ∃ (r : Fin 5000) (q : Fin 128), j = ix2 r q := ⟨j 0, j 1, eq_ix2 j⟩
  show k4_pay1 (iblk4 V c 0 t) (iblk4 V c 1 t) (ix2 r q)
    = prod (V c main_v117) (V c main_v118) (((cfg4.win 2).blk t).view.emb (ix2 r q))
  refine (pay_apply (iblk4 V c 0 t) (iblk4 V c 1 t) r q).trans ?_
  rw [emb_out t r q, prod_apply]
  refine Finset.sum_congr rfl fun k _ => ?_
  have h0 : iblk4 V c 0 t (ix2 r k) = (V c main_v117 : FVec Ideal S100000x128 .f32) (ix2 (rowAt t r) k) := by
    show V c main_v117 (((cfg4.win 0).blk t).view.emb (ix2 r k)) = _
    rw [emb_feat t r k]
  have h1 : iblk4 V c 1 t (ix2 k q) = (V c main_v118 : FVec Ideal S128x128 .f32) (ix2 k q) := by
    show V c main_v118 (((cfg4.win 1).blk t).view.emb (ix2 k q)) = _
    rw [emb_mat t k q]
  rw [h0, h1]

/-- An index of the array is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v119).slice (win4_2.rect t)).set ↔ _
  rw [View.set_slice_whole, Rect.mem_set_unit]
  exact Iff.rfl

/-- Every row lies in the block of the point that is its number divided by 5000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  refine ⟨⟨(i 0).val / 5000, by omega⟩, flush4_2 _, ?_⟩
  rw [mem_blk]
  obtain ⟨-, -, -, -, e4, e5⟩ := idx_facts ⟨(i 0).val / 5000, by omega⟩
  intro a
  match a with
  | ⟨0, _⟩ =>
    show win4_2.index ⟨(i 0).val / 5000, _⟩ (0 : Fin 2) * 5000 ≤ (i 0).val ∧ (i 0).val < win4_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, _⟩ (1 : Fin 2) * 128 ≤ (i 1).val ∧ (i 1).val < win4_2.index ⟨(i 0).val / 5000, _⟩ (1 : Fin 2) * 128 + 128
    rw [e5]; omega

/-- The result array after the region: the host's product of the feature array with the matrix array. -/
theorem final (c : Dev nD) : (dat4 (F := Ideal) V c).arrAt 2 cfg4.N = prod (V c main_v117) (V c main_v118) :=
  (dat4 V c).arrAt_eq_of_cover 2 (prod (V c main_v117) (V c main_v118)) (fun t _ => flushed_eq V c t) cover

end Cert.Proof.KLin4

end
-- ==== Proof.KBn5.lean ====
/-
  The third normalisation, read off the kernel region that computes it.

  The region walks 20 grid points; at point t it loads rows 5000·t … 5000·t + 4999 of the pre-normalisation array o and
  four one-row arrays (mean, reciprocal deviation, scale, shift), and writes back, entry by entry,
  max(((o − μ) · ρ) · γ + β, 0), each row array repeated down the block's rows.  The twenty blocks tile the rows, so
  the result array ends holding that function of o and the four rows.  When the four rows are the 128-vectors
  mean, (var + ε)^(-1/2), γ, β seen as rows, it is the host's normalisation of o.
-/
import proofs.«114926_j41686952575093_1_alg».proof.Proof.Gen.KernelIdeal.Frame
import proofs.«114926_j41686952575093_1_alg».proof.Proof.Shared

set_option maxRecDepth 16384

noncomputable section

namespace Cert.Proof.KBn5

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Proof.Shared

variable (V : (c : Dev nD) → (b : Ref sig .tc) → Buf (Elt Ideal) ((c : Thread nD τ).loc b))

/-- The body's value at an entry of the block. -/
theorem pay_apply (x0 : Vec Ideal S5000x128 .f32) (x1 x2 x3 x4 : Vec Ideal S1x128 .f32) (r : Fin 5000) (q : Fin 128) :
    k5_pay1 (F := Ideal) x0 x1 x2 x3 x4 (ix2 r q)
      = bnPt (x0 (ix2 r q)) (x1 (ix2 (0 : Fin 1) q)) (x2 (ix2 (0 : Fin 1) q)) (x3 (ix2 (0 : Fin 1) q)) (x4 (ix2 (0 : Fin 1) q)) := by
  unfold k5_pay1
  simp only [shapeCast_self]
  show max (((x0 (ix2 r q) - broadcastTo S5000x128 x1 broadcasts_S1x128_S5000x128 (ix2 r q))
        * broadcastTo S5000x128 x2 broadcasts_S1x128_S5000x128 (ix2 r q))
        * broadcastTo S5000x128 x3 broadcasts_S1x128_S5000x128 (ix2 r q)
      + broadcastTo S5000x128 x4 broadcasts_S1x128_S5000x128 (ix2 r q)) (Ideal.ofBits .f32 0x00000000#32) = _
  rw [broadcastTo_1b_ab_apply x1, broadcastTo_1b_ab_apply x2, broadcastTo_1b_ab_apply x3, broadcastTo_1b_ab_apply x4]
  rfl

/-- The printed index maps over the grid: the data and result windows move down one block per point, the four row
    windows stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The row of the array that row r of block t is. -/
def rowAt (t : Fin cfg5.N) (r : Fin 5000) : Fin 100000 :=
  ⟨5000 * t.val + r.val, by have := t.isLt; have h : cfg5.N = 20 := N_5; have := r.isLt; omega⟩

theorem emb_data (t : Fin cfg5.N) (r : Fin 5000) (q : Fin 128) :
    ((cfg5.win 0).blk t).view.emb (ix2 r q) = ix2 (rowAt t r) q := by
  obtain ⟨e0, e1, -⟩ := idx_facts t
  funext a; apply Fin.ext
  match a with
  | ⟨0, _⟩ => show win5_0.index t (0 : Fin 2) * 5000 + 1 * r.val = 5000 * t.val + r.val; rw [e0]; omega
  | ⟨1, _⟩ => show win5_0.index t (1 : Fin 2) * 128 + 1 * q.val = q.val; rw [e1]; omega

theorem emb_row1 (t : Fin cfg5.N) (q : Fin 128) : ((cfg5.win 1).blk t).view.emb (ix2 (0 : Fin 1) q) = ix2 (0 : Fin 1) q := by
  obtain ⟨-, -, e0, e1, -⟩ := idx_facts t
  funext a; apply Fin.ext
  match a with
  | ⟨0, _⟩ => show win5_1.index t (0 : Fin 2) * 1 + 1 * 0 = 0; rw [e0]
  | ⟨1, _⟩ => show win5_1.index t (1 : Fin 2) * 128 + 1 * q.val = q.val; rw [e1]; omega

theorem emb_row2 (t : Fin cfg5.N) (q : Fin 128) : ((cfg5.win 2).blk t).view.emb (ix2 (0 : Fin 1) q) = ix2 (0 : Fin 1) q := by
  obtain ⟨-, -, -, -, e0, e1, -⟩ := idx_facts t
  funext a; apply Fin.ext
  match a with
  | ⟨0, _⟩ => show win5_2.index t (0 : Fin 2) * 1 + 1 * 0 = 0; rw [e0]
  | ⟨1, _⟩ => show win5_2.index t (1 : Fin 2) * 128 + 1 * q.val = q.val; rw [e1]; omega

theorem emb_row3 (t : Fin cfg5.N) (q : Fin 128) : ((cfg5.win 3).blk t).view.emb (ix2 (0 : Fin 1) q) = ix2 (0 : Fin 1) q := by
  obtain ⟨-, -, -, -, -, -, e0, e1, -⟩ := idx_facts t
  funext a; apply Fin.ext
  match a with
  | ⟨0, _⟩ => show win5_3.index t (0 : Fin 2) * 1 + 1 * 0 = 0; rw [e0]
  | ⟨1, _⟩ => show win5_3.index t (1 : Fin 2) * 128 + 1 * q.val = q.val; rw [e1]; omega

theorem emb_row4 (t : Fin cfg5.N) (q : Fin 128) : ((cfg5.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win5_4.index t (0 : Fin 2) * 1 + 1 * 0 = 0; rw [e0]
  | ⟨1, _⟩ => show win5_4.index t (1 : Fin 2) * 128 + 1 * q.val = q.val; rw [e1]; omega

theorem emb_out (t : Fin cfg5.N) (r : Fin 5000) (q : Fin 128) :
    ((cfg5.win 5).blk t).view.emb (ix2 r q) = ix2 (rowAt t r) q := by
  obtain ⟨-, -, -, -, -, -, -, -, -, -, e4, e5⟩ := idx_facts t
  funext a; apply Fin.ext
  match a with
  | ⟨0, _⟩ => show win5_5.index t (0 : Fin 2) * 5000 + 1 * r.val = 5000 * t.val + r.val; rw [e4]; omega
  | ⟨1, _⟩ => show win5_5.index t (1 : Fin 2) * 128 + 1 * q.val = q.val; rw [e5]; omega

/-- What point t writes back is block t of the normalisation of the arrays the region finds. -/
theorem flushed_eq (c : Dev nD) (t : Fin cfg5.N) :
    (dat5 (F := Ideal) V c).flushed 5 t
      = ((cfg5.win 5).blk t).view.read (Elt Ideal)
          (bnRows (V c main_v162) (V c main_v170) (V c main_v171) (V c main_v172) (V c main_v173)) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  funext j
  obtain ⟨r, q, rfl⟩ : ∃ (r : Fin 5000) (q : Fin 128), j = ix2 r q := ⟨j 0, j 1, eq_ix2 j⟩
  show k5_pay1 (iblk5 V c 0 t) (iblk5 V c 1 t) (iblk5 V c 2 t) (iblk5 V c 3 t) (iblk5 V c 4 t) (ix2 r q)
    = bnRows (V c main_v162) (V c main_v170) (V c main_v171) (V c main_v172) (V c main_v173) (((cfg5.win 5).blk t).view.emb (ix2 r q))
  refine (pay_apply (iblk5 V c 0 t) (iblk5 V c 1 t) (iblk5 V c 2 t) (iblk5 V c 3 t) (iblk5 V c 4 t) r q).trans ?_
  rw [emb_out t r q, bnRows_apply]
  show bnPt (V c main_v162 (((cfg5.win 0).blk t).view.emb (ix2 r q)))
      (V c main_v170 (((cfg5.win 1).blk t).view.emb (ix2 (0 : Fin 1) q)))
      (V c main_v171 (((cfg5.win 2).blk t).view.emb (ix2 (0 : Fin 1) q)))
      (V c main_v172 (((cfg5.win 3).blk t).view.emb (ix2 (0 : Fin 1) q)))
      (V c main_v173 (((cfg5.win 4).blk t).view.emb (ix2 (0 : Fin 1) q))) = _
  rw [emb_data t r q, emb_row1 t q, emb_row2 t q, emb_row3 t q, emb_row4 t q]

/-- An index of the array is in point t's block iff each coordinate is in the block's range on its axis. -/
theorem mem_blk (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v174).slice (win5_5.rect t)).set ↔ _
  rw [View.set_slice_whole, Rect.mem_set_unit]
  exact Iff.rfl

/-- Every row lies in the block of the point that is its number divided by 5000. -/
theorem cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  refine ⟨⟨(i 0).val / 5000, by omega⟩, flush5_5 _, ?_⟩
  rw [mem_blk]
  obtain ⟨-, -, -, -, -, -, -, -, -, -, e4, e5⟩ := idx_facts ⟨(i 0).val / 5000, by omega⟩
  intro a
  match a with
  | ⟨0, _⟩ =>
    show win5_5.index ⟨(i 0).val / 5000, _⟩ (0 : Fin 2) * 5000 ≤ (i 0).val ∧ (i 0).val < win5_5.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win5_5.index ⟨(i 0).val / 5000, _⟩ (1 : Fin 2) * 128 ≤ (i 1).val ∧ (i 1).val < win5_5.index ⟨(i 0).val / 5000, _⟩ (1 : Fin 2) * 128 + 128
    rw [e5]; omega

/-- The result array after the region. -/
theorem final (c : Dev nD) : (dat5 (F := Ideal) V c).arrAt 5 cfg5.N
    = bnRows (V c main_v162) (V c main_v170) (V c main_v171) (V c main_v172) (V c main_v173) :=
  (dat5 V c).arrAt_eq_of_cover 5 _ (fun t _ => flushed_eq V c t) cover

end Cert.Proof.KBn5

end
-- ==== Proof.KMid4.lean ====
/-
  The host operations between the third projection and the third normalisation, read back.

  From any buffer contents W, the three stretches of host operations leave: in the pre-normalisation buffer the
  aggregation-plus-self-loop-plus-bias array of the projection, the edge rows and the weights that W holds; in the
  four row buffers the column mean, the reciprocal deviation (variance + ε)^(-1/2), γ and β, each reshaped to one row;
  and they write none of the buffers that later layers read (the edge rows, the weights, the parameters).
-/
import proofs.«114926_j41686952575093_1_alg».proof.Proof.Gen.KernelIdeal.Launch
import proofs.«114926_j41686952575093_1_alg».proof.Proof.Spec
import proofs.«114926_j41686952575093_1_alg».proof.Proof.Gen.ReferenceIdeal
import Idealize.ShloMosaic.Lib.StableHlo.Run

set_option maxRecDepth 16384

noncomputable section

namespace Cert.Proof.KMid4

open Idealize.ShloMosaic Idealize.ShloMosaic.TcCoe Idealize.ShloMosaic.StableHlo
open Cert.KernelIdeal Cert.KernelIdeal.Gen

variable {F : FTy → Type} [FloatOps F]

/-- The buffer contents after the three stretches, from contents W. -/
abbrev mid (W : Valuation τ sig (Elt F)) : Valuation τ sig (Elt F) :=
  after hostOps5_2 (after hostOps5_1 (after hostOps5 W))

/-- A buffer none of the operations of a stretch writes keeps its contents. -/
macro "keep_through" : tactic => `(tactic| (
  refine StableHlo.after_of_forall_not_mem _ _ (List.forall_iff_forall_mem.mp ?_)
  simp only [hostOps5, hostOps5_1, hostOps5_2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

theorem keep (W : Valuation τ sig (Elt F)) (b : Ref sig .tc)
    (h0 : after hostOps5 W (Proc.devRef .tc b) = W (Proc.devRef .tc b))
    (h1 : after hostOps5_1 (after hostOps5 W) (Proc.devRef .tc b) = after hostOps5 W (Proc.devRef .tc b))
    (h2 : mid W (Proc.devRef .tc b) = after hostOps5_1 (after hostOps5 W) (Proc.devRef .tc b)) :
    mid W (Proc.devRef .tc b) = W (Proc.devRef .tc b) := h2.trans (h1.trans h0)

theorem keep_v1 (W : Valuation τ sig (Elt F)) : mid W (Proc.devRef .tc main_v1) = W (Proc.devRef .tc main_v1) :=
  keep W main_v1 (by keep_through) (by keep_through) (by keep_through)
theorem keep_v3 (W : Valuation τ sig (Elt F)) : mid W (Proc.devRef .tc main_v3) = W (Proc.devRef .tc main_v3) :=
  keep W main_v3 (by keep_through) (by keep_through) (by keep_through)
theorem keep_arg2 (W : Valuation τ sig (Elt F)) : mid W (Proc.devRef .tc main_arg2) = W (Proc.devRef .tc main_arg2) :=
  keep W main_arg2 (by keep_through) (by keep_through) (by keep_through)
theorem keep_arg7 (W : Valuation τ sig (Elt F)) : mid W (Proc.devRef .tc main_arg7) = W (Proc.devRef .tc main_arg7) :=
  keep W main_arg7 (by keep_through) (by keep_through) (by keep_through)
theorem keep_arg8 (W : Valuation τ sig (Elt F)) : mid W (Proc.devRef .tc main_arg8) = W (Proc.devRef .tc main_arg8) :=
  keep W main_arg8 (by keep_through) (by keep_through) (by keep_through)
theorem keep_arg9 (W : Valuation τ sig (Elt F)) : mid W (Proc.devRef .tc main_arg9) = W (Proc.devRef .tc main_arg9) :=
  keep W main_arg9 (by keep_through) (by keep_through) (by keep_through)
theorem keep_arg10 (W : Valuation τ sig (Elt F)) : mid W (Proc.devRef .tc main_arg10) = W (Proc.devRef .tc main_arg10) :=
  keep W main_arg10 (by keep_through) (by keep_through) (by keep_through)
theorem keep_arg11 (W : Valuation τ sig (Elt F)) : mid W (Proc.devRef .tc main_arg11) = W (Proc.devRef .tc main_arg11) :=
  keep W main_arg11 (by keep_through) (by keep_through) (by keep_through)
theorem keep_arg12 (W : Valuation τ sig (Elt F)) : mid W (Proc.devRef .tc main_arg12) = W (Proc.devRef .tc main_arg12) :=
  keep W main_arg12 (by keep_through) (by keep_through) (by keep_through)
theorem keep_arg13 (W : Valuation τ sig (Elt F)) : mid W (Proc.devRef .tc main_arg13) = W (Proc.devRef .tc main_arg13) :=
  keep W main_arg13 (by keep_through) (by keep_through) (by keep_through)
theorem keep_arg14 (W : Valuation τ sig (Elt F)) : mid W (Proc.devRef .tc main_arg14) = W (Proc.devRef .tc main_arg14) :=
  keep W main_arg14 (by keep_through) (by keep_through) (by keep_through)

set_option maxHeartbeats 1600000 in
attribute [local irreducible] Host.reduceAdd Host.gather Host.scatterAdd in
/-- The pre-normalisation array. -/
theorem mid_pre (W : Valuation τ sig (Elt F)) :
    mid W (Proc.devRef .tc main_v162)
      = Spec.preOf (W (Proc.devRef .tc main_v119)) (W (Proc.devRef .tc main_v1)) (W (Proc.devRef .tc main_v3))
          (W (Proc.devRef .tc main_arg2)) (W (Proc.devRef .tc main_arg12)) := by
  after_results_simp
  rfl

set_option maxHeartbeats 1600000 in
attribute [local irreducible] Host.reduceAdd Host.gather Host.scatterAdd in
/-- The column mean, as a row. -/
theorem mid_mean (W : Valuation τ sig (Elt F)) :
    mid W (Proc.devRef .tc main_v170)
      = shapeCast S1x128 (Spec.meanOf (Spec.preOf (W (Proc.devRef .tc main_v119)) (W (Proc.devRef .tc main_v1)) (W (Proc.devRef .tc main_v3))
          (W (Proc.devRef .tc main_arg2)) (W (Proc.devRef .tc main_arg12)))) Cert.KernelIdeal.Facts₀.shapeCasts_S128_S1x128 := by
  after_results_simp
  rfl

set_option maxHeartbeats 1600000 in
attribute [local irreducible] Host.reduceAdd Host.gather Host.scatterAdd in
/-- The reciprocal deviation, as a row. -/
theorem mid_rstd (W : Valuation τ sig (Elt F)) :
    mid W (Proc.devRef .tc main_v171)
      = shapeCast S1x128 (Spec.rstdOf (Spec.varOf (Spec.preOf (W (Proc.devRef .tc main_v119)) (W (Proc.devRef .tc main_v1)) (W (Proc.devRef .tc main_v3))
          (W (Proc.devRef .tc main_arg2)) (W (Proc.devRef .tc main_arg12))))) Cert.KernelIdeal.Facts₀.shapeCasts_S128_S1x128 := by
  after_results_simp
  rfl

/-- γ and β, as rows. -/
theorem mid_gamma (W : Valuation τ sig (Elt F)) :
    mid W (Proc.devRef .tc main_v172) = shapeCast S1x128 (W (Proc.devRef .tc main_arg13)) Cert.KernelIdeal.Facts₀.shapeCasts_S128_S1x128 := by
  after_results_simp
  rfl
theorem mid_beta (W : Valuation τ sig (Elt F)) :
    mid W (Proc.devRef .tc main_v173) = shapeCast S1x128 (W (Proc.devRef .tc main_arg14)) Cert.KernelIdeal.Facts₀.shapeCasts_S128_S1x128 := by
  after_results_simp
  rfl

end Cert.Proof.KMid4

end
-- ==== Proof.KLayer4.lean ====
/-
  The third layer of the idealized kernel program, from the second layer's exit to its own normalisation region's exit.

  The host transposes the layer's weight; the projection region leaves the product of the previous layer's output with
  that transpose; the host computes the pre-normalisation array, its column mean and reciprocal deviation and reshapes
  them and γ, β to rows; the normalisation region leaves the host's normalisation of them.  So if the previous layer's
  buffer holds H and the buffers later layers read are as launched, the buffer this layer's region writes holds the
  layer function of H, and those buffers are still as launched.
-/
import proofs.«114926_j41686952575093_1_alg».proof.Proof.KGood
import proofs.«114926_j41686952575093_1_alg».proof.Proof.KLin4
import proofs.«114926_j41686952575093_1_alg».proof.Proof.KBn5
import proofs.«114926_j41686952575093_1_alg».proof.Proof.KMid4

set_option maxRecDepth 16384

noncomputable section

namespace Cert.Proof.KLayer4

open Idealize.ShloMosaic Idealize.ShloMosaic.TcCoe Idealize.ShloMosaic.StableHlo Idealize.SL.Sem
open Cert.KernelIdeal Cert.KernelIdeal.Gen Cert.Proof.Shared Cert.Proof.KGood

variable (m : (ℓ : Loc nD τ sig) → Buf (Elt Ideal) ℓ) (ρ : Dev nD → PrngReg) (c : Dev nD)

/-- A buffer the weight's transposition does not write keeps its contents. -/
macro "keep_first" : tactic => `(tactic| (
  refine StableHlo.after_of_forall_not_mem _ _ (List.forall_iff_forall_mem.mp ?_)
  simp only [hostOps4, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## After the transposition -/

theorem w13_wt : W13 m ρ c (Proc.devRef .tc main_v118)
    = transpose Cert.ReferenceIdeal.S128x128 [1, 0] (W12 m ρ c (Proc.devRef .tc main_arg11)) Cert.ReferenceIdeal.Facts₀.transposes_S128x128_S128x128_1_0 := by
  show after hostOps4 (W12 m ρ c) (Proc.devRef .tc main_v118) = _
  after_results
  all_goals rfl
theorem w13_h : W13 m ρ c (Proc.devRef .tc main_v117) = W12 m ρ c (Proc.devRef .tc main_v117) := by keep_first
theorem w13_arg12 : W13 m ρ c (Proc.devRef .tc main_arg12) = W12 m ρ c (Proc.devRef .tc main_arg12) := by keep_first
theorem w13_arg13 : W13 m ρ c (Proc.devRef .tc main_arg13) = W12 m ρ c (Proc.devRef .tc main_arg13) := by keep_first
theorem w13_arg14 : W13 m ρ c (Proc.devRef .tc main_arg14) = W12 m ρ c (Proc.devRef .tc main_arg14) := by keep_first

theorem good13 (h12 : Good m c (W12 m ρ c)) : Good m c (W13 m ρ c) :=
  h12.of_keep (by keep_first) (by keep_first) (by keep_first) (by keep_first) (by keep_first) (by keep_first) (by keep_first)
    (by keep_first) (by keep_first) (by keep_first) (by keep_first)

/-! ## After the projection region -/

theorem good14 (h12 : Good m c (W12 m ρ c)) : Good m c (W14 m ρ c) :=
  (good13 m ρ c h12).of_keep (W14_of_ne m ρ c main_v1 (by decide)) (W14_of_ne m ρ c main_v3 (by decide)) (W14_of_ne m ρ c main_arg2 (by decide))
    (W14_of_ne m ρ c main_arg7 (by decide)) (W14_of_ne m ρ c main_arg8 (by decide)) (W14_of_ne m ρ c main_arg9 (by decide))
    (W14_of_ne m ρ c main_arg10 (by decide)) (W14_of_ne m ρ c main_arg11 (by decide)) (W14_of_ne m ρ c main_arg12 (by decide))
    (W14_of_ne m ρ c main_arg13 (by decide)) (W14_of_ne m ρ c main_arg14 (by decide))

/-- The projection: the previous layer's output times the transposed weight. -/
theorem w14_x (h12 : Good m c (W12 m ρ c)) (H : FVec Ideal Cert.ReferenceIdeal.S100000x128 .f32) (hH : W12 m ρ c (Proc.devRef .tc main_v117) = H) :
    W14 m ρ c (Proc.devRef .tc main_v119) = Spec.xOf (F := Ideal) H (m ((c : Thread nD τ).loc main_arg11)) := by
  refine (W14_arr m ρ c 2).trans ((KLin4.final (V13 m ρ) c).trans ?_)
  show prod (W13 m ρ c (Proc.devRef .tc main_v117)) (W13 m ρ c (Proc.devRef .tc main_v118)) = _
  rw [w13_h, w13_wt, hH, h12.a11]
  exact prod_transpose _ _

theorem w14_arg12 (h12 : Good m c (W12 m ρ c)) : W14 m ρ c (Proc.devRef .tc main_arg12) = m ((c : Thread nD τ).loc main_arg12) :=
  (W14_of_ne m ρ c main_arg12 (by decide)).trans ((w13_arg12 m ρ c).trans h12.a12)
theorem w14_arg13 (h12 : Good m c (W12 m ρ c)) : W14 m ρ c (Proc.devRef .tc main_arg13) = m ((c : Thread nD τ).loc main_arg13) :=
  (W14_of_ne m ρ c main_arg13 (by decide)).trans ((w13_arg13 m ρ c).trans h12.a13)
theorem w14_arg14 (h12 : Good m c (W12 m ρ c)) : W14 m ρ c (Proc.devRef .tc main_arg14) = m ((c : Thread nD τ).loc main_arg14) :=
  (W14_of_ne m ρ c main_arg14 (by decide)).trans ((w13_arg14 m ρ c).trans h12.a14)

/-! ## After the host stretches and the normalisation region -/

theorem good17 (h12 : Good m c (W12 m ρ c)) : Good m c (W17 m ρ c) :=
  (good14 m ρ c h12).of_keep (KMid4.keep_v1 _) (KMid4.keep_v3 _) (KMid4.keep_arg2 _) (KMid4.keep_arg7 _) (KMid4.keep_arg8 _) (KMid4.keep_arg9 _)
    (KMid4.keep_arg10 _) (KMid4.keep_arg11 _) (KMid4.keep_arg12 _) (KMid4.keep_arg13 _) (KMid4.keep_arg14 _)

theorem good18 (h12 : Good m c (W12 m ρ c)) : Good m c (W18 m ρ c) :=
  (good17 m ρ c h12).of_keep (W18_of_ne m ρ c main_v1 (by decide)) (W18_of_ne m ρ c main_v3 (by decide)) (W18_of_ne m ρ c main_arg2 (by decide))
    (W18_of_ne m ρ c main_arg7 (by decide)) (W18_of_ne m ρ c main_arg8 (by decide)) (W18_of_ne m ρ c main_arg9 (by decide))
    (W18_of_ne m ρ c main_arg10 (by decide)) (W18_of_ne m ρ c main_arg11 (by decide)) (W18_of_ne m ρ c main_arg12 (by decide))
    (W18_of_ne m ρ c main_arg13 (by decide)) (W18_of_ne m ρ c main_arg14 (by decide))

/-- The layer's output. -/
theorem out (h12 : Good m c (W12 m ρ c)) (H : FVec Ideal Cert.ReferenceIdeal.S100000x128 .f32) (hH : W12 m ρ c (Proc.devRef .tc main_v117) = H) :
    W18 m ρ c (Proc.devRef .tc main_v174)
      = Spec.layer (F := Ideal) H (Spec.srcOf (m ((c : Thread nD τ).loc main_arg1))) (Spec.dstOf (m ((c : Thread nD τ).loc main_arg1))) (m ((c : Thread nD τ).loc main_arg2))
          (m ((c : Thread nD τ).loc main_arg11)) (m ((c : Thread nD τ).loc main_arg12)) (m ((c : Thread nD τ).loc main_arg13)) (m ((c : Thread nD τ).loc main_arg14)) := by
  refine (W18_arr m ρ c 5).trans ((KBn5.final (V17 m ρ) c).trans ?_)
  show bnRows (KMid4.mid (W14 m ρ c) (Proc.devRef .tc main_v162)) (KMid4.mid (W14 m ρ c) (Proc.devRef .tc main_v170)) (KMid4.mid (W14 m ρ c) (Proc.devRef .tc main_v171))
      (KMid4.mid (W14 m ρ c) (Proc.devRef .tc main_v172)) (KMid4.mid (W14 m ρ c) (Proc.devRef .tc main_v173)) = _
  rw [KMid4.mid_pre, KMid4.mid_mean, KMid4.mid_rstd, KMid4.mid_gamma, KMid4.mid_beta, bnRows_reshaped,
    w14_x m ρ c h12 H hH, (good14 m ρ c h12).v1, (good14 m ρ c h12).v3, (good14 m ρ c h12).a2, w14_arg12 m ρ c h12, w14_arg13 m ρ c h12, w14_arg14 m ρ c h12]
  rfl

end Cert.Proof.KLayer4

end
-- ==== Proof.KAll.lean ====
/-
  The idealized kernel program's result: three layers of the launched arguments.

  The first layer's region leaves the layer function of the launched features; each later layer's region leaves the
  layer function of the previous one's output, over the same edge rows and weights and its own parameters.  Every
  execution ends with the result buffer at that composition and the argument arrays as launched.
-/
import proofs.«114926_j41686952575093_1_alg».proof.Proof.KRun
import proofs.«114926_j41686952575093_1_alg».proof.Proof.KLayer0
import proofs.«114926_j41686952575093_1_alg».proof.Proof.KLayer2
import proofs.«114926_j41686952575093_1_alg».proof.Proof.KLayer4

set_option maxRecDepth 16384

noncomputable section

namespace Cert.Proof.KAll

open Idealize.ShloMosaic Idealize.ShloMosaic.TcCoe Idealize.ShloMosaic.StableHlo Idealize.SL.Sem
open Cert.KernelIdeal.Gen

variable (m : (ℓ : Loc Cert.KernelIdeal.nD Cert.KernelIdeal.τ Cert.KernelIdeal.sig) → Buf (Elt Ideal) ℓ) (ρ : Dev Cert.KernelIdeal.nD → PrngReg)

/-- The last region's buffer after the run: the three layers composed. -/
theorem value (c : Dev Cert.KernelIdeal.nD) :
    W18 m ρ c (Proc.devRef .tc Cert.KernelIdeal.main_v174)
      = Spec.layer (F := Ideal) (Spec.layer (F := Ideal) (Spec.layer (F := Ideal) (m ((c.tc : Thread Cert.KernelIdeal.nD Cert.KernelIdeal.τ).loc Cert.KernelIdeal.main_arg0)) (Spec.srcOf (m ((c.tc : Thread Cert.KernelIdeal.nD Cert.KernelIdeal.τ).loc Cert.KernelIdeal.main_arg1))) (Spec.dstOf (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (Spec.srcOf (m ((c.tc : Thread Cert.KernelIdeal.nD Cert.KernelIdeal.τ).loc Cert.KernelIdeal.main_arg1))) (Spec.dstOf (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (Spec.srcOf (m ((c.tc : Thread Cert.KernelIdeal.nD Cert.KernelIdeal.τ).loc Cert.KernelIdeal.main_arg1))) (Spec.dstOf (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) :=
  KLayer4.out m ρ c (KLayer2.good12 m ρ c (KLayer0.good6 m ρ c)) _
    (KLayer2.out m ρ c (KLayer0.good6 m ρ c) _ (KLayer0.out m ρ c))

/-- Every execution ends with the result at the three layers of the launched arguments, the arguments unchanged. -/
theorem run_value : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v174)
        = Spec.layer (F := Ideal) (Spec.layer (F := Ideal) (Spec.layer (F := Ideal) (m ((c.tc : Thread Cert.KernelIdeal.nD Cert.KernelIdeal.τ).loc Cert.KernelIdeal.main_arg0)) (Spec.srcOf (m ((c.tc : Thread Cert.KernelIdeal.nD Cert.KernelIdeal.τ).loc Cert.KernelIdeal.main_arg1))) (Spec.dstOf (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (Spec.srcOf (m ((c.tc : Thread Cert.KernelIdeal.nD Cert.KernelIdeal.τ).loc Cert.KernelIdeal.main_arg1))) (Spec.dstOf (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (Spec.srcOf (m ((c.tc : Thread Cert.KernelIdeal.nD Cert.KernelIdeal.τ).loc Cert.KernelIdeal.main_arg1))) (Spec.dstOf (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) :=
  (θ_run (Cert.KernelIdeal.defs (F := Ideal)) _ _).mono (fun r h c =>
    ⟨(h c Cert.KernelIdeal.main_v174 (by decide)).trans (value m ρ c),
     (h c Cert.KernelIdeal.main_arg0 (by decide)).trans (W18_main_arg0 m ρ c),
     (h c Cert.KernelIdeal.main_arg1 (by decide)).trans (W18_main_arg1 m ρ c),
     (h c Cert.KernelIdeal.main_arg2 (by decide)).trans (W18_main_arg2 m ρ c),
     (h c Cert.KernelIdeal.main_arg3 (by decide)).trans (W18_main_arg3 m ρ c),
     (h c Cert.KernelIdeal.main_arg4 (by decide)).trans (W18_main_arg4 m ρ c),
     (h c Cert.KernelIdeal.main_arg5 (by decide)).trans (W18_main_arg5 m ρ c),
     (h c Cert.KernelIdeal.main_arg6 (by decide)).trans (W18_main_arg6 m ρ c),
     (h c Cert.KernelIdeal.main_arg7 (by decide)).trans (W18_main_arg7 m ρ c),
     (h c Cert.KernelIdeal.main_arg8 (by decide)).trans (W18_main_arg8 m ρ c),
     (h c Cert.KernelIdeal.main_arg9 (by decide)).trans (W18_main_arg9 m ρ c),
     (h c Cert.KernelIdeal.main_arg10 (by decide)).trans (W18_main_arg10 m ρ c),
     (h c Cert.KernelIdeal.main_arg11 (by decide)).trans (W18_main_arg11 m ρ c),
     (h c Cert.KernelIdeal.main_arg12 (by decide)).trans (W18_main_arg12 m ρ c),
     (h c Cert.KernelIdeal.main_arg13 (by decide)).trans (W18_main_arg13 m ρ c),
     (h c Cert.KernelIdeal.main_arg14 (by decide)).trans (W18_main_arg14 m ρ c)⟩)
    (Cert.KernelIdeal.KRun.run_all m ρ)

end Cert.Proof.KAll

end
-- ==== Proof.RefOps.lean ====
/- The reference program's @main read as a straight line of host operations, cut where the mathematics cuts:
   the two rows of the edge list, then three graph-convolution layers of identical shape. Each entry is the
   printed statement's operation; at a call of `_var` (the column variance, which itself calls `_where`) the
   callee's operations stand inline over that call's record of buffers, in program order. -/
import proofs.«114926_j41686952575093_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge list's two rows: source indices `main_v1`, target indices `main_v3` (a slice and a reshape each). -/
abbrev opsPre : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- Layer 1: from the transpose of the weight `main_arg3` through the rectifier writing `main_v69`; reads the features `main_arg0`. -/
abbrev opsL0 : List (HloOp τ sig (Elt F)) :=
  [ StableHlo.unary main_arg3 main_v4 ((transpose S128x128 [1, 0] · transposes_S128x128_S128x128_1_0) : (⟨S128x128, .f32⟩ : BufTy).Contents (Elt F) → (⟨S128x128, .f32⟩ : BufTy).Contents (Elt F)),
    StableHlo.binary main_arg0 main_v4 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst (constant S_ .f32 0x00000000#32),
    StableHlo.unary main_cst main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_arg2 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_0 (constant S_ .f32 0x3F800000#32),
    StableHlo.unary main_cst_0 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_arg2 main_v19 (mulf : (⟨S1600000, .f32⟩ : BufTy).Contents (Elt F) → (⟨S1600000, .f32⟩ : BufTy).Contents (Elt F) → (⟨S1600000, .f32⟩ : BufTy).Contents (Elt F)),
    StableHlo.nullary main_c_2 (constantI S_ 32 0#32),
    StableHlo.unary main_c_2 main_v20 (broadcastInDim S1600000 ![] bcast_S_S1600000 : (⟨S_, .i32⟩ : BufTy).Contents (Elt F) → (⟨S1600000, .i32⟩ : BufTy).Contents (Elt F)),
    StableHlo.binary main_v3 main_v20 main_v21 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v22 (broadcastInDim S1600000 ![] bcast_S_S1600000 : (⟨S_, .i32⟩ : BufTy).Contents (Elt F) → (⟨S1600000, .i32⟩ : BufTy).Contents (Elt F)),
    StableHlo.binary main_v3 main_v22 main_v23 (addi : (⟨S1600000, .i32⟩ : BufTy).Contents (Elt F) → (⟨S1600000, .i32⟩ : BufTy).Contents (Elt F) → (⟨S1600000, .i32⟩ : BufTy).Contents (Elt F)),
    StableHlo.ternary main_v21 main_v23 main_v3 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v24 main_v25 (broadcastInDim S1600000x1 ![0] bcast_S1600000_S1600000x1_0 : (⟨S1600000, .i32⟩ : BufTy).Contents (Elt F) → (⟨S1600000x1, .i32⟩ : BufTy).Contents (Elt F)),
    StableHlo.binary main_v11 main_v25 main_v26 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v19 main_v26 main_v27 (mulf : (⟨S1600000, .f32⟩ : BufTy).Contents (Elt F) → (⟨S1600000, .f32⟩ : BufTy).Contents (Elt F) → (⟨S1600000, .f32⟩ : BufTy).Contents (Elt F)),
    StableHlo.nullary main_c_4 (constantI S_ 32 0#32),
    StableHlo.unary main_c_4 main_v28 (broadcastInDim S1600000 ![] bcast_S_S1600000 : (⟨S_, .i32⟩ : BufTy).Contents (Elt F) → (⟨S1600000, .i32⟩ : BufTy).Contents (Elt F)),
    StableHlo.binary main_v1 main_v28 main_v29 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v30 (broadcastInDim S1600000 ![] bcast_S_S1600000 : (⟨S_, .i32⟩ : BufTy).Contents (Elt F) → (⟨S1600000, .i32⟩ : BufTy).Contents (Elt F)),
    StableHlo.binary main_v1 main_v30 main_v31 (addi : (⟨S1600000, .i32⟩ : BufTy).Contents (Elt F) → (⟨S1600000, .i32⟩ : BufTy).Contents (Elt F) → (⟨S1600000, .i32⟩ : BufTy).Contents (Elt F)),
    StableHlo.ternary main_v29 main_v31 main_v1 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v32 main_v33 (broadcastInDim S1600000x1 ![0] bcast_S1600000_S1600000x1_0 : (⟨S1600000, .i32⟩ : BufTy).Contents (Elt F) → (⟨S1600000x1, .i32⟩ : BufTy).Contents (Elt F)),
    StableHlo.binary main_v5 main_v33 main_v34 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v27 main_v35 (broadcastInDim S1600000x1 ![0] bcast_S1600000_S1600000x1_0 : (⟨S1600000, .f32⟩ : BufTy).Contents (Elt F) → (⟨S1600000x1, .f32⟩ : BufTy).Contents (Elt F)),
    StableHlo.unary main_v35 main_v36 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v34 main_v36 main_v37 (mulf : (⟨S1600000x128, .f32⟩ : BufTy).Contents (Elt F) → (⟨S1600000x128, .f32⟩ : BufTy).Contents (Elt F) → (⟨S1600000x128, .f32⟩ : BufTy).Contents (Elt F)),
    StableHlo.nullary main_cst_6 (constant S_ .f32 0x00000000#32),
    StableHlo.unary main_cst_6 main_v38 (broadcastInDim S100000x128 ![] bcast_S_S100000x128 : (⟨S_, .f32⟩ : BufTy).Contents (Elt F) → (⟨S100000x128, .f32⟩ : BufTy).Contents (Elt F)),
    StableHlo.unary main_v3 main_v39 (broadcastInDim S1600000x1 ![0] bcast_S1600000_S1600000x1_0 : (⟨S1600000, .i32⟩ : BufTy).Contents (Elt F) → (⟨S1600000x1, .i32⟩ : BufTy).Contents (Elt F)),
    StableHlo.ternary main_v38 main_v39 main_v37 main_v40 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v11 main_v11 main_v41 (mulf : (⟨S100000, .f32⟩ : BufTy).Contents (Elt F) → (⟨S100000, .f32⟩ : BufTy).Contents (Elt F) → (⟨S100000, .f32⟩ : BufTy).Contents (Elt F)),
    StableHlo.unary main_v41 main_v42 (broadcastInDim S100000x1 ![0] bcast_S100000_S100000x1_0 : (⟨S100000, .f32⟩ : BufTy).Contents (Elt F) → (⟨S100000x1, .f32⟩ : BufTy).Contents (Elt F)),
    StableHlo.unary main_v42 main_v43 (broadcastInDim S100000x128 ![0, 1] bcast_S100000x1_S100000x128_0_1 : (⟨S100000x1, .f32⟩ : BufTy).Contents (Elt F) → (⟨S100000x128, .f32⟩ : BufTy).Contents (Elt F)),
    StableHlo.binary main_v5 main_v43 main_v44 (mulf : (⟨S100000x128, .f32⟩ : BufTy).Contents (Elt F) → (⟨S100000x128, .f32⟩ : BufTy).Contents (Elt F) → (⟨S100000x128, .f32⟩ : BufTy).Contents (Elt F)),
    StableHlo.binary main_v40 main_v44 main_v45 (addf : (⟨S100000x128, .f32⟩ : BufTy).Contents (Elt F) → (⟨S100000x128, .f32⟩ : BufTy).Contents (Elt F) → (⟨S100000x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x00000000#32),
    StableHlo.binary main_v48 main_cst_7 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_8 (constant S_ .f32 0x47C35000#32),
    StableHlo.unary main_cst_8 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary main_call0.cst (constant S_ .f32 0x00000000#32),
    StableHlo.TRef.binary (TRef.of main_v48 : TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (TRef.of main_v48 : TRef sig ⟨S100000x128, .f32⟩) main_call0.v4 main_call0.v5 subf,
    StableHlo.TRef.binary main_call0.v5 main_call0.v5 main_call0.v6 mulf,
    StableHlo.TRef.unary (TRef.of main_c_9 : TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v54 main_v55 (subf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v60 main_v61 (mulf : (⟨S100000x128, .f32⟩ : BufTy).Contents (Elt F) → (⟨S100000x128, .f32⟩ : BufTy).Contents (Elt F) → (⟨S100000x128, .f32⟩ : BufTy).Contents (Elt F)),
    StableHlo.unary main_arg5 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (mulf : (⟨S100000x128, .f32⟩ : BufTy).Contents (Elt F) → (⟨S100000x128, .f32⟩ : BufTy).Contents (Elt F) → (⟨S100000x128, .f32⟩ : BufTy).Contents (Elt F)),
    StableHlo.unary main_arg6 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x00000000#32),
    StableHlo.unary main_cst_11 main_v68 (broadcastInDim S100000x128 ![] bcast_S_S100000x128 : (⟨S_, .f32⟩ : BufTy).Contents (Elt F) → (⟨S100000x128, .f32⟩ : BufTy).Contents (Elt F)),
    StableHlo.binary main_v67 main_v68 main_v69 (maximumf : (⟨S100000x128, .f32⟩ : BufTy).Contents (Elt F) → (⟨S100000x128, .f32⟩ : BufTy).Contents (Elt F) → (⟨S100000x128, .f32⟩ : BufTy).Contents (Elt F)) ]

/-- Layer 2: from the transpose of the weight `main_arg7` through the rectifier writing `main_v135`; reads `main_v69`. -/
abbrev opsL1 : List (HloOp τ sig (Elt F)) :=
  [ StableHlo.unary main_arg7 main_v70 ((transpose S128x128 [1, 0] · transposes_S128x128_S128x128_1_0) : (⟨S128x128, .f32⟩ : BufTy).Contents (Elt F) → (⟨S128x128, .f32⟩ : BufTy).Contents (Elt F)),
    StableHlo.binary main_v69 main_v70 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_12 (constant S_ .f32 0x00000000#32),
    StableHlo.unary main_cst_12 main_v72 (broadcastInDim S100000 ![] bcast_S_S100000 : (⟨S_, .f32⟩ : BufTy).Contents (Elt F) → (⟨S100000, .f32⟩ : BufTy).Contents (Elt F)),
    StableHlo.unary main_v3 main_v73 (broadcastInDim S1600000x1 ![0] bcast_S1600000_S1600000x1_0 : (⟨S1600000, .i32⟩ : BufTy).Contents (Elt F) → (⟨S1600000x1, .i32⟩ : BufTy).Contents (Elt F)),
    StableHlo.ternary main_v72 main_v73 main_arg2 main_v74 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_13 (constant S_ .f32 0x3F800000#32),
    StableHlo.unary main_cst_13 main_v75 (broadcastInDim S100000 ![] bcast_S_S100000 : (⟨S_, .f32⟩ : BufTy).Contents (Elt F) → (⟨S100000, .f32⟩ : BufTy).Contents (Elt F)),
    StableHlo.binary main_v74 main_v75 main_v76 (addf : (⟨S100000, .f32⟩ : BufTy).Contents (Elt F) → (⟨S100000, .f32⟩ : BufTy).Contents (Elt F) → (⟨S100000, .f32⟩ : BufTy).Contents (Elt F)),
    StableHlo.unary main_v76 main_v77 (Host.rsqrt : (⟨S100000, .f32⟩ : BufTy).Contents (Elt F) → (⟨S100000, .f32⟩ : BufTy).Contents (Elt F)),
    StableHlo.nullary main_c_14 (constantI S_ 32 0#32),
    StableHlo.unary main_c_14 main_v78 (broadcastInDim S1600000 ![] bcast_S_S1600000 : (⟨S_, .i32⟩ : BufTy).Contents (Elt F) → (⟨S1600000, .i32⟩ : BufTy).Contents (Elt F)),
    StableHlo.binary main_v1 main_v78 main_v79 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v80 (broadcastInDim S1600000 ![] bcast_S_S1600000 : (⟨S_, .i32⟩ : BufTy).Contents (Elt F) → (⟨S1600000, .i32⟩ : BufTy).Contents (Elt F)),
    StableHlo.binary main_v1 main_v80 main_v81 (addi : (⟨S1600000, .i32⟩ : BufTy).Contents (Elt F) → (⟨S1600000, .i32⟩ : BufTy).Contents (Elt F) → (⟨S1600000, .i32⟩ : BufTy).Contents (Elt F)),
    StableHlo.ternary main_v79 main_v81 main_v1 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v82 main_v83 (broadcastInDim S1600000x1 ![0] bcast_S1600000_S1600000x1_0 : (⟨S1600000, .i32⟩ : BufTy).Contents (Elt F) → (⟨S1600000x1, .i32⟩ : BufTy).Contents (Elt F)),
    StableHlo.binary main_v77 main_v83 main_v84 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v84 main_arg2 main_v85 (mulf : (⟨S1600000, .f32⟩ : BufTy).Contents (Elt F) → (⟨S1600000, .f32⟩ : BufTy).Contents (Elt F) → (⟨S1600000, .f32⟩ : BufTy).Contents (Elt F)),
    StableHlo.nullary main_c_16 (constantI S_ 32 0#32),
    StableHlo.unary main_c_16 main_v86 (broadcastInDim S1600000 ![] bcast_S_S1600000 : (⟨S_, .i32⟩ : BufTy).Contents (Elt F) → (⟨S1600000, .i32⟩ : BufTy).Contents (Elt F)),
    StableHlo.binary main_v3 main_v86 main_v87 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v88 (broadcastInDim S1600000 ![] bcast_S_S1600000 : (⟨S_, .i32⟩ : BufTy).Contents (Elt F) → (⟨S1600000, .i32⟩ : BufTy).Contents (Elt F)),
    StableHlo.binary main_v3 main_v88 main_v89 (addi : (⟨S1600000, .i32⟩ : BufTy).Contents (Elt F) → (⟨S1600000, .i32⟩ : BufTy).Contents (Elt F) → (⟨S1600000, .i32⟩ : BufTy).Contents (Elt F)),
    StableHlo.ternary main_v87 main_v89 main_v3 main_v90 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v90 main_v91 (broadcastInDim S1600000x1 ![0] bcast_S1600000_S1600000x1_0 : (⟨S1600000, .i32⟩ : BufTy).Contents (Elt F) → (⟨S1600000x1, .i32⟩ : BufTy).Contents (Elt F)),
    StableHlo.binary main_v77 main_v91 main_v92 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v85 main_v92 main_v93 (mulf : (⟨S1600000, .f32⟩ : BufTy).Contents (Elt F) → (⟨S1600000, .f32⟩ : BufTy).Contents (Elt F) → (⟨S1600000, .f32⟩ : BufTy).Contents (Elt F)),
    StableHlo.nullary main_c_18 (constantI S_ 32 0#32),
    StableHlo.unary main_c_18 main_v94 (broadcastInDim S1600000 ![] bcast_S_S1600000 : (⟨S_, .i32⟩ : BufTy).Contents (Elt F) → (⟨S1600000, .i32⟩ : BufTy).Contents (Elt F)),
    StableHlo.binary main_v1 main_v94 main_v95 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v96 (broadcastInDim S1600000 ![] bcast_S_S1600000 : (⟨S_, .i32⟩ : BufTy).Contents (Elt F) → (⟨S1600000, .i32⟩ : BufTy).Contents (Elt F)),
    StableHlo.binary main_v1 main_v96 main_v97 (addi : (⟨S1600000, .i32⟩ : BufTy).Contents (Elt F) → (⟨S1600000, .i32⟩ : BufTy).Contents (Elt F) → (⟨S1600000, .i32⟩ : BufTy).Contents (Elt F)),
    StableHlo.ternary main_v95 main_v97 main_v1 main_v98 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v98 main_v99 (broadcastInDim S1600000x1 ![0] bcast_S1600000_S1600000x1_0 : (⟨S1600000, .i32⟩ : BufTy).Contents (Elt F) → (⟨S1600000x1, .i32⟩ : BufTy).Contents (Elt F)),
    StableHlo.binary main_v71 main_v99 main_v100 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v93 main_v101 (broadcastInDim S1600000x1 ![0] bcast_S1600000_S1600000x1_0 : (⟨S1600000, .f32⟩ : BufTy).Contents (Elt F) → (⟨S1600000x1, .f32⟩ : BufTy).Contents (Elt F)),
    StableHlo.unary main_v101 main_v102 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v100 main_v102 main_v103 (mulf : (⟨S1600000x128, .f32⟩ : BufTy).Contents (Elt F) → (⟨S1600000x128, .f32⟩ : BufTy).Contents (Elt F) → (⟨S1600000x128, .f32⟩ : BufTy).Contents (Elt F)),
    StableHlo.nullary main_cst_20 (constant S_ .f32 0x00000000#32),
    StableHlo.unary main_cst_20 main_v104 (broadcastInDim S100000x128 ![] bcast_S_S100000x128 : (⟨S_, .f32⟩ : BufTy).Contents (Elt F) → (⟨S100000x128, .f32⟩ : BufTy).Contents (Elt F)),
    StableHlo.unary main_v3 main_v105 (broadcastInDim S1600000x1 ![0] bcast_S1600000_S1600000x1_0 : (⟨S1600000, .i32⟩ : BufTy).Contents (Elt F) → (⟨S1600000x1, .i32⟩ : BufTy).Contents (Elt F)),
    StableHlo.ternary main_v104 main_v105 main_v103 main_v106 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v77 main_v77 main_v107 (mulf : (⟨S100000, .f32⟩ : BufTy).Contents (Elt F) → (⟨S100000, .f32⟩ : BufTy).Contents (Elt F) → (⟨S100000, .f32⟩ : BufTy).Contents (Elt F)),
    StableHlo.unary main_v107 main_v108 (broadcastInDim S100000x1 ![0] bcast_S100000_S100000x1_0 : (⟨S100000, .f32⟩ : BufTy).Contents (Elt F) → (⟨S100000x1, .f32⟩ : BufTy).Contents (Elt F)),
    StableHlo.unary main_v108 main_v109 (broadcastInDim S100000x128 ![0, 1] bcast_S100000x1_S100000x128_0_1 : (⟨S100000x1, .f32⟩ : BufTy).Contents (Elt F) → (⟨S100000x128, .f32⟩ : BufTy).Contents (Elt F)),
    StableHlo.binary main_v71 main_v109 main_v110 (mulf : (⟨S100000x128, .f32⟩ : BufTy).Contents (Elt F) → (⟨S100000x128, .f32⟩ : BufTy).Contents (Elt F) → (⟨S100000x128, .f32⟩ : BufTy).Contents (Elt F)),
    StableHlo.binary main_v106 main_v110 main_v111 (addf : (⟨S100000x128, .f32⟩ : BufTy).Contents (Elt F) → (⟨S100000x128, .f32⟩ : BufTy).Contents (Elt F) → (⟨S100000x128, .f32⟩ : BufTy).Contents (Elt F)),
    StableHlo.unary main_arg8 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v113 main_v114 (addf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x00000000#32),
    StableHlo.binary main_v114 main_cst_21 main_v115 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_22 (constant S_ .f32 0x47C35000#32),
    StableHlo.unary main_cst_22 main_v116 (broadcastInDim S128 ![] bcast_S_S128 : (⟨S_, .f32⟩ : BufTy).Contents (Elt F) → (⟨S128, .f32⟩ : BufTy).Contents (Elt F)),
    StableHlo.binary main_v115 main_v116 main_v117 (Host.divf : (⟨S128, .f32⟩ : BufTy).Contents (Elt F) → (⟨S128, .f32⟩ : BufTy).Contents (Elt F) → (⟨S128, .f32⟩ : BufTy).Contents (Elt F)),
    StableHlo.nullary main_c_23 (constantI S_ 32 0#32),
    StableHlo.TRef.nullary main_call1.cst (constant S_ .f32 0x00000000#32),
    StableHlo.TRef.binary (TRef.of main_v114 : TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (TRef.of main_v114 : TRef sig ⟨S100000x128, .f32⟩) main_call1.v4 main_call1.v5 subf,
    StableHlo.TRef.binary main_call1.v5 main_call1.v5 main_call1.v6 mulf,
    StableHlo.TRef.unary (TRef.of main_c_23 : TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v117 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v120 main_v121 (subf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x3727C5AC#32),
    StableHlo.unary main_cst_24 main_v122 (broadcastInDim S128 ![] bcast_S_S128 : (⟨S_, .f32⟩ : BufTy).Contents (Elt F) → (⟨S128, .f32⟩ : BufTy).Contents (Elt F)),
    StableHlo.binary main_v118 main_v122 main_v123 (addf : (⟨S128, .f32⟩ : BufTy).Contents (Elt F) → (⟨S128, .f32⟩ : BufTy).Contents (Elt F) → (⟨S128, .f32⟩ : BufTy).Contents (Elt F)),
    StableHlo.unary main_v123 main_v124 (Host.rsqrt : (⟨S128, .f32⟩ : BufTy).Contents (Elt F) → (⟨S128, .f32⟩ : BufTy).Contents (Elt F)),
    StableHlo.unary main_v124 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v126 main_v127 (mulf : (⟨S100000x128, .f32⟩ : BufTy).Contents (Elt F) → (⟨S100000x128, .f32⟩ : BufTy).Contents (Elt F) → (⟨S100000x128, .f32⟩ : BufTy).Contents (Elt F)),
    StableHlo.unary main_arg9 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S100000x128 ![0, 1] bcast_S1x128_S100000x128_0_1 : (⟨S1x128, .f32⟩ : BufTy).Contents (Elt F) → (⟨S100000x128, .f32⟩ : BufTy).Contents (Elt F)),
    StableHlo.binary main_v127 main_v129 main_v130 (mulf : (⟨S100000x128, .f32⟩ : BufTy).Contents (Elt F) → (⟨S100000x128, .f32⟩ : BufTy).Contents (Elt F) → (⟨S100000x128, .f32⟩ : BufTy).Contents (Elt F)),
    StableHlo.unary main_arg10 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v132 main_v133 (addf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x00000000#32),
    StableHlo.unary main_cst_25 main_v134 (broadcastInDim S100000x128 ![] bcast_S_S100000x128 : (⟨S_, .f32⟩ : BufTy).Contents (Elt F) → (⟨S100000x128, .f32⟩ : BufTy).Contents (Elt F)),
    StableHlo.binary main_v133 main_v134 main_v135 (maximumf : (⟨S100000x128, .f32⟩ : BufTy).Contents (Elt F) → (⟨S100000x128, .f32⟩ : BufTy).Contents (Elt F) → (⟨S100000x128, .f32⟩ : BufTy).Contents (Elt F)) ]

/-- Layer 3: from the transpose of the weight `main_arg11` through the rectifier writing the result `main_v201`; reads `main_v135`. -/
abbrev opsL2 : List (HloOp τ sig (Elt F)) :=
  [ StableHlo.unary main_arg11 main_v136 ((transpose S128x128 [1, 0] · transposes_S128x128_S128x128_1_0) : (⟨S128x128, .f32⟩ : BufTy).Contents (Elt F) → (⟨S128x128, .f32⟩ : BufTy).Contents (Elt F)),
    StableHlo.binary main_v135 main_v136 main_v137 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_26 (constant S_ .f32 0x00000000#32),
    StableHlo.unary main_cst_26 main_v138 (broadcastInDim S100000 ![] bcast_S_S100000 : (⟨S_, .f32⟩ : BufTy).Contents (Elt F) → (⟨S100000, .f32⟩ : BufTy).Contents (Elt F)),
    StableHlo.unary main_v3 main_v139 (broadcastInDim S1600000x1 ![0] bcast_S1600000_S1600000x1_0 : (⟨S1600000, .i32⟩ : BufTy).Contents (Elt F) → (⟨S1600000x1, .i32⟩ : BufTy).Contents (Elt F)),
    StableHlo.ternary main_v138 main_v139 main_arg2 main_v140 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_27 (constant S_ .f32 0x3F800000#32),
    StableHlo.unary main_cst_27 main_v141 (broadcastInDim S100000 ![] bcast_S_S100000 : (⟨S_, .f32⟩ : BufTy).Contents (Elt F) → (⟨S100000, .f32⟩ : BufTy).Contents (Elt F)),
    StableHlo.binary main_v140 main_v141 main_v142 (addf : (⟨S100000, .f32⟩ : BufTy).Contents (Elt F) → (⟨S100000, .f32⟩ : BufTy).Contents (Elt F) → (⟨S100000, .f32⟩ : BufTy).Contents (Elt F)),
    StableHlo.unary main_v142 main_v143 (Host.rsqrt : (⟨S100000, .f32⟩ : BufTy).Contents (Elt F) → (⟨S100000, .f32⟩ : BufTy).Contents (Elt F)),
    StableHlo.nullary main_c_28 (constantI S_ 32 0#32),
    StableHlo.unary main_c_28 main_v144 (broadcastInDim S1600000 ![] bcast_S_S1600000 : (⟨S_, .i32⟩ : BufTy).Contents (Elt F) → (⟨S1600000, .i32⟩ : BufTy).Contents (Elt F)),
    StableHlo.binary main_v1 main_v144 main_v145 (cmpi .slt : (⟨S1600000, .i32⟩ : BufTy).Contents (Elt F) → (⟨S1600000, .i32⟩ : BufTy).Contents (Elt F) → (⟨S1600000, .i1⟩ : BufTy).Contents (Elt F)),
    StableHlo.nullary main_c_29 (constantI S_ 32 100000#32),
    StableHlo.unary main_c_29 main_v146 (broadcastInDim S1600000 ![] bcast_S_S1600000 : (⟨S_, .i32⟩ : BufTy).Contents (Elt F) → (⟨S1600000, .i32⟩ : BufTy).Contents (Elt F)),
    StableHlo.binary main_v1 main_v146 main_v147 (addi : (⟨S1600000, .i32⟩ : BufTy).Contents (Elt F) → (⟨S1600000, .i32⟩ : BufTy).Contents (Elt F) → (⟨S1600000, .i32⟩ : BufTy).Contents (Elt F)),
    StableHlo.ternary main_v145 main_v147 main_v1 main_v148 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v148 main_v149 (broadcastInDim S1600000x1 ![0] bcast_S1600000_S1600000x1_0 : (⟨S1600000, .i32⟩ : BufTy).Contents (Elt F) → (⟨S1600000x1, .i32⟩ : BufTy).Contents (Elt F)),
    StableHlo.binary main_v143 main_v149 main_v150 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v150 main_arg2 main_v151 (mulf : (⟨S1600000, .f32⟩ : BufTy).Contents (Elt F) → (⟨S1600000, .f32⟩ : BufTy).Contents (Elt F) → (⟨S1600000, .f32⟩ : BufTy).Contents (Elt F)),
    StableHlo.nullary main_c_30 (constantI S_ 32 0#32),
    StableHlo.unary main_c_30 main_v152 (broadcastInDim S1600000 ![] bcast_S_S1600000 : (⟨S_, .i32⟩ : BufTy).Contents (Elt F) → (⟨S1600000, .i32⟩ : BufTy).Contents (Elt F)),
    StableHlo.binary main_v3 main_v152 main_v153 (cmpi .slt : (⟨S1600000, .i32⟩ : BufTy).Contents (Elt F) → (⟨S1600000, .i32⟩ : BufTy).Contents (Elt F) → (⟨S1600000, .i1⟩ : BufTy).Contents (Elt F)),
    StableHlo.nullary main_c_31 (constantI S_ 32 100000#32),
    StableHlo.unary main_c_31 main_v154 (broadcastInDim S1600000 ![] bcast_S_S1600000 : (⟨S_, .i32⟩ : BufTy).Contents (Elt F) → (⟨S1600000, .i32⟩ : BufTy).Contents (Elt F)),
    StableHlo.binary main_v3 main_v154 main_v155 (addi : (⟨S1600000, .i32⟩ : BufTy).Contents (Elt F) → (⟨S1600000, .i32⟩ : BufTy).Contents (Elt F) → (⟨S1600000, .i32⟩ : BufTy).Contents (Elt F)),
    StableHlo.ternary main_v153 main_v155 main_v3 main_v156 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v156 main_v157 (broadcastInDim S1600000x1 ![0] bcast_S1600000_S1600000x1_0 : (⟨S1600000, .i32⟩ : BufTy).Contents (Elt F) → (⟨S1600000x1, .i32⟩ : BufTy).Contents (Elt F)),
    StableHlo.binary main_v143 main_v157 main_v158 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v151 main_v158 main_v159 (mulf : (⟨S1600000, .f32⟩ : BufTy).Contents (Elt F) → (⟨S1600000, .f32⟩ : BufTy).Contents (Elt F) → (⟨S1600000, .f32⟩ : BufTy).Contents (Elt F)),
    StableHlo.nullary main_c_32 (constantI S_ 32 0#32),
    StableHlo.unary main_c_32 main_v160 (broadcastInDim S1600000 ![] bcast_S_S1600000 : (⟨S_, .i32⟩ : BufTy).Contents (Elt F) → (⟨S1600000, .i32⟩ : BufTy).Contents (Elt F)),
    StableHlo.binary main_v1 main_v160 main_v161 (cmpi .slt : (⟨S1600000, .i32⟩ : BufTy).Contents (Elt F) → (⟨S1600000, .i32⟩ : BufTy).Contents (Elt F) → (⟨S1600000, .i1⟩ : BufTy).Contents (Elt F)),
    StableHlo.nullary main_c_33 (constantI S_ 32 100000#32),
    StableHlo.unary main_c_33 main_v162 (broadcastInDim S1600000 ![] bcast_S_S1600000 : (⟨S_, .i32⟩ : BufTy).Contents (Elt F) → (⟨S1600000, .i32⟩ : BufTy).Contents (Elt F)),
    StableHlo.binary main_v1 main_v162 main_v163 (addi : (⟨S1600000, .i32⟩ : BufTy).Contents (Elt F) → (⟨S1600000, .i32⟩ : BufTy).Contents (Elt F) → (⟨S1600000, .i32⟩ : BufTy).Contents (Elt F)),
    StableHlo.ternary main_v161 main_v163 main_v1 main_v164 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v164 main_v165 (broadcastInDim S1600000x1 ![0] bcast_S1600000_S1600000x1_0 : (⟨S1600000, .i32⟩ : BufTy).Contents (Elt F) → (⟨S1600000x1, .i32⟩ : BufTy).Contents (Elt F)),
    StableHlo.binary main_v137 main_v165 main_v166 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v159 main_v167 (broadcastInDim S1600000x1 ![0] bcast_S1600000_S1600000x1_0 : (⟨S1600000, .f32⟩ : BufTy).Contents (Elt F) → (⟨S1600000x1, .f32⟩ : BufTy).Contents (Elt F)),
    StableHlo.unary main_v167 main_v168 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v166 main_v168 main_v169 (mulf : (⟨S1600000x128, .f32⟩ : BufTy).Contents (Elt F) → (⟨S1600000x128, .f32⟩ : BufTy).Contents (Elt F) → (⟨S1600000x128, .f32⟩ : BufTy).Contents (Elt F)),
    StableHlo.nullary main_cst_34 (constant S_ .f32 0x00000000#32),
    StableHlo.unary main_cst_34 main_v170 (broadcastInDim S100000x128 ![] bcast_S_S100000x128 : (⟨S_, .f32⟩ : BufTy).Contents (Elt F) → (⟨S100000x128, .f32⟩ : BufTy).Contents (Elt F)),
    StableHlo.unary main_v3 main_v171 (broadcastInDim S1600000x1 ![0] bcast_S1600000_S1600000x1_0 : (⟨S1600000, .i32⟩ : BufTy).Contents (Elt F) → (⟨S1600000x1, .i32⟩ : BufTy).Contents (Elt F)),
    StableHlo.ternary main_v170 main_v171 main_v169 main_v172 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v143 main_v143 main_v173 (mulf : (⟨S100000, .f32⟩ : BufTy).Contents (Elt F) → (⟨S100000, .f32⟩ : BufTy).Contents (Elt F) → (⟨S100000, .f32⟩ : BufTy).Contents (Elt F)),
    StableHlo.unary main_v173 main_v174 (broadcastInDim S100000x1 ![0] bcast_S100000_S100000x1_0 : (⟨S100000, .f32⟩ : BufTy).Contents (Elt F) → (⟨S100000x1, .f32⟩ : BufTy).Contents (Elt F)),
    StableHlo.unary main_v174 main_v175 (broadcastInDim S100000x128 ![0, 1] bcast_S100000x1_S100000x128_0_1 : (⟨S100000x1, .f32⟩ : BufTy).Contents (Elt F) → (⟨S100000x128, .f32⟩ : BufTy).Contents (Elt F)),
    StableHlo.binary main_v137 main_v175 main_v176 (mulf : (⟨S100000x128, .f32⟩ : BufTy).Contents (Elt F) → (⟨S100000x128, .f32⟩ : BufTy).Contents (Elt F) → (⟨S100000x128, .f32⟩ : BufTy).Contents (Elt F)),
    StableHlo.binary main_v172 main_v176 main_v177 (addf : (⟨S100000x128, .f32⟩ : BufTy).Contents (Elt F) → (⟨S100000x128, .f32⟩ : BufTy).Contents (Elt F) → (⟨S100000x128, .f32⟩ : BufTy).Contents (Elt F)),
    StableHlo.unary main_arg12 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S100000x128 ![0, 1] bcast_S1x128_S100000x128_0_1 : (⟨S1x128, .f32⟩ : BufTy).Contents (Elt F) → (⟨S100000x128, .f32⟩ : BufTy).Contents (Elt F)),
    StableHlo.binary main_v177 main_v179 main_v180 (addf : (⟨S100000x128, .f32⟩ : BufTy).Contents (Elt F) → (⟨S100000x128, .f32⟩ : BufTy).Contents (Elt F) → (⟨S100000x128, .f32⟩ : BufTy).Contents (Elt F)),
    StableHlo.nullary main_cst_35 (constant S_ .f32 0x00000000#32),
    StableHlo.binary main_v180 main_cst_35 main_v181 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_36 (constant S_ .f32 0x47C35000#32),
    StableHlo.unary main_cst_36 main_v182 (broadcastInDim S128 ![] bcast_S_S128 : (⟨S_, .f32⟩ : BufTy).Contents (Elt F) → (⟨S128, .f32⟩ : BufTy).Contents (Elt F)),
    StableHlo.binary main_v181 main_v182 main_v183 (Host.divf : (⟨S128, .f32⟩ : BufTy).Contents (Elt F) → (⟨S128, .f32⟩ : BufTy).Contents (Elt F) → (⟨S128, .f32⟩ : BufTy).Contents (Elt F)),
    StableHlo.nullary main_c_37 (constantI S_ 32 0#32),
    StableHlo.TRef.nullary main_call2.cst (constant S_ .f32 0x00000000#32),
    StableHlo.TRef.binary (TRef.of main_v180 : TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (TRef.of main_v180 : TRef sig ⟨S100000x128, .f32⟩) main_call2.v4 main_call2.v5 subf,
    StableHlo.TRef.binary main_call2.v5 main_call2.v5 main_call2.v6 mulf,
    StableHlo.TRef.unary (TRef.of main_c_37 : TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v183 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S100000x128 ![0, 1] bcast_S1x128_S100000x128_0_1 : (⟨S1x128, .f32⟩ : BufTy).Contents (Elt F) → (⟨S100000x128, .f32⟩ : BufTy).Contents (Elt F)),
    StableHlo.binary main_v180 main_v186 main_v187 (subf : (⟨S100000x128, .f32⟩ : BufTy).Contents (Elt F) → (⟨S100000x128, .f32⟩ : BufTy).Contents (Elt F) → (⟨S100000x128, .f32⟩ : BufTy).Contents (Elt F)),
    StableHlo.nullary main_cst_38 (constant S_ .f32 0x3727C5AC#32),
    StableHlo.unary main_cst_38 main_v188 (broadcastInDim S128 ![] bcast_S_S128 : (⟨S_, .f32⟩ : BufTy).Contents (Elt F) → (⟨S128, .f32⟩ : BufTy).Contents (Elt F)),
    StableHlo.binary main_v184 main_v188 main_v189 (addf : (⟨S128, .f32⟩ : BufTy).Contents (Elt F) → (⟨S128, .f32⟩ : BufTy).Contents (Elt F) → (⟨S128, .f32⟩ : BufTy).Contents (Elt F)),
    StableHlo.unary main_v189 main_v190 (Host.rsqrt : (⟨S128, .f32⟩ : BufTy).Contents (Elt F) → (⟨S128, .f32⟩ : BufTy).Contents (Elt F)),
    StableHlo.unary main_v190 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S100000x128 ![0, 1] bcast_S1x128_S100000x128_0_1 : (⟨S1x128, .f32⟩ : BufTy).Contents (Elt F) → (⟨S100000x128, .f32⟩ : BufTy).Contents (Elt F)),
    StableHlo.binary main_v187 main_v192 main_v193 (mulf : (⟨S100000x128, .f32⟩ : BufTy).Contents (Elt F) → (⟨S100000x128, .f32⟩ : BufTy).Contents (Elt F) → (⟨S100000x128, .f32⟩ : BufTy).Contents (Elt F)),
    StableHlo.unary main_arg13 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S100000x128 ![0, 1] bcast_S1x128_S100000x128_0_1 : (⟨S1x128, .f32⟩ : BufTy).Contents (Elt F) → (⟨S100000x128, .f32⟩ : BufTy).Contents (Elt F)),
    StableHlo.binary main_v193 main_v195 main_v196 (mulf : (⟨S100000x128, .f32⟩ : BufTy).Contents (Elt F) → (⟨S100000x128, .f32⟩ : BufTy).Contents (Elt F) → (⟨S100000x128, .f32⟩ : BufTy).Contents (Elt F)),
    StableHlo.unary main_arg14 main_v197 (broadcastInDim S1x128 ![1] bcast_S128_S1x128_1 : (⟨S128, .f32⟩ : BufTy).Contents (Elt F) → (⟨S1x128, .f32⟩ : BufTy).Contents (Elt F)),
    StableHlo.unary main_v197 main_v198 (broadcastInDim S100000x128 ![0, 1] bcast_S1x128_S100000x128_0_1 : (⟨S1x128, .f32⟩ : BufTy).Contents (Elt F) → (⟨S100000x128, .f32⟩ : BufTy).Contents (Elt F)),
    StableHlo.binary main_v196 main_v198 main_v199 (addf : (⟨S100000x128, .f32⟩ : BufTy).Contents (Elt F) → (⟨S100000x128, .f32⟩ : BufTy).Contents (Elt F) → (⟨S100000x128, .f32⟩ : BufTy).Contents (Elt F)),
    StableHlo.nullary main_cst_39 (constant S_ .f32 0x00000000#32),
    StableHlo.unary main_cst_39 main_v200 (broadcastInDim S100000x128 ![] bcast_S_S100000x128 : (⟨S_, .f32⟩ : BufTy).Contents (Elt F) → (⟨S100000x128, .f32⟩ : BufTy).Contents (Elt F)),
    StableHlo.binary main_v199 main_v200 main_v201 (maximumf : (⟨S100000x128, .f32⟩ : BufTy).Contents (Elt F) → (⟨S100000x128, .f32⟩ : BufTy).Contents (Elt F) → (⟨S100000x128, .f32⟩ : BufTy).Contents (Elt F)) ]

end Cert.ReferenceIdeal.RefRun

end
-- ==== Proof.RefMainEq.lean ====
/- @main is the straight line `opsPre ++ opsL0 ++ opsL1 ++ opsL2`: each printed window of @main is `seq` of the
   literal slice of the operations it prints (the functions' definitions unfolded at their calls, the records at
   their fields, sequencing reassociated), and the five slices in order are the four lists in order. -/
import proofs.«114926_j41686952575093_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0: statements 1 … 60. -/
abbrev win0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg3 main_v4 ((transpose S128x128 [1, 0] · transposes_S128x128_S128x128_1_0) : (⟨S128x128, .f32⟩ : BufTy).Contents (Elt F) → (⟨S128x128, .f32⟩ : BufTy).Contents (Elt F)),
    StableHlo.binary main_arg0 main_v4 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst (constant S_ .f32 0x00000000#32),
    StableHlo.unary main_cst main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_arg2 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_0 (constant S_ .f32 0x3F800000#32),
    StableHlo.unary main_cst_0 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_arg2 main_v19 (mulf : (⟨S1600000, .f32⟩ : BufTy).Contents (Elt F) → (⟨S1600000, .f32⟩ : BufTy).Contents (Elt F) → (⟨S1600000, .f32⟩ : BufTy).Contents (Elt F)),
    StableHlo.nullary main_c_2 (constantI S_ 32 0#32),
    StableHlo.unary main_c_2 main_v20 (broadcastInDim S1600000 ![] bcast_S_S1600000 : (⟨S_, .i32⟩ : BufTy).Contents (Elt F) → (⟨S1600000, .i32⟩ : BufTy).Contents (Elt F)),
    StableHlo.binary main_v3 main_v20 main_v21 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v22 (broadcastInDim S1600000 ![] bcast_S_S1600000 : (⟨S_, .i32⟩ : BufTy).Contents (Elt F) → (⟨S1600000, .i32⟩ : BufTy).Contents (Elt F)),
    StableHlo.binary main_v3 main_v22 main_v23 (addi : (⟨S1600000, .i32⟩ : BufTy).Contents (Elt F) → (⟨S1600000, .i32⟩ : BufTy).Contents (Elt F) → (⟨S1600000, .i32⟩ : BufTy).Contents (Elt F)),
    StableHlo.ternary main_v21 main_v23 main_v3 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v24 main_v25 (broadcastInDim S1600000x1 ![0] bcast_S1600000_S1600000x1_0 : (⟨S1600000, .i32⟩ : BufTy).Contents (Elt F) → (⟨S1600000x1, .i32⟩ : BufTy).Contents (Elt F)),
    StableHlo.binary main_v11 main_v25 main_v26 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v19 main_v26 main_v27 (mulf : (⟨S1600000, .f32⟩ : BufTy).Contents (Elt F) → (⟨S1600000, .f32⟩ : BufTy).Contents (Elt F) → (⟨S1600000, .f32⟩ : BufTy).Contents (Elt F)),
    StableHlo.nullary main_c_4 (constantI S_ 32 0#32),
    StableHlo.unary main_c_4 main_v28 (broadcastInDim S1600000 ![] bcast_S_S1600000 : (⟨S_, .i32⟩ : BufTy).Contents (Elt F) → (⟨S1600000, .i32⟩ : BufTy).Contents (Elt F)),
    StableHlo.binary main_v1 main_v28 main_v29 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v30 (broadcastInDim S1600000 ![] bcast_S_S1600000 : (⟨S_, .i32⟩ : BufTy).Contents (Elt F) → (⟨S1600000, .i32⟩ : BufTy).Contents (Elt F)),
    StableHlo.binary main_v1 main_v30 main_v31 (addi : (⟨S1600000, .i32⟩ : BufTy).Contents (Elt F) → (⟨S1600000, .i32⟩ : BufTy).Contents (Elt F) → (⟨S1600000, .i32⟩ : BufTy).Contents (Elt F)),
    StableHlo.ternary main_v29 main_v31 main_v1 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v32 main_v33 (broadcastInDim S1600000x1 ![0] bcast_S1600000_S1600000x1_0 : (⟨S1600000, .i32⟩ : BufTy).Contents (Elt F) → (⟨S1600000x1, .i32⟩ : BufTy).Contents (Elt F)),
    StableHlo.binary main_v5 main_v33 main_v34 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v27 main_v35 (broadcastInDim S1600000x1 ![0] bcast_S1600000_S1600000x1_0 : (⟨S1600000, .f32⟩ : BufTy).Contents (Elt F) → (⟨S1600000x1, .f32⟩ : BufTy).Contents (Elt F)),
    StableHlo.unary main_v35 main_v36 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v34 main_v36 main_v37 (mulf : (⟨S1600000x128, .f32⟩ : BufTy).Contents (Elt F) → (⟨S1600000x128, .f32⟩ : BufTy).Contents (Elt F) → (⟨S1600000x128, .f32⟩ : BufTy).Contents (Elt F)),
    StableHlo.nullary main_cst_6 (constant S_ .f32 0x00000000#32),
    StableHlo.unary main_cst_6 main_v38 (broadcastInDim S100000x128 ![] bcast_S_S100000x128 : (⟨S_, .f32⟩ : BufTy).Contents (Elt F) → (⟨S100000x128, .f32⟩ : BufTy).Contents (Elt F)),
    StableHlo.unary main_v3 main_v39 (broadcastInDim S1600000x1 ![0] bcast_S1600000_S1600000x1_0 : (⟨S1600000, .i32⟩ : BufTy).Contents (Elt F) → (⟨S1600000x1, .i32⟩ : BufTy).Contents (Elt F)),
    StableHlo.ternary main_v38 main_v39 main_v37 main_v40 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v11 main_v11 main_v41 (mulf : (⟨S100000, .f32⟩ : BufTy).Contents (Elt F) → (⟨S100000, .f32⟩ : BufTy).Contents (Elt F) → (⟨S100000, .f32⟩ : BufTy).Contents (Elt F)),
    StableHlo.unary main_v41 main_v42 (broadcastInDim S100000x1 ![0] bcast_S100000_S100000x1_0 : (⟨S100000, .f32⟩ : BufTy).Contents (Elt F) → (⟨S100000x1, .f32⟩ : BufTy).Contents (Elt F)),
    StableHlo.unary main_v42 main_v43 (broadcastInDim S100000x128 ![0, 1] bcast_S100000x1_S100000x128_0_1 : (⟨S100000x1, .f32⟩ : BufTy).Contents (Elt F) → (⟨S100000x128, .f32⟩ : BufTy).Contents (Elt F)),
    StableHlo.binary main_v5 main_v43 main_v44 (mulf : (⟨S100000x128, .f32⟩ : BufTy).Contents (Elt F) → (⟨S100000x128, .f32⟩ : BufTy).Contents (Elt F) → (⟨S100000x128, .f32⟩ : BufTy).Contents (Elt F)),
    StableHlo.binary main_v40 main_v44 main_v45 (addf : (⟨S100000x128, .f32⟩ : BufTy).Contents (Elt F) → (⟨S100000x128, .f32⟩ : BufTy).Contents (Elt F) → (⟨S100000x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x00000000#32),
    StableHlo.binary main_v48 main_cst_7 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ]

/-- The operations of @main's window 1: statements 61 … 120 (the first call of `_var` inline). -/
abbrev win1 : List (HloOp τ sig (Elt F)) :=
  [ StableHlo.nullary main_cst_8 (constant S_ .f32 0x47C35000#32),
    StableHlo.unary main_cst_8 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary main_call0.cst (constant S_ .f32 0x00000000#32),
    StableHlo.TRef.binary (TRef.of main_v48 : TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (TRef.of main_v48 : TRef sig ⟨S100000x128, .f32⟩) main_call0.v4 main_call0.v5 subf,
    StableHlo.TRef.binary main_call0.v5 main_call0.v5 main_call0.v6 mulf,
    StableHlo.TRef.unary (TRef.of main_c_9 : TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v54 main_v55 (subf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v60 main_v61 (mulf : (⟨S100000x128, .f32⟩ : BufTy).Contents (Elt F) → (⟨S100000x128, .f32⟩ : BufTy).Contents (Elt F) → (⟨S100000x128, .f32⟩ : BufTy).Contents (Elt F)),
    StableHlo.unary main_arg5 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (mulf : (⟨S100000x128, .f32⟩ : BufTy).Contents (Elt F) → (⟨S100000x128, .f32⟩ : BufTy).Contents (Elt F) → (⟨S100000x128, .f32⟩ : BufTy).Contents (Elt F)),
    StableHlo.unary main_arg6 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x00000000#32),
    StableHlo.unary main_cst_11 main_v68 (broadcastInDim S100000x128 ![] bcast_S_S100000x128 : (⟨S_, .f32⟩ : BufTy).Contents (Elt F) → (⟨S100000x128, .f32⟩ : BufTy).Contents (Elt F)),
    StableHlo.binary main_v67 main_v68 main_v69 (maximumf : (⟨S100000x128, .f32⟩ : BufTy).Contents (Elt F) → (⟨S100000x128, .f32⟩ : BufTy).Contents (Elt F) → (⟨S100000x128, .f32⟩ : BufTy).Contents (Elt F)),
    StableHlo.unary main_arg7 main_v70 ((transpose S128x128 [1, 0] · transposes_S128x128_S128x128_1_0) : (⟨S128x128, .f32⟩ : BufTy).Contents (Elt F) → (⟨S128x128, .f32⟩ : BufTy).Contents (Elt F)),
    StableHlo.binary main_v69 main_v70 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_12 (constant S_ .f32 0x00000000#32),
    StableHlo.unary main_cst_12 main_v72 (broadcastInDim S100000 ![] bcast_S_S100000 : (⟨S_, .f32⟩ : BufTy).Contents (Elt F) → (⟨S100000, .f32⟩ : BufTy).Contents (Elt F)),
    StableHlo.unary main_v3 main_v73 (broadcastInDim S1600000x1 ![0] bcast_S1600000_S1600000x1_0 : (⟨S1600000, .i32⟩ : BufTy).Contents (Elt F) → (⟨S1600000x1, .i32⟩ : BufTy).Contents (Elt F)),
    StableHlo.ternary main_v72 main_v73 main_arg2 main_v74 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_13 (constant S_ .f32 0x3F800000#32),
    StableHlo.unary main_cst_13 main_v75 (broadcastInDim S100000 ![] bcast_S_S100000 : (⟨S_, .f32⟩ : BufTy).Contents (Elt F) → (⟨S100000, .f32⟩ : BufTy).Contents (Elt F)),
    StableHlo.binary main_v74 main_v75 main_v76 (addf : (⟨S100000, .f32⟩ : BufTy).Contents (Elt F) → (⟨S100000, .f32⟩ : BufTy).Contents (Elt F) → (⟨S100000, .f32⟩ : BufTy).Contents (Elt F)),
    StableHlo.unary main_v76 main_v77 (Host.rsqrt : (⟨S100000, .f32⟩ : BufTy).Contents (Elt F) → (⟨S100000, .f32⟩ : BufTy).Contents (Elt F)),
    StableHlo.nullary main_c_14 (constantI S_ 32 0#32),
    StableHlo.unary main_c_14 main_v78 (broadcastInDim S1600000 ![] bcast_S_S1600000 : (⟨S_, .i32⟩ : BufTy).Contents (Elt F) → (⟨S1600000, .i32⟩ : BufTy).Contents (Elt F)),
    StableHlo.binary main_v1 main_v78 main_v79 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v80 (broadcastInDim S1600000 ![] bcast_S_S1600000 : (⟨S_, .i32⟩ : BufTy).Contents (Elt F) → (⟨S1600000, .i32⟩ : BufTy).Contents (Elt F)),
    StableHlo.binary main_v1 main_v80 main_v81 (addi : (⟨S1600000, .i32⟩ : BufTy).Contents (Elt F) → (⟨S1600000, .i32⟩ : BufTy).Contents (Elt F) → (⟨S1600000, .i32⟩ : BufTy).Contents (Elt F)),
    StableHlo.ternary main_v79 main_v81 main_v1 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v82 main_v83 (broadcastInDim S1600000x1 ![0] bcast_S1600000_S1600000x1_0 : (⟨S1600000, .i32⟩ : BufTy).Contents (Elt F) → (⟨S1600000x1, .i32⟩ : BufTy).Contents (Elt F)),
    StableHlo.binary main_v77 main_v83 main_v84 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v84 main_arg2 main_v85 (mulf : (⟨S1600000, .f32⟩ : BufTy).Contents (Elt F) → (⟨S1600000, .f32⟩ : BufTy).Contents (Elt F) → (⟨S1600000, .f32⟩ : BufTy).Contents (Elt F)),
    StableHlo.nullary main_c_16 (constantI S_ 32 0#32),
    StableHlo.unary main_c_16 main_v86 (broadcastInDim S1600000 ![] bcast_S_S1600000 : (⟨S_, .i32⟩ : BufTy).Contents (Elt F) → (⟨S1600000, .i32⟩ : BufTy).Contents (Elt F)),
    StableHlo.binary main_v3 main_v86 main_v87 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v88 (broadcastInDim S1600000 ![] bcast_S_S1600000 : (⟨S_, .i32⟩ : BufTy).Contents (Elt F) → (⟨S1600000, .i32⟩ : BufTy).Contents (Elt F)),
    StableHlo.binary main_v3 main_v88 main_v89 (addi : (⟨S1600000, .i32⟩ : BufTy).Contents (Elt F) → (⟨S1600000, .i32⟩ : BufTy).Contents (Elt F) → (⟨S1600000, .i32⟩ : BufTy).Contents (Elt F)),
    StableHlo.ternary main_v87 main_v89 main_v3 main_v90 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v90 main_v91 (broadcastInDim S1600000x1 ![0] bcast_S1600000_S1600000x1_0 : (⟨S1600000, .i32⟩ : BufTy).Contents (Elt F) → (⟨S1600000x1, .i32⟩ : BufTy).Contents (Elt F)),
    StableHlo.binary main_v77 main_v91 main_v92 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v85 main_v92 main_v93 (mulf : (⟨S1600000, .f32⟩ : BufTy).Contents (Elt F) → (⟨S1600000, .f32⟩ : BufTy).Contents (Elt F) → (⟨S1600000, .f32⟩ : BufTy).Contents (Elt F)),
    StableHlo.nullary main_c_18 (constantI S_ 32 0#32),
    StableHlo.unary main_c_18 main_v94 (broadcastInDim S1600000 ![] bcast_S_S1600000 : (⟨S_, .i32⟩ : BufTy).Contents (Elt F) → (⟨S1600000, .i32⟩ : BufTy).Contents (Elt F)),
    StableHlo.binary main_v1 main_v94 main_v95 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v96 (broadcastInDim S1600000 ![] bcast_S_S1600000 : (⟨S_, .i32⟩ : BufTy).Contents (Elt F) → (⟨S1600000, .i32⟩ : BufTy).Contents (Elt F)),
    StableHlo.binary main_v1 main_v96 main_v97 (addi : (⟨S1600000, .i32⟩ : BufTy).Contents (Elt F) → (⟨S1600000, .i32⟩ : BufTy).Contents (Elt F) → (⟨S1600000, .i32⟩ : BufTy).Contents (Elt F)) ]

/-- The operations of @main's window 2: statements 121 … 180 (the second call inline). -/
abbrev win2 : List (HloOp τ sig (Elt F)) :=
  [ StableHlo.ternary main_v95 main_v97 main_v1 main_v98 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v98 main_v99 (broadcastInDim S1600000x1 ![0] bcast_S1600000_S1600000x1_0 : (⟨S1600000, .i32⟩ : BufTy).Contents (Elt F) → (⟨S1600000x1, .i32⟩ : BufTy).Contents (Elt F)),
    StableHlo.binary main_v71 main_v99 main_v100 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v93 main_v101 (broadcastInDim S1600000x1 ![0] bcast_S1600000_S1600000x1_0 : (⟨S1600000, .f32⟩ : BufTy).Contents (Elt F) → (⟨S1600000x1, .f32⟩ : BufTy).Contents (Elt F)),
    StableHlo.unary main_v101 main_v102 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v100 main_v102 main_v103 (mulf : (⟨S1600000x128, .f32⟩ : BufTy).Contents (Elt F) → (⟨S1600000x128, .f32⟩ : BufTy).Contents (Elt F) → (⟨S1600000x128, .f32⟩ : BufTy).Contents (Elt F)),
    StableHlo.nullary main_cst_20 (constant S_ .f32 0x00000000#32),
    StableHlo.unary main_cst_20 main_v104 (broadcastInDim S100000x128 ![] bcast_S_S100000x128 : (⟨S_, .f32⟩ : BufTy).Contents (Elt F) → (⟨S100000x128, .f32⟩ : BufTy).Contents (Elt F)),
    StableHlo.unary main_v3 main_v105 (broadcastInDim S1600000x1 ![0] bcast_S1600000_S1600000x1_0 : (⟨S1600000, .i32⟩ : BufTy).Contents (Elt F) → (⟨S1600000x1, .i32⟩ : BufTy).Contents (Elt F)),
    StableHlo.ternary main_v104 main_v105 main_v103 main_v106 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v77 main_v77 main_v107 (mulf : (⟨S100000, .f32⟩ : BufTy).Contents (Elt F) → (⟨S100000, .f32⟩ : BufTy).Contents (Elt F) → (⟨S100000, .f32⟩ : BufTy).Contents (Elt F)),
    StableHlo.unary main_v107 main_v108 (broadcastInDim S100000x1 ![0] bcast_S100000_S100000x1_0 : (⟨S100000, .f32⟩ : BufTy).Contents (Elt F) → (⟨S100000x1, .f32⟩ : BufTy).Contents (Elt F)),
    StableHlo.unary main_v108 main_v109 (broadcastInDim S100000x128 ![0, 1] bcast_S100000x1_S100000x128_0_1 : (⟨S100000x1, .f32⟩ : BufTy).Contents (Elt F) → (⟨S100000x128, .f32⟩ : BufTy).Contents (Elt F)),
    StableHlo.binary main_v71 main_v109 main_v110 (mulf : (⟨S100000x128, .f32⟩ : BufTy).Contents (Elt F) → (⟨S100000x128, .f32⟩ : BufTy).Contents (Elt F) → (⟨S100000x128, .f32⟩ : BufTy).Contents (Elt F)),
    StableHlo.binary main_v106 main_v110 main_v111 (addf : (⟨S100000x128, .f32⟩ : BufTy).Contents (Elt F) → (⟨S100000x128, .f32⟩ : BufTy).Contents (Elt F) → (⟨S100000x128, .f32⟩ : BufTy).Contents (Elt F)),
    StableHlo.unary main_arg8 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v113 main_v114 (addf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x00000000#32),
    StableHlo.binary main_v114 main_cst_21 main_v115 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_22 (constant S_ .f32 0x47C35000#32),
    StableHlo.unary main_cst_22 main_v116 (broadcastInDim S128 ![] bcast_S_S128 : (⟨S_, .f32⟩ : BufTy).Contents (Elt F) → (⟨S128, .f32⟩ : BufTy).Contents (Elt F)),
    StableHlo.binary main_v115 main_v116 main_v117 (Host.divf : (⟨S128, .f32⟩ : BufTy).Contents (Elt F) → (⟨S128, .f32⟩ : BufTy).Contents (Elt F) → (⟨S128, .f32⟩ : BufTy).Contents (Elt F)),
    StableHlo.nullary main_c_23 (constantI S_ 32 0#32),
    StableHlo.TRef.nullary main_call1.cst (constant S_ .f32 0x00000000#32),
    StableHlo.TRef.binary (TRef.of main_v114 : TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (TRef.of main_v114 : TRef sig ⟨S100000x128, .f32⟩) main_call1.v4 main_call1.v5 subf,
    StableHlo.TRef.binary main_call1.v5 main_call1.v5 main_call1.v6 mulf,
    StableHlo.TRef.unary (TRef.of main_c_23 : TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v117 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v120 main_v121 (subf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x3727C5AC#32),
    StableHlo.unary main_cst_24 main_v122 (broadcastInDim S128 ![] bcast_S_S128 : (⟨S_, .f32⟩ : BufTy).Contents (Elt F) → (⟨S128, .f32⟩ : BufTy).Contents (Elt F)),
    StableHlo.binary main_v118 main_v122 main_v123 (addf : (⟨S128, .f32⟩ : BufTy).Contents (Elt F) → (⟨S128, .f32⟩ : BufTy).Contents (Elt F) → (⟨S128, .f32⟩ : BufTy).Contents (Elt F)),
    StableHlo.unary main_v123 main_v124 (Host.rsqrt : (⟨S128, .f32⟩ : BufTy).Contents (Elt F) → (⟨S128, .f32⟩ : BufTy).Contents (Elt F)),
    StableHlo.unary main_v124 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v126 main_v127 (mulf : (⟨S100000x128, .f32⟩ : BufTy).Contents (Elt F) → (⟨S100000x128, .f32⟩ : BufTy).Contents (Elt F) → (⟨S100000x128, .f32⟩ : BufTy).Contents (Elt F)),
    StableHlo.unary main_arg9 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S100000x128 ![0, 1] bcast_S1x128_S100000x128_0_1 : (⟨S1x128, .f32⟩ : BufTy).Contents (Elt F) → (⟨S100000x128, .f32⟩ : BufTy).Contents (Elt F)),
    StableHlo.binary main_v127 main_v129 main_v130 (mulf : (⟨S100000x128, .f32⟩ : BufTy).Contents (Elt F) → (⟨S100000x128, .f32⟩ : BufTy).Contents (Elt F) → (⟨S100000x128, .f32⟩ : BufTy).Contents (Elt F)),
    StableHlo.unary main_arg10 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v132 main_v133 (addf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x00000000#32),
    StableHlo.unary main_cst_25 main_v134 (broadcastInDim S100000x128 ![] bcast_S_S100000x128 : (⟨S_, .f32⟩ : BufTy).Contents (Elt F) → (⟨S100000x128, .f32⟩ : BufTy).Contents (Elt F)),
    StableHlo.binary main_v133 main_v134 main_v135 (maximumf : (⟨S100000x128, .f32⟩ : BufTy).Contents (Elt F) → (⟨S100000x128, .f32⟩ : BufTy).Contents (Elt F) → (⟨S100000x128, .f32⟩ : BufTy).Contents (Elt F)),
    StableHlo.unary main_arg11 main_v136 ((transpose S128x128 [1, 0] · transposes_S128x128_S128x128_1_0) : (⟨S128x128, .f32⟩ : BufTy).Contents (Elt F) → (⟨S128x128, .f32⟩ : BufTy).Contents (Elt F)),
    StableHlo.binary main_v135 main_v136 main_v137 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_26 (constant S_ .f32 0x00000000#32),
    StableHlo.unary main_cst_26 main_v138 (broadcastInDim S100000 ![] bcast_S_S100000 : (⟨S_, .f32⟩ : BufTy).Contents (Elt F) → (⟨S100000, .f32⟩ : BufTy).Contents (Elt F)),
    StableHlo.unary main_v3 main_v139 (broadcastInDim S1600000x1 ![0] bcast_S1600000_S1600000x1_0 : (⟨S1600000, .i32⟩ : BufTy).Contents (Elt F) → (⟨S1600000x1, .i32⟩ : BufTy).Contents (Elt F)),
    StableHlo.ternary main_v138 main_v139 main_arg2 main_v140 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_27 (constant S_ .f32 0x3F800000#32),
    StableHlo.unary main_cst_27 main_v141 (broadcastInDim S100000 ![] bcast_S_S100000 : (⟨S_, .f32⟩ : BufTy).Contents (Elt F) → (⟨S100000, .f32⟩ : BufTy).Contents (Elt F)),
    StableHlo.binary main_v140 main_v141 main_v142 (addf : (⟨S100000, .f32⟩ : BufTy).Contents (Elt F) → (⟨S100000, .f32⟩ : BufTy).Contents (Elt F) → (⟨S100000, .f32⟩ : BufTy).Contents (Elt F)),
    StableHlo.unary main_v142 main_v143 (Host.rsqrt : (⟨S100000, .f32⟩ : BufTy).Contents (Elt F) → (⟨S100000, .f32⟩ : BufTy).Contents (Elt F)),
    StableHlo.nullary main_c_28 (constantI S_ 32 0#32),
    StableHlo.unary main_c_28 main_v144 (broadcastInDim S1600000 ![] bcast_S_S1600000 : (⟨S_, .i32⟩ : BufTy).Contents (Elt F) → (⟨S1600000, .i32⟩ : BufTy).Contents (Elt F)),
    StableHlo.binary main_v1 main_v144 main_v145 (cmpi .slt : (⟨S1600000, .i32⟩ : BufTy).Contents (Elt F) → (⟨S1600000, .i32⟩ : BufTy).Contents (Elt F) → (⟨S1600000, .i1⟩ : BufTy).Contents (Elt F)),
    StableHlo.nullary main_c_29 (constantI S_ 32 100000#32),
    StableHlo.unary main_c_29 main_v146 (broadcastInDim S1600000 ![] bcast_S_S1600000 : (⟨S_, .i32⟩ : BufTy).Contents (Elt F) → (⟨S1600000, .i32⟩ : BufTy).Contents (Elt F)),
    StableHlo.binary main_v1 main_v146 main_v147 (addi : (⟨S1600000, .i32⟩ : BufTy).Contents (Elt F) → (⟨S1600000, .i32⟩ : BufTy).Contents (Elt F) → (⟨S1600000, .i32⟩ : BufTy).Contents (Elt F)) ]

/-- The operations of @main's window 3: statements 181 … 240 (the third call inline). -/
abbrev win3 : List (HloOp τ sig (Elt F)) :=
  [ StableHlo.ternary main_v145 main_v147 main_v1 main_v148 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v148 main_v149 (broadcastInDim S1600000x1 ![0] bcast_S1600000_S1600000x1_0 : (⟨S1600000, .i32⟩ : BufTy).Contents (Elt F) → (⟨S1600000x1, .i32⟩ : BufTy).Contents (Elt F)),
    StableHlo.binary main_v143 main_v149 main_v150 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v150 main_arg2 main_v151 (mulf : (⟨S1600000, .f32⟩ : BufTy).Contents (Elt F) → (⟨S1600000, .f32⟩ : BufTy).Contents (Elt F) → (⟨S1600000, .f32⟩ : BufTy).Contents (Elt F)),
    StableHlo.nullary main_c_30 (constantI S_ 32 0#32),
    StableHlo.unary main_c_30 main_v152 (broadcastInDim S1600000 ![] bcast_S_S1600000 : (⟨S_, .i32⟩ : BufTy).Contents (Elt F) → (⟨S1600000, .i32⟩ : BufTy).Contents (Elt F)),
    StableHlo.binary main_v3 main_v152 main_v153 (cmpi .slt : (⟨S1600000, .i32⟩ : BufTy).Contents (Elt F) → (⟨S1600000, .i32⟩ : BufTy).Contents (Elt F) → (⟨S1600000, .i1⟩ : BufTy).Contents (Elt F)),
    StableHlo.nullary main_c_31 (constantI S_ 32 100000#32),
    StableHlo.unary main_c_31 main_v154 (broadcastInDim S1600000 ![] bcast_S_S1600000 : (⟨S_, .i32⟩ : BufTy).Contents (Elt F) → (⟨S1600000, .i32⟩ : BufTy).Contents (Elt F)),
    StableHlo.binary main_v3 main_v154 main_v155 (addi : (⟨S1600000, .i32⟩ : BufTy).Contents (Elt F) → (⟨S1600000, .i32⟩ : BufTy).Contents (Elt F) → (⟨S1600000, .i32⟩ : BufTy).Contents (Elt F)),
    StableHlo.ternary main_v153 main_v155 main_v3 main_v156 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v156 main_v157 (broadcastInDim S1600000x1 ![0] bcast_S1600000_S1600000x1_0 : (⟨S1600000, .i32⟩ : BufTy).Contents (Elt F) → (⟨S1600000x1, .i32⟩ : BufTy).Contents (Elt F)),
    StableHlo.binary main_v143 main_v157 main_v158 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v151 main_v158 main_v159 (mulf : (⟨S1600000, .f32⟩ : BufTy).Contents (Elt F) → (⟨S1600000, .f32⟩ : BufTy).Contents (Elt F) → (⟨S1600000, .f32⟩ : BufTy).Contents (Elt F)),
    StableHlo.nullary main_c_32 (constantI S_ 32 0#32),
    StableHlo.unary main_c_32 main_v160 (broadcastInDim S1600000 ![] bcast_S_S1600000 : (⟨S_, .i32⟩ : BufTy).Contents (Elt F) → (⟨S1600000, .i32⟩ : BufTy).Contents (Elt F)),
    StableHlo.binary main_v1 main_v160 main_v161 (cmpi .slt : (⟨S1600000, .i32⟩ : BufTy).Contents (Elt F) → (⟨S1600000, .i32⟩ : BufTy).Contents (Elt F) → (⟨S1600000, .i1⟩ : BufTy).Contents (Elt F)),
    StableHlo.nullary main_c_33 (constantI S_ 32 100000#32),
    StableHlo.unary main_c_33 main_v162 (broadcastInDim S1600000 ![] bcast_S_S1600000 : (⟨S_, .i32⟩ : BufTy).Contents (Elt F) → (⟨S1600000, .i32⟩ : BufTy).Contents (Elt F)),
    StableHlo.binary main_v1 main_v162 main_v163 (addi : (⟨S1600000, .i32⟩ : BufTy).Contents (Elt F) → (⟨S1600000, .i32⟩ : BufTy).Contents (Elt F) → (⟨S1600000, .i32⟩ : BufTy).Contents (Elt F)),
    StableHlo.ternary main_v161 main_v163 main_v1 main_v164 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v164 main_v165 (broadcastInDim S1600000x1 ![0] bcast_S1600000_S1600000x1_0 : (⟨S1600000, .i32⟩ : BufTy).Contents (Elt F) → (⟨S1600000x1, .i32⟩ : BufTy).Contents (Elt F)),
    StableHlo.binary main_v137 main_v165 main_v166 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v159 main_v167 (broadcastInDim S1600000x1 ![0] bcast_S1600000_S1600000x1_0 : (⟨S1600000, .f32⟩ : BufTy).Contents (Elt F) → (⟨S1600000x1, .f32⟩ : BufTy).Contents (Elt F)),
    StableHlo.unary main_v167 main_v168 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v166 main_v168 main_v169 (mulf : (⟨S1600000x128, .f32⟩ : BufTy).Contents (Elt F) → (⟨S1600000x128, .f32⟩ : BufTy).Contents (Elt F) → (⟨S1600000x128, .f32⟩ : BufTy).Contents (Elt F)),
    StableHlo.nullary main_cst_34 (constant S_ .f32 0x00000000#32),
    StableHlo.unary main_cst_34 main_v170 (broadcastInDim S100000x128 ![] bcast_S_S100000x128 : (⟨S_, .f32⟩ : BufTy).Contents (Elt F) → (⟨S100000x128, .f32⟩ : BufTy).Contents (Elt F)),
    StableHlo.unary main_v3 main_v171 (broadcastInDim S1600000x1 ![0] bcast_S1600000_S1600000x1_0 : (⟨S1600000, .i32⟩ : BufTy).Contents (Elt F) → (⟨S1600000x1, .i32⟩ : BufTy).Contents (Elt F)),
    StableHlo.ternary main_v170 main_v171 main_v169 main_v172 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v143 main_v143 main_v173 (mulf : (⟨S100000, .f32⟩ : BufTy).Contents (Elt F) → (⟨S100000, .f32⟩ : BufTy).Contents (Elt F) → (⟨S100000, .f32⟩ : BufTy).Contents (Elt F)),
    StableHlo.unary main_v173 main_v174 (broadcastInDim S100000x1 ![0] bcast_S100000_S100000x1_0 : (⟨S100000, .f32⟩ : BufTy).Contents (Elt F) → (⟨S100000x1, .f32⟩ : BufTy).Contents (Elt F)),
    StableHlo.unary main_v174 main_v175 (broadcastInDim S100000x128 ![0, 1] bcast_S100000x1_S100000x128_0_1 : (⟨S100000x1, .f32⟩ : BufTy).Contents (Elt F) → (⟨S100000x128, .f32⟩ : BufTy).Contents (Elt F)),
    StableHlo.binary main_v137 main_v175 main_v176 (mulf : (⟨S100000x128, .f32⟩ : BufTy).Contents (Elt F) → (⟨S100000x128, .f32⟩ : BufTy).Contents (Elt F) → (⟨S100000x128, .f32⟩ : BufTy).Contents (Elt F)),
    StableHlo.binary main_v172 main_v176 main_v177 (addf : (⟨S100000x128, .f32⟩ : BufTy).Contents (Elt F) → (⟨S100000x128, .f32⟩ : BufTy).Contents (Elt F) → (⟨S100000x128, .f32⟩ : BufTy).Contents (Elt F)),
    StableHlo.unary main_arg12 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S100000x128 ![0, 1] bcast_S1x128_S100000x128_0_1 : (⟨S1x128, .f32⟩ : BufTy).Contents (Elt F) → (⟨S100000x128, .f32⟩ : BufTy).Contents (Elt F)),
    StableHlo.binary main_v177 main_v179 main_v180 (addf : (⟨S100000x128, .f32⟩ : BufTy).Contents (Elt F) → (⟨S100000x128, .f32⟩ : BufTy).Contents (Elt F) → (⟨S100000x128, .f32⟩ : BufTy).Contents (Elt F)),
    StableHlo.nullary main_cst_35 (constant S_ .f32 0x00000000#32),
    StableHlo.binary main_v180 main_cst_35 main_v181 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_36 (constant S_ .f32 0x47C35000#32),
    StableHlo.unary main_cst_36 main_v182 (broadcastInDim S128 ![] bcast_S_S128 : (⟨S_, .f32⟩ : BufTy).Contents (Elt F) → (⟨S128, .f32⟩ : BufTy).Contents (Elt F)),
    StableHlo.binary main_v181 main_v182 main_v183 (Host.divf : (⟨S128, .f32⟩ : BufTy).Contents (Elt F) → (⟨S128, .f32⟩ : BufTy).Contents (Elt F) → (⟨S128, .f32⟩ : BufTy).Contents (Elt F)),
    StableHlo.nullary main_c_37 (constantI S_ 32 0#32),
    StableHlo.TRef.nullary main_call2.cst (constant S_ .f32 0x00000000#32),
    StableHlo.TRef.binary (TRef.of main_v180 : TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (TRef.of main_v180 : TRef sig ⟨S100000x128, .f32⟩) main_call2.v4 main_call2.v5 subf,
    StableHlo.TRef.binary main_call2.v5 main_call2.v5 main_call2.v6 mulf,
    StableHlo.TRef.unary (TRef.of main_c_37 : TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v183 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S100000x128 ![0, 1] bcast_S1x128_S100000x128_0_1 : (⟨S1x128, .f32⟩ : BufTy).Contents (Elt F) → (⟨S100000x128, .f32⟩ : BufTy).Contents (Elt F)),
    StableHlo.binary main_v180 main_v186 main_v187 (subf : (⟨S100000x128, .f32⟩ : BufTy).Contents (Elt F) → (⟨S100000x128, .f32⟩ : BufTy).Contents (Elt F) → (⟨S100000x128, .f32⟩ : BufTy).Contents (Elt F)),
    StableHlo.nullary main_cst_38 (constant S_ .f32 0x3727C5AC#32),
    StableHlo.unary main_cst_38 main_v188 (broadcastInDim S128 ![] bcast_S_S128 : (⟨S_, .f32⟩ : BufTy).Contents (Elt F) → (⟨S128, .f32⟩ : BufTy).Contents (Elt F)),
    StableHlo.binary main_v184 main_v188 main_v189 (addf : (⟨S128, .f32⟩ : BufTy).Contents (Elt F) → (⟨S128, .f32⟩ : BufTy).Contents (Elt F) → (⟨S128, .f32⟩ : BufTy).Contents (Elt F)),
    StableHlo.unary main_v189 main_v190 (Host.rsqrt : (⟨S128, .f32⟩ : BufTy).Contents (Elt F) → (⟨S128, .f32⟩ : BufTy).Contents (Elt F)),
    StableHlo.unary main_v190 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S100000x128 ![0, 1] bcast_S1x128_S100000x128_0_1 : (⟨S1x128, .f32⟩ : BufTy).Contents (Elt F) → (⟨S100000x128, .f32⟩ : BufTy).Contents (Elt F)),
    StableHlo.binary main_v187 main_v192 main_v193 (mulf : (⟨S100000x128, .f32⟩ : BufTy).Contents (Elt F) → (⟨S100000x128, .f32⟩ : BufTy).Contents (Elt F) → (⟨S100000x128, .f32⟩ : BufTy).Contents (Elt F)),
    StableHlo.unary main_arg13 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S100000x128 ![0, 1] bcast_S1x128_S100000x128_0_1 : (⟨S1x128, .f32⟩ : BufTy).Contents (Elt F) → (⟨S100000x128, .f32⟩ : BufTy).Contents (Elt F)),
    StableHlo.binary main_v193 main_v195 main_v196 (mulf : (⟨S100000x128, .f32⟩ : BufTy).Contents (Elt F) → (⟨S100000x128, .f32⟩ : BufTy).Contents (Elt F) → (⟨S100000x128, .f32⟩ : BufTy).Contents (Elt F)),
    StableHlo.unary main_arg14 main_v197 (broadcastInDim S1x128 ![1] bcast_S128_S1x128_1 : (⟨S128, .f32⟩ : BufTy).Contents (Elt F) → (⟨S1x128, .f32⟩ : BufTy).Contents (Elt F)),
    StableHlo.unary main_v197 main_v198 (broadcastInDim S100000x128 ![0, 1] bcast_S1x128_S100000x128_0_1 : (⟨S1x128, .f32⟩ : BufTy).Contents (Elt F) → (⟨S100000x128, .f32⟩ : BufTy).Contents (Elt F)) ]

/-- The operations of @main's window 4: statements 241 … 244. -/
abbrev win4 : List (HloOp τ sig (Elt F)) :=
  [ StableHlo.binary main_v196 main_v198 main_v199 (addf : (⟨S100000x128, .f32⟩ : BufTy).Contents (Elt F) → (⟨S100000x128, .f32⟩ : BufTy).Contents (Elt F) → (⟨S100000x128, .f32⟩ : BufTy).Contents (Elt F)),
    StableHlo.nullary main_cst_39 (constant S_ .f32 0x00000000#32),
    StableHlo.unary main_cst_39 main_v200 (broadcastInDim S100000x128 ![] bcast_S_S100000x128 : (⟨S_, .f32⟩ : BufTy).Contents (Elt F) → (⟨S100000x128, .f32⟩ : BufTy).Contents (Elt F)),
    StableHlo.binary main_v199 main_v200 main_v201 (maximumf : (⟨S100000x128, .f32⟩ : BufTy).Contents (Elt F) → (⟨S100000x128, .f32⟩ : BufTy).Contents (Elt F) → (⟨S100000x128, .f32⟩ : BufTy).Contents (Elt F)) ]

-- one bind reassociated per statement: the rewrite under the chain recurses once per statement
set_option maxRecDepth 8192 in
set_option maxHeartbeats 1600000 in
/-- Window 0 is its slice run in order. -/
theorem main_part0_eq (d : Dev nD) : main_part0 (F := F) d = seq win0 := by
  simp only [main_part0, seq, bind_assoc, pure_bind]
  rfl

-- one bind reassociated per statement: the rewrite under the chain recurses once per statement
set_option maxRecDepth 8192 in
set_option maxHeartbeats 1600000 in
/-- Window 1 is its slice run in order. -/
theorem main_part1_eq (d : Dev nD) : main_part1 (F := F) d = seq win1 := by
  simp only [main_part1, fn_var.body, fn_where.body, seq, bind_assoc, pure_bind]
  rfl

-- one bind reassociated per statement: the rewrite under the chain recurses once per statement
set_option maxRecDepth 8192 in
set_option maxHeartbeats 1600000 in
/-- Window 2 is its slice run in order. -/
theorem main_part2_eq (d : Dev nD) : main_part2 (F := F) d = seq win2 := by
  simp only [main_part2, fn_var.body, fn_where.body, seq, bind_assoc, pure_bind]
  rfl

-- one bind reassociated per statement: the rewrite under the chain recurses once per statement
set_option maxRecDepth 8192 in
set_option maxHeartbeats 1600000 in
/-- Window 3 is its slice run in order. -/
theorem main_part3_eq (d : Dev nD) : main_part3 (F := F) d = seq win3 := by
  simp only [main_part3, fn_var.body, fn_where.body, seq, bind_assoc, pure_bind]
  rfl

-- one bind reassociated per statement: the rewrite under the chain recurses once per statement
set_option maxRecDepth 8192 in
set_option maxHeartbeats 1600000 in
/-- Window 4 is its slice run in order. -/
theorem main_part4_eq (d : Dev nD) : main_part4 (F := F) d = seq win4 := by
  simp only [main_part4, seq, bind_assoc, pure_bind]

/-- The five slices in order are the four lists in order: the same 307 operations, cut differently. -/
theorem wins_eq : (opsPre ++ opsL0 ++ opsL1 ++ opsL2 : List (HloOp τ sig (Elt F))) = win0 ++ (win1 ++ (win2 ++ (win3 ++ win4))) := rfl

/-- @main is the straight line of its operations. -/
theorem main_eq (c : Dev nD) : main (F := F) c = seq (opsPre ++ opsL0 ++ opsL1 ++ opsL2) := by
  rw [wins_eq, seq_append, seq_append, seq_append, seq_append, ← main_part0_eq c, ← main_part1_eq c, ← main_part2_eq c,
    ← main_part3_eq c, ← main_part4_eq c]
  rfl

end Cert.ReferenceIdeal.RefRun

end
-- ==== Proof.RefRun.lean ====
/- The run of the reference program: @main, being the straight line `opsPre ++ opsL0 ++ opsL1 ++ opsL2` of host
   operations over TensorCore buffers, terminates from any memory with zero counters under every weakly fair
   execution, each buffer ending at the operations' fold over the launch contents. -/
import proofs.«114926_j41686952575093_1_alg».proof.Proof.RefMainEq

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every member of four lists holds of every member of their concatenation. -/
theorem forall_append4 {α : Type} {p : α → Prop} {a b c d : List α} (ha : a.Forall p) (hb : b.Forall p) (hc : c.Forall p)
    (hd : d.Forall p) : (a ++ b ++ c ++ d).Forall p := by
  rw [List.forall_iff_forall_mem] at *
  intro x hx
  simp only [List.mem_append] at hx
  rcases hx with ((hx | hx) | hx) | hx
  exacts [ha x hx, hb x hx, hc x hx, hd x hx]

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem opsPre_sub : (opsPre : List (HloOp τ sig (Elt F))).Forall fun op => op.bufs ⊆ tcRefs τ sig :=
  ⟨unary_bufs_sub .., reshape_bufs_sub .., unary_bufs_sub .., reshape_bufs_sub ..⟩

theorem opsPre_fresh : (opsPre : List (HloOp τ sig (Elt F))).Forall fun op => op.fresh = ∅ :=
  ⟨rfl, rfl, rfl, rfl⟩

theorem opsL0_sub : (opsL0 : List (HloOp τ sig (Elt F))).Forall fun op => op.bufs ⊆ tcRefs τ sig :=
  ⟨unary_bufs_sub .., binary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

theorem opsL0_fresh : (opsL0 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl⟩

theorem opsL1_sub : (opsL1 : List (HloOp τ sig (Elt F))).Forall fun op => op.bufs ⊆ tcRefs τ sig :=
  ⟨unary_bufs_sub .., binary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

theorem opsL1_fresh : (opsL1 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl⟩

theorem opsL2_sub : (opsL2 : List (HloOp τ sig (Elt F))).Forall fun op => op.bufs ⊆ tcRefs τ sig :=
  ⟨unary_bufs_sub .., binary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

theorem opsL2_fresh : (opsL2 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl⟩

/-- Every operation touches TensorCore references only. -/
theorem ops_sub : (opsPre ++ opsL0 ++ opsL1 ++ opsL2 : List (HloOp τ sig (Elt F))).Forall fun op => op.bufs ⊆ tcRefs τ sig :=
  forall_append4 opsPre_sub opsL0_sub opsL1_sub opsL2_sub

/-- Every operation determines its results. -/
theorem ops_fresh : (opsPre ++ opsL0 ++ opsL1 ++ opsL2 : List (HloOp τ sig (Elt F))).Forall fun op => op.fresh = ∅ :=
  forall_append4 opsPre_fresh opsL0_fresh opsL1_fresh opsL2_fresh

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of
    @main on the TensorCores terminates, and every final state has each TensorCore buffer at the operations' fold
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (opsPre ++ opsL0 ++ opsL1 ++ opsL2) (launchContents m c) (b : DevRef τ sig) :=
  run_seq scopedRefs_eq scopedSems_eq defs main (fun _ => opsPre ++ opsL0 ++ opsL1 ++ opsL2) main_eq (fun _ => ops_sub) m ρ
    (fun _ op h => List.forall_iff_forall_mem.1 ops_fresh op h)

end Cert.ReferenceIdeal.RefRun

end
-- ==== Proof.RefRead.lean ====
/- What the reference's four lists of operations leave in the buffers, from ANY contents `V`: the edge list's two rows
   after `opsPre`; after each layer's list its result buffer at `Spec.layer` of the contents of the buffers it reads;
   and every buffer a list does not write at what it held. -/
import proofs.«114926_j41686952575093_1_alg».proof.Proof.RefOps
import proofs.«114926_j41686952575093_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What is read -/

/-- After the first four operations the two index buffers hold the edge list's rows. -/
theorem read_Pre_v1 (V : Valuation τ sig (Elt F)) :
    after opsPre V (main_v1 : DevRef τ sig) = Cert.Proof.Spec.srcOf (V (main_arg1 : DevRef τ sig)) := by
  after_results_simp
  rfl

theorem read_Pre_v3 (V : Valuation τ sig (Elt F)) :
    after opsPre V (main_v3 : DevRef τ sig) = Cert.Proof.Spec.dstOf (V (main_arg1 : DevRef τ sig)) := by
  after_results_simp
  rfl

-- the composed term is deep: the layer's pre-normalisation value occurs six times under the result
set_option maxRecDepth 8192 in
set_option maxHeartbeats 1600000 in
/-- Layer 1's list leaves its result at `Spec.layer` of the buffers it reads: each operation's result rewritten at its
    own buffer to its function's value and elsewhere to what was there, the composed term is the layer's by unfolding. -/
theorem read_L0 (V : Valuation τ sig (Elt F)) :
    after opsL0 V (main_v69 : DevRef τ sig)
      = Cert.Proof.Spec.layer (V (main_arg0 : DevRef τ sig)) (V (main_v1 : DevRef τ sig)) (V (main_v3 : DevRef τ sig))
          (V (main_arg2 : DevRef τ sig)) (V (main_arg3 : DevRef τ sig)) (V (main_arg4 : DevRef τ sig))
          (V (main_arg5 : DevRef τ sig)) (V (main_arg6 : DevRef τ sig)) := by
  after_results_simp
  rfl

-- the composed term is deep: the layer's pre-normalisation value occurs six times under the result
set_option maxRecDepth 8192 in
set_option maxHeartbeats 1600000 in
/-- Layer 2's list leaves its result at `Spec.layer` of the buffers it reads: each operation's result rewritten at its
    own buffer to its function's value and elsewhere to what was there, the composed term is the layer's by unfolding. -/
theorem read_L1 (V : Valuation τ sig (Elt F)) :
    after opsL1 V (main_v135 : DevRef τ sig)
      = Cert.Proof.Spec.layer (V (main_v69 : DevRef τ sig)) (V (main_v1 : DevRef τ sig)) (V (main_v3 : DevRef τ sig))
          (V (main_arg2 : DevRef τ sig)) (V (main_arg7 : DevRef τ sig)) (V (main_arg8 : DevRef τ sig))
          (V (main_arg9 : DevRef τ sig)) (V (main_arg10 : DevRef τ sig)) := by
  after_results_simp
  rfl

-- the composed term is deep: the layer's pre-normalisation value occurs six times under the result
set_option maxRecDepth 8192 in
set_option maxHeartbeats 1600000 in
/-- Layer 3's list leaves its result at `Spec.layer` of the buffers it reads: each operation's result rewritten at its
    own buffer to its function's value and elsewhere to what was there, the composed term is the layer's by unfolding. -/
theorem read_L2 (V : Valuation τ sig (Elt F)) :
    after opsL2 V (main_v201 : DevRef τ sig)
      = Cert.Proof.Spec.layer (V (main_v135 : DevRef τ sig)) (V (main_v1 : DevRef τ sig)) (V (main_v3 : DevRef τ sig))
          (V (main_arg2 : DevRef τ sig)) (V (main_arg11 : DevRef τ sig)) (V (main_arg12 : DevRef τ sig))
          (V (main_arg13 : DevRef τ sig)) (V (main_arg14 : DevRef τ sig)) := by
  after_results_simp
  rfl

/-! ## What is kept -/

/-- An operation writing the one reference `y`, a member of `W`, writes within `W`. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The references `opsPre` writes, in program order. -/
abbrev writesPre : List (Ref sig .tc) :=
  [ main_v0, main_v1, main_v2, main_v3 ]

theorem opsPre_writes : (opsPre : List (HloOp τ sig (Elt F))).Forall fun op =>
    op.writes ⊆ (writesPre.map (Proc.devRef (τ := τ) .tc)).toFinset :=
  ⟨writes_sub_of_mem main_v0 rfl (by decide),
    writes_sub_of_mem main_v1 rfl (by decide),
    writes_sub_of_mem main_v2 rfl (by decide),
    writes_sub_of_mem main_v3 rfl (by decide)⟩

/-- A reference `opsPre` does not write keeps its contents. -/
theorem kept_Pre {r : Ref sig .tc} (hr : r ∉ writesPre) (V : Valuation τ sig (Elt F)) :
    after opsPre V (r : DevRef τ sig) = V (r : DevRef τ sig) :=
  after_of_writes_sub opsPre V opsPre_writes hr

/-- The references `opsL0` writes, in program order. -/
abbrev writesL0 : List (Ref sig .tc) :=
  [ main_v4, main_v5, main_cst, main_v6, main_v7, main_v8, main_cst_0, main_v9,
    main_v10, main_v11, main_c, main_v12, main_v13, main_c_1, main_v14, main_v15,
    main_v16, main_v17, main_v18, main_v19, main_c_2, main_v20, main_v21, main_c_3,
    main_v22, main_v23, main_v24, main_v25, main_v26, main_v27, main_c_4, main_v28,
    main_v29, main_c_5, main_v30, main_v31, main_v32, main_v33, main_v34, main_v35,
    main_v36, main_v37, main_cst_6, main_v38, main_v39, main_v40, main_v41, main_v42,
    main_v43, main_v44, main_v45, main_v46, main_v47, main_v48, main_cst_7, main_v49,
    main_cst_8, main_v50, main_v51, main_c_9, main_call0.cst.ref, main_call0.v0.ref, main_call0.v1.ref, main_call0.cst_0.ref,
    main_call0.v2.ref, main_call0.v3.ref, main_call0.v4.ref, main_call0.v5.ref, main_call0.v6.ref, main_call0.v7.ref, main_call0.cst_1.ref, main_call0.v8.ref,
    main_call0.cst_2.ref, main_call0.v9.ref, main_call0.v10.ref, main_call0.v11.ref, main_call0.cst_3.ref, main_call0.v12.ref, main_call0.cst_4.ref, main_call0.call0.v0.ref,
    main_call0.call0.v1.ref, main_call0.call0.v2.ref, main_v53, main_v54, main_v55, main_cst_10, main_v56, main_v57,
    main_v58, main_v59, main_v60, main_v61, main_v62, main_v63, main_v64, main_v65,
    main_v66, main_v67, main_cst_11, main_v68, main_v69 ]

theorem opsL0_writes : (opsL0 : List (HloOp τ sig (Elt F))).Forall fun op =>
    op.writes ⊆ (writesL0.map (Proc.devRef (τ := τ) .tc)).toFinset :=
  ⟨writes_sub_of_mem main_v4 rfl (by decide),
    writes_sub_of_mem main_v5 rfl (by decide),
    writes_sub_of_mem main_cst rfl (by decide),
    writes_sub_of_mem main_v6 rfl (by decide),
    writes_sub_of_mem main_v7 rfl (by decide),
    writes_sub_of_mem main_v8 rfl (by decide),
    writes_sub_of_mem main_cst_0 rfl (by decide),
    writes_sub_of_mem main_v9 rfl (by decide),
    writes_sub_of_mem main_v10 rfl (by decide),
    writes_sub_of_mem main_v11 rfl (by decide),
    writes_sub_of_mem main_c rfl (by decide),
    writes_sub_of_mem main_v12 rfl (by decide),
    writes_sub_of_mem main_v13 rfl (by decide),
    writes_sub_of_mem main_c_1 rfl (by decide),
    writes_sub_of_mem main_v14 rfl (by decide),
    writes_sub_of_mem main_v15 rfl (by decide),
    writes_sub_of_mem main_v16 rfl (by decide),
    writes_sub_of_mem main_v17 rfl (by decide),
    writes_sub_of_mem main_v18 rfl (by decide),
    writes_sub_of_mem main_v19 rfl (by decide),
    writes_sub_of_mem main_c_2 rfl (by decide),
    writes_sub_of_mem main_v20 rfl (by decide),
    writes_sub_of_mem main_v21 rfl (by decide),
    writes_sub_of_mem main_c_3 rfl (by decide),
    writes_sub_of_mem main_v22 rfl (by decide),
    writes_sub_of_mem main_v23 rfl (by decide),
    writes_sub_of_mem main_v24 rfl (by decide),
    writes_sub_of_mem main_v25 rfl (by decide),
    writes_sub_of_mem main_v26 rfl (by decide),
    writes_sub_of_mem main_v27 rfl (by decide),
    writes_sub_of_mem main_c_4 rfl (by decide),
    writes_sub_of_mem main_v28 rfl (by decide),
    writes_sub_of_mem main_v29 rfl (by decide),
    writes_sub_of_mem main_c_5 rfl (by decide),
    writes_sub_of_mem main_v30 rfl (by decide),
    writes_sub_of_mem main_v31 rfl (by decide),
    writes_sub_of_mem main_v32 rfl (by decide),
    writes_sub_of_mem main_v33 rfl (by decide),
    writes_sub_of_mem main_v34 rfl (by decide),
    writes_sub_of_mem main_v35 rfl (by decide),
    writes_sub_of_mem main_v36 rfl (by decide),
    writes_sub_of_mem main_v37 rfl (by decide),
    writes_sub_of_mem main_cst_6 rfl (by decide),
    writes_sub_of_mem main_v38 rfl (by decide),
    writes_sub_of_mem main_v39 rfl (by decide),
    writes_sub_of_mem main_v40 rfl (by decide),
    writes_sub_of_mem main_v41 rfl (by decide),
    writes_sub_of_mem main_v42 rfl (by decide),
    writes_sub_of_mem main_v43 rfl (by decide),
    writes_sub_of_mem main_v44 rfl (by decide),
    writes_sub_of_mem main_v45 rfl (by decide),
    writes_sub_of_mem main_v46 rfl (by decide),
    writes_sub_of_mem main_v47 rfl (by decide),
    writes_sub_of_mem main_v48 rfl (by decide),
    writes_sub_of_mem main_cst_7 rfl (by decide),
    writes_sub_of_mem main_v49 rfl (by decide),
    writes_sub_of_mem main_cst_8 rfl (by decide),
    writes_sub_of_mem main_v50 rfl (by decide),
    writes_sub_of_mem main_v51 rfl (by decide),
    writes_sub_of_mem main_c_9 rfl (by decide),
    writes_sub_of_mem main_call0.cst.ref rfl (by decide),
    writes_sub_of_mem main_call0.v0.ref rfl (by decide),
    writes_sub_of_mem main_call0.v1.ref rfl (by decide),
    writes_sub_of_mem main_call0.cst_0.ref rfl (by decide),
    writes_sub_of_mem main_call0.v2.ref rfl (by decide),
    writes_sub_of_mem main_call0.v3.ref rfl (by decide),
    writes_sub_of_mem main_call0.v4.ref rfl (by decide),
    writes_sub_of_mem main_call0.v5.ref rfl (by decide),
    writes_sub_of_mem main_call0.v6.ref rfl (by decide),
    writes_sub_of_mem main_call0.v7.ref rfl (by decide),
    writes_sub_of_mem main_call0.cst_1.ref rfl (by decide),
    writes_sub_of_mem main_call0.v8.ref rfl (by decide),
    writes_sub_of_mem main_call0.cst_2.ref rfl (by decide),
    writes_sub_of_mem main_call0.v9.ref rfl (by decide),
    writes_sub_of_mem main_call0.v10.ref rfl (by decide),
    writes_sub_of_mem main_call0.v11.ref rfl (by decide),
    writes_sub_of_mem main_call0.cst_3.ref rfl (by decide),
    writes_sub_of_mem main_call0.v12.ref rfl (by decide),
    writes_sub_of_mem main_call0.cst_4.ref rfl (by decide),
    writes_sub_of_mem main_call0.call0.v0.ref rfl (by decide),
    writes_sub_of_mem main_call0.call0.v1.ref rfl (by decide),
    writes_sub_of_mem main_call0.call0.v2.ref rfl (by decide),
    writes_sub_of_mem main_v53 rfl (by decide),
    writes_sub_of_mem main_v54 rfl (by decide),
    writes_sub_of_mem main_v55 rfl (by decide),
    writes_sub_of_mem main_cst_10 rfl (by decide),
    writes_sub_of_mem main_v56 rfl (by decide),
    writes_sub_of_mem main_v57 rfl (by decide),
    writes_sub_of_mem main_v58 rfl (by decide),
    writes_sub_of_mem main_v59 rfl (by decide),
    writes_sub_of_mem main_v60 rfl (by decide),
    writes_sub_of_mem main_v61 rfl (by decide),
    writes_sub_of_mem main_v62 rfl (by decide),
    writes_sub_of_mem main_v63 rfl (by decide),
    writes_sub_of_mem main_v64 rfl (by decide),
    writes_sub_of_mem main_v65 rfl (by decide),
    writes_sub_of_mem main_v66 rfl (by decide),
    writes_sub_of_mem main_v67 rfl (by decide),
    writes_sub_of_mem main_cst_11 rfl (by decide),
    writes_sub_of_mem main_v68 rfl (by decide),
    writes_sub_of_mem main_v69 rfl (by decide)⟩

/-- A reference `opsL0` does not write keeps its contents. -/
theorem kept_L0 {r : Ref sig .tc} (hr : r ∉ writesL0) (V : Valuation τ sig (Elt F)) :
    after opsL0 V (r : DevRef τ sig) = V (r : DevRef τ sig) :=
  after_of_writes_sub opsL0 V opsL0_writes hr

/-- The references `opsL1` writes, in program order. -/
abbrev writesL1 : List (Ref sig .tc) :=
  [ main_v70, main_v71, main_cst_12, main_v72, main_v73, main_v74, main_cst_13, main_v75,
    main_v76, main_v77, main_c_14, main_v78, main_v79, main_c_15, main_v80, main_v81,
    main_v82, main_v83, main_v84, main_v85, main_c_16, main_v86, main_v87, main_c_17,
    main_v88, main_v89, main_v90, main_v91, main_v92, main_v93, main_c_18, main_v94,
    main_v95, main_c_19, main_v96, main_v97, main_v98, main_v99, main_v100, main_v101,
    main_v102, main_v103, main_cst_20, main_v104, main_v105, main_v106, main_v107, main_v108,
    main_v109, main_v110, main_v111, main_v112, main_v113, main_v114, main_cst_21, main_v115,
    main_cst_22, main_v116, main_v117, main_c_23, main_call1.cst.ref, main_call1.v0.ref, main_call1.v1.ref, main_call1.cst_0.ref,
    main_call1.v2.ref, main_call1.v3.ref, main_call1.v4.ref, main_call1.v5.ref, main_call1.v6.ref, main_call1.v7.ref, main_call1.cst_1.ref, main_call1.v8.ref,
    main_call1.cst_2.ref, main_call1.v9.ref, main_call1.v10.ref, main_call1.v11.ref, main_call1.cst_3.ref, main_call1.v12.ref, main_call1.cst_4.ref, main_call1.call0.v0.ref,
    main_call1.call0.v1.ref, main_call1.call0.v2.ref, main_v119, main_v120, main_v121, main_cst_24, main_v122, main_v123,
    main_v124, main_v125, main_v126, main_v127, main_v128, main_v129, main_v130, main_v131,
    main_v132, main_v133, main_cst_25, main_v134, main_v135 ]

theorem opsL1_writes : (opsL1 : List (HloOp τ sig (Elt F))).Forall fun op =>
    op.writes ⊆ (writesL1.map (Proc.devRef (τ := τ) .tc)).toFinset :=
  ⟨writes_sub_of_mem main_v70 rfl (by decide),
    writes_sub_of_mem main_v71 rfl (by decide),
    writes_sub_of_mem main_cst_12 rfl (by decide),
    writes_sub_of_mem main_v72 rfl (by decide),
    writes_sub_of_mem main_v73 rfl (by decide),
    writes_sub_of_mem main_v74 rfl (by decide),
    writes_sub_of_mem main_cst_13 rfl (by decide),
    writes_sub_of_mem main_v75 rfl (by decide),
    writes_sub_of_mem main_v76 rfl (by decide),
    writes_sub_of_mem main_v77 rfl (by decide),
    writes_sub_of_mem main_c_14 rfl (by decide),
    writes_sub_of_mem main_v78 rfl (by decide),
    writes_sub_of_mem main_v79 rfl (by decide),
    writes_sub_of_mem main_c_15 rfl (by decide),
    writes_sub_of_mem main_v80 rfl (by decide),
    writes_sub_of_mem main_v81 rfl (by decide),
    writes_sub_of_mem main_v82 rfl (by decide),
    writes_sub_of_mem main_v83 rfl (by decide),
    writes_sub_of_mem main_v84 rfl (by decide),
    writes_sub_of_mem main_v85 rfl (by decide),
    writes_sub_of_mem main_c_16 rfl (by decide),
    writes_sub_of_mem main_v86 rfl (by decide),
    writes_sub_of_mem main_v87 rfl (by decide),
    writes_sub_of_mem main_c_17 rfl (by decide),
    writes_sub_of_mem main_v88 rfl (by decide),
    writes_sub_of_mem main_v89 rfl (by decide),
    writes_sub_of_mem main_v90 rfl (by decide),
    writes_sub_of_mem main_v91 rfl (by decide),
    writes_sub_of_mem main_v92 rfl (by decide),
    writes_sub_of_mem main_v93 rfl (by decide),
    writes_sub_of_mem main_c_18 rfl (by decide),
    writes_sub_of_mem main_v94 rfl (by decide),
    writes_sub_of_mem main_v95 rfl (by decide),
    writes_sub_of_mem main_c_19 rfl (by decide),
    writes_sub_of_mem main_v96 rfl (by decide),
    writes_sub_of_mem main_v97 rfl (by decide),
    writes_sub_of_mem main_v98 rfl (by decide),
    writes_sub_of_mem main_v99 rfl (by decide),
    writes_sub_of_mem main_v100 rfl (by decide),
    writes_sub_of_mem main_v101 rfl (by decide),
    writes_sub_of_mem main_v102 rfl (by decide),
    writes_sub_of_mem main_v103 rfl (by decide),
    writes_sub_of_mem main_cst_20 rfl (by decide),
    writes_sub_of_mem main_v104 rfl (by decide),
    writes_sub_of_mem main_v105 rfl (by decide),
    writes_sub_of_mem main_v106 rfl (by decide),
    writes_sub_of_mem main_v107 rfl (by decide),
    writes_sub_of_mem main_v108 rfl (by decide),
    writes_sub_of_mem main_v109 rfl (by decide),
    writes_sub_of_mem main_v110 rfl (by decide),
    writes_sub_of_mem main_v111 rfl (by decide),
    writes_sub_of_mem main_v112 rfl (by decide),
    writes_sub_of_mem main_v113 rfl (by decide),
    writes_sub_of_mem main_v114 rfl (by decide),
    writes_sub_of_mem main_cst_21 rfl (by decide),
    writes_sub_of_mem main_v115 rfl (by decide),
    writes_sub_of_mem main_cst_22 rfl (by decide),
    writes_sub_of_mem main_v116 rfl (by decide),
    writes_sub_of_mem main_v117 rfl (by decide),
    writes_sub_of_mem main_c_23 rfl (by decide),
    writes_sub_of_mem main_call1.cst.ref rfl (by decide),
    writes_sub_of_mem main_call1.v0.ref rfl (by decide),
    writes_sub_of_mem main_call1.v1.ref rfl (by decide),
    writes_sub_of_mem main_call1.cst_0.ref rfl (by decide),
    writes_sub_of_mem main_call1.v2.ref rfl (by decide),
    writes_sub_of_mem main_call1.v3.ref rfl (by decide),
    writes_sub_of_mem main_call1.v4.ref rfl (by decide),
    writes_sub_of_mem main_call1.v5.ref rfl (by decide),
    writes_sub_of_mem main_call1.v6.ref rfl (by decide),
    writes_sub_of_mem main_call1.v7.ref rfl (by decide),
    writes_sub_of_mem main_call1.cst_1.ref rfl (by decide),
    writes_sub_of_mem main_call1.v8.ref rfl (by decide),
    writes_sub_of_mem main_call1.cst_2.ref rfl (by decide),
    writes_sub_of_mem main_call1.v9.ref rfl (by decide),
    writes_sub_of_mem main_call1.v10.ref rfl (by decide),
    writes_sub_of_mem main_call1.v11.ref rfl (by decide),
    writes_sub_of_mem main_call1.cst_3.ref rfl (by decide),
    writes_sub_of_mem main_call1.v12.ref rfl (by decide),
    writes_sub_of_mem main_call1.cst_4.ref rfl (by decide),
    writes_sub_of_mem main_call1.call0.v0.ref rfl (by decide),
    writes_sub_of_mem main_call1.call0.v1.ref rfl (by decide),
    writes_sub_of_mem main_call1.call0.v2.ref rfl (by decide),
    writes_sub_of_mem main_v119 rfl (by decide),
    writes_sub_of_mem main_v120 rfl (by decide),
    writes_sub_of_mem main_v121 rfl (by decide),
    writes_sub_of_mem main_cst_24 rfl (by decide),
    writes_sub_of_mem main_v122 rfl (by decide),
    writes_sub_of_mem main_v123 rfl (by decide),
    writes_sub_of_mem main_v124 rfl (by decide),
    writes_sub_of_mem main_v125 rfl (by decide),
    writes_sub_of_mem main_v126 rfl (by decide),
    writes_sub_of_mem main_v127 rfl (by decide),
    writes_sub_of_mem main_v128 rfl (by decide),
    writes_sub_of_mem main_v129 rfl (by decide),
    writes_sub_of_mem main_v130 rfl (by decide),
    writes_sub_of_mem main_v131 rfl (by decide),
    writes_sub_of_mem main_v132 rfl (by decide),
    writes_sub_of_mem main_v133 rfl (by decide),
    writes_sub_of_mem main_cst_25 rfl (by decide),
    writes_sub_of_mem main_v134 rfl (by decide),
    writes_sub_of_mem main_v135 rfl (by decide)⟩

/-- A reference `opsL1` does not write keeps its contents. -/
theorem kept_L1 {r : Ref sig .tc} (hr : r ∉ writesL1) (V : Valuation τ sig (Elt F)) :
    after opsL1 V (r : DevRef τ sig) = V (r : DevRef τ sig) :=
  after_of_writes_sub opsL1 V opsL1_writes hr

/-- The references `opsL2` writes, in program order. -/
abbrev writesL2 : List (Ref sig .tc) :=
  [ main_v136, main_v137, main_cst_26, main_v138, main_v139, main_v140, main_cst_27, main_v141,
    main_v142, main_v143, main_c_28, main_v144, main_v145, main_c_29, main_v146, main_v147,
    main_v148, main_v149, main_v150, main_v151, main_c_30, main_v152, main_v153, main_c_31,
    main_v154, main_v155, main_v156, main_v157, main_v158, main_v159, main_c_32, main_v160,
    main_v161, main_c_33, main_v162, main_v163, main_v164, main_v165, main_v166, main_v167,
    main_v168, main_v169, main_cst_34, main_v170, main_v171, main_v172, main_v173, main_v174,
    main_v175, main_v176, main_v177, main_v178, main_v179, main_v180, main_cst_35, main_v181,
    main_cst_36, main_v182, main_v183, main_c_37, main_call2.cst.ref, main_call2.v0.ref, main_call2.v1.ref, main_call2.cst_0.ref,
    main_call2.v2.ref, main_call2.v3.ref, main_call2.v4.ref, main_call2.v5.ref, main_call2.v6.ref, main_call2.v7.ref, main_call2.cst_1.ref, main_call2.v8.ref,
    main_call2.cst_2.ref, main_call2.v9.ref, main_call2.v10.ref, main_call2.v11.ref, main_call2.cst_3.ref, main_call2.v12.ref, main_call2.cst_4.ref, main_call2.call0.v0.ref,
    main_call2.call0.v1.ref, main_call2.call0.v2.ref, main_v185, main_v186, main_v187, main_cst_38, main_v188, main_v189,
    main_v190, main_v191, main_v192, main_v193, main_v194, main_v195, main_v196, main_v197,
    main_v198, main_v199, main_cst_39, main_v200, main_v201 ]

theorem opsL2_writes : (opsL2 : List (HloOp τ sig (Elt F))).Forall fun op =>
    op.writes ⊆ (writesL2.map (Proc.devRef (τ := τ) .tc)).toFinset :=
  ⟨writes_sub_of_mem main_v136 rfl (by decide),
    writes_sub_of_mem main_v137 rfl (by decide),
    writes_sub_of_mem main_cst_26 rfl (by decide),
    writes_sub_of_mem main_v138 rfl (by decide),
    writes_sub_of_mem main_v139 rfl (by decide),
    writes_sub_of_mem main_v140 rfl (by decide),
    writes_sub_of_mem main_cst_27 rfl (by decide),
    writes_sub_of_mem main_v141 rfl (by decide),
    writes_sub_of_mem main_v142 rfl (by decide),
    writes_sub_of_mem main_v143 rfl (by decide),
    writes_sub_of_mem main_c_28 rfl (by decide),
    writes_sub_of_mem main_v144 rfl (by decide),
    writes_sub_of_mem main_v145 rfl (by decide),
    writes_sub_of_mem main_c_29 rfl (by decide),
    writes_sub_of_mem main_v146 rfl (by decide),
    writes_sub_of_mem main_v147 rfl (by decide),
    writes_sub_of_mem main_v148 rfl (by decide),
    writes_sub_of_mem main_v149 rfl (by decide),
    writes_sub_of_mem main_v150 rfl (by decide),
    writes_sub_of_mem main_v151 rfl (by decide),
    writes_sub_of_mem main_c_30 rfl (by decide),
    writes_sub_of_mem main_v152 rfl (by decide),
    writes_sub_of_mem main_v153 rfl (by decide),
    writes_sub_of_mem main_c_31 rfl (by decide),
    writes_sub_of_mem main_v154 rfl (by decide),
    writes_sub_of_mem main_v155 rfl (by decide),
    writes_sub_of_mem main_v156 rfl (by decide),
    writes_sub_of_mem main_v157 rfl (by decide),
    writes_sub_of_mem main_v158 rfl (by decide),
    writes_sub_of_mem main_v159 rfl (by decide),
    writes_sub_of_mem main_c_32 rfl (by decide),
    writes_sub_of_mem main_v160 rfl (by decide),
    writes_sub_of_mem main_v161 rfl (by decide),
    writes_sub_of_mem main_c_33 rfl (by decide),
    writes_sub_of_mem main_v162 rfl (by decide),
    writes_sub_of_mem main_v163 rfl (by decide),
    writes_sub_of_mem main_v164 rfl (by decide),
    writes_sub_of_mem main_v165 rfl (by decide),
    writes_sub_of_mem main_v166 rfl (by decide),
    writes_sub_of_mem main_v167 rfl (by decide),
    writes_sub_of_mem main_v168 rfl (by decide),
    writes_sub_of_mem main_v169 rfl (by decide),
    writes_sub_of_mem main_cst_34 rfl (by decide),
    writes_sub_of_mem main_v170 rfl (by decide),
    writes_sub_of_mem main_v171 rfl (by decide),
    writes_sub_of_mem main_v172 rfl (by decide),
    writes_sub_of_mem main_v173 rfl (by decide),
    writes_sub_of_mem main_v174 rfl (by decide),
    writes_sub_of_mem main_v175 rfl (by decide),
    writes_sub_of_mem main_v176 rfl (by decide),
    writes_sub_of_mem main_v177 rfl (by decide),
    writes_sub_of_mem main_v178 rfl (by decide),
    writes_sub_of_mem main_v179 rfl (by decide),
    writes_sub_of_mem main_v180 rfl (by decide),
    writes_sub_of_mem main_cst_35 rfl (by decide),
    writes_sub_of_mem main_v181 rfl (by decide),
    writes_sub_of_mem main_cst_36 rfl (by decide),
    writes_sub_of_mem main_v182 rfl (by decide),
    writes_sub_of_mem main_v183 rfl (by decide),
    writes_sub_of_mem main_c_37 rfl (by decide),
    writes_sub_of_mem main_call2.cst.ref rfl (by decide),
    writes_sub_of_mem main_call2.v0.ref rfl (by decide),
    writes_sub_of_mem main_call2.v1.ref rfl (by decide),
    writes_sub_of_mem main_call2.cst_0.ref rfl (by decide),
    writes_sub_of_mem main_call2.v2.ref rfl (by decide),
    writes_sub_of_mem main_call2.v3.ref rfl (by decide),
    writes_sub_of_mem main_call2.v4.ref rfl (by decide),
    writes_sub_of_mem main_call2.v5.ref rfl (by decide),
    writes_sub_of_mem main_call2.v6.ref rfl (by decide),
    writes_sub_of_mem main_call2.v7.ref rfl (by decide),
    writes_sub_of_mem main_call2.cst_1.ref rfl (by decide),
    writes_sub_of_mem main_call2.v8.ref rfl (by decide),
    writes_sub_of_mem main_call2.cst_2.ref rfl (by decide),
    writes_sub_of_mem main_call2.v9.ref rfl (by decide),
    writes_sub_of_mem main_call2.v10.ref rfl (by decide),
    writes_sub_of_mem main_call2.v11.ref rfl (by decide),
    writes_sub_of_mem main_call2.cst_3.ref rfl (by decide),
    writes_sub_of_mem main_call2.v12.ref rfl (by decide),
    writes_sub_of_mem main_call2.cst_4.ref rfl (by decide),
    writes_sub_of_mem main_call2.call0.v0.ref rfl (by decide),
    writes_sub_of_mem main_call2.call0.v1.ref rfl (by decide),
    writes_sub_of_mem main_call2.call0.v2.ref rfl (by decide),
    writes_sub_of_mem main_v185 rfl (by decide),
    writes_sub_of_mem main_v186 rfl (by decide),
    writes_sub_of_mem main_v187 rfl (by decide),
    writes_sub_of_mem main_cst_38 rfl (by decide),
    writes_sub_of_mem main_v188 rfl (by decide),
    writes_sub_of_mem main_v189 rfl (by decide),
    writes_sub_of_mem main_v190 rfl (by decide),
    writes_sub_of_mem main_v191 rfl (by decide),
    writes_sub_of_mem main_v192 rfl (by decide),
    writes_sub_of_mem main_v193 rfl (by decide),
    writes_sub_of_mem main_v194 rfl (by decide),
    writes_sub_of_mem main_v195 rfl (by decide),
    writes_sub_of_mem main_v196 rfl (by decide),
    writes_sub_of_mem main_v197 rfl (by decide),
    writes_sub_of_mem main_v198 rfl (by decide),
    writes_sub_of_mem main_v199 rfl (by decide),
    writes_sub_of_mem main_cst_39 rfl (by decide),
    writes_sub_of_mem main_v200 rfl (by decide),
    writes_sub_of_mem main_v201 rfl (by decide)⟩

/-- A reference `opsL2` does not write keeps its contents. -/
theorem kept_L2 {r : Ref sig .tc} (hr : r ∉ writesL2) (V : Valuation τ sig (Elt F)) :
    after opsL2 V (r : DevRef τ sig) = V (r : DevRef τ sig) :=
  after_of_writes_sub opsL2 V opsL2_writes hr

/-! The instances a composition of the three layers reads. -/

theorem kept_Pre_arg0 (V : Valuation τ sig (Elt F)) : after opsPre V (main_arg0 : DevRef τ sig) = V (main_arg0 : DevRef τ sig) := kept_Pre (by decide) V
theorem kept_Pre_arg1 (V : Valuation τ sig (Elt F)) : after opsPre V (main_arg1 : DevRef τ sig) = V (main_arg1 : DevRef τ sig) := kept_Pre (by decide) V
theorem kept_Pre_arg2 (V : Valuation τ sig (Elt F)) : after opsPre V (main_arg2 : DevRef τ sig) = V (main_arg2 : DevRef τ sig) := kept_Pre (by decide) V
theorem kept_Pre_arg3 (V : Valuation τ sig (Elt F)) : after opsPre V (main_arg3 : DevRef τ sig) = V (main_arg3 : DevRef τ sig) := kept_Pre (by decide) V
theorem kept_Pre_arg4 (V : Valuation τ sig (Elt F)) : after opsPre V (main_arg4 : DevRef τ sig) = V (main_arg4 : DevRef τ sig) := kept_Pre (by decide) V
theorem kept_Pre_arg5 (V : Valuation τ sig (Elt F)) : after opsPre V (main_arg5 : DevRef τ sig) = V (main_arg5 : DevRef τ sig) := kept_Pre (by decide) V
theorem kept_Pre_arg6 (V : Valuation τ sig (Elt F)) : after opsPre V (main_arg6 : DevRef τ sig) = V (main_arg6 : DevRef τ sig) := kept_Pre (by decide) V
theorem kept_Pre_arg7 (V : Valuation τ sig (Elt F)) : after opsPre V (main_arg7 : DevRef τ sig) = V (main_arg7 : DevRef τ sig) := kept_Pre (by decide) V
theorem kept_Pre_arg8 (V : Valuation τ sig (Elt F)) : after opsPre V (main_arg8 : DevRef τ sig) = V (main_arg8 : DevRef τ sig) := kept_Pre (by decide) V
theorem kept_Pre_arg9 (V : Valuation τ sig (Elt F)) : after opsPre V (main_arg9 : DevRef τ sig) = V (main_arg9 : DevRef τ sig) := kept_Pre (by decide) V
theorem kept_Pre_arg10 (V : Valuation τ sig (Elt F)) : after opsPre V (main_arg10 : DevRef τ sig) = V (main_arg10 : DevRef τ sig) := kept_Pre (by decide) V
theorem kept_Pre_arg11 (V : Valuation τ sig (Elt F)) : after opsPre V (main_arg11 : DevRef τ sig) = V (main_arg11 : DevRef τ sig) := kept_Pre (by decide) V
theorem kept_Pre_arg12 (V : Valuation τ sig (Elt F)) : after opsPre V (main_arg12 : DevRef τ sig) = V (main_arg12 : DevRef τ sig) := kept_Pre (by decide) V
theorem kept_Pre_arg13 (V : Valuation τ sig (Elt F)) : after opsPre V (main_arg13 : DevRef τ sig) = V (main_arg13 : DevRef τ sig) := kept_Pre (by decide) V
theorem kept_Pre_arg14 (V : Valuation τ sig (Elt F)) : after opsPre V (main_arg14 : DevRef τ sig) = V (main_arg14 : DevRef τ sig) := kept_Pre (by decide) V
theorem kept_L0_v1 (V : Valuation τ sig (Elt F)) : after opsL0 V (main_v1 : DevRef τ sig) = V (main_v1 : DevRef τ sig) := kept_L0 (by decide) V
theorem kept_L0_v3 (V : Valuation τ sig (Elt F)) : after opsL0 V (main_v3 : DevRef τ sig) = V (main_v3 : DevRef τ sig) := kept_L0 (by decide) V
theorem kept_L0_arg2 (V : Valuation τ sig (Elt F)) : after opsL0 V (main_arg2 : DevRef τ sig) = V (main_arg2 : DevRef τ sig) := kept_L0 (by decide) V
theorem kept_L0_arg7 (V : Valuation τ sig (Elt F)) : after opsL0 V (main_arg7 : DevRef τ sig) = V (main_arg7 : DevRef τ sig) := kept_L0 (by decide) V
theorem kept_L0_arg8 (V : Valuation τ sig (Elt F)) : after opsL0 V (main_arg8 : DevRef τ sig) = V (main_arg8 : DevRef τ sig) := kept_L0 (by decide) V
theorem kept_L0_arg9 (V : Valuation τ sig (Elt F)) : after opsL0 V (main_arg9 : DevRef τ sig) = V (main_arg9 : DevRef τ sig) := kept_L0 (by decide) V
theorem kept_L0_arg10 (V : Valuation τ sig (Elt F)) : after opsL0 V (main_arg10 : DevRef τ sig) = V (main_arg10 : DevRef τ sig) := kept_L0 (by decide) V
theorem kept_L0_arg11 (V : Valuation τ sig (Elt F)) : after opsL0 V (main_arg11 : DevRef τ sig) = V (main_arg11 : DevRef τ sig) := kept_L0 (by decide) V
theorem kept_L0_arg12 (V : Valuation τ sig (Elt F)) : after opsL0 V (main_arg12 : DevRef τ sig) = V (main_arg12 : DevRef τ sig) := kept_L0 (by decide) V
theorem kept_L0_arg13 (V : Valuation τ sig (Elt F)) : after opsL0 V (main_arg13 : DevRef τ sig) = V (main_arg13 : DevRef τ sig) := kept_L0 (by decide) V
theorem kept_L0_arg14 (V : Valuation τ sig (Elt F)) : after opsL0 V (main_arg14 : DevRef τ sig) = V (main_arg14 : DevRef τ sig) := kept_L0 (by decide) V
theorem kept_L1_v1 (V : Valuation τ sig (Elt F)) : after opsL1 V (main_v1 : DevRef τ sig) = V (main_v1 : DevRef τ sig) := kept_L1 (by decide) V
theorem kept_L1_v3 (V : Valuation τ sig (Elt F)) : after opsL1 V (main_v3 : DevRef τ sig) = V (main_v3 : DevRef τ sig) := kept_L1 (by decide) V
theorem kept_L1_arg2 (V : Valuation τ sig (Elt F)) : after opsL1 V (main_arg2 : DevRef τ sig) = V (main_arg2 : DevRef τ sig) := kept_L1 (by decide) V
theorem kept_L1_arg11 (V : Valuation τ sig (Elt F)) : after opsL1 V (main_arg11 : DevRef τ sig) = V (main_arg11 : DevRef τ sig) := kept_L1 (by decide) V
theorem kept_L1_arg12 (V : Valuation τ sig (Elt F)) : after opsL1 V (main_arg12 : DevRef τ sig) = V (main_arg12 : DevRef τ sig) := kept_L1 (by decide) V
theorem kept_L1_arg13 (V : Valuation τ sig (Elt F)) : after opsL1 V (main_arg13 : DevRef τ sig) = V (main_arg13 : DevRef τ sig) := kept_L1 (by decide) V
theorem kept_L1_arg14 (V : Valuation τ sig (Elt F)) : after opsL1 V (main_arg14 : DevRef τ sig) = V (main_arg14 : DevRef τ sig) := kept_L1 (by decide) V

end Cert.ReferenceIdeal.RefRun

end
-- ==== Proof.RefAll.lean ====
/- The reference program's run read against the layer function: the whole line at the result buffer is three layers over
   the edge list's two rows, every argument buffer is left as it was, and with the run of the line these give the
   reference's two statements — it terminates with its arguments unchanged, and with its result at the three layers of
   its arguments' launch contents. -/
import proofs.«114926_j41686952575093_1_alg».proof.Defs
import proofs.«114926_j41686952575093_1_alg».proof.Proof.Gen.Pre_finite_inputs
import proofs.«114926_j41686952575093_1_alg».proof.Proof.RefRun
import proofs.«114926_j41686952575093_1_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole line at the result buffer, from any contents: three layers over the edge list's two rows — each list's
    result read at the contents the lists before it leave (`after_append`), the buffers a list does not write carried
    back to `V`. -/
theorem read_all (V : Valuation τ sig (Elt F)) :
    after (opsPre ++ opsL0 ++ opsL1 ++ opsL2) V (main_v201 : DevRef τ sig)
      = Cert.Proof.Spec.layer
          (Cert.Proof.Spec.layer
            (Cert.Proof.Spec.layer (V (main_arg0 : DevRef τ sig))
              (Cert.Proof.Spec.srcOf (V (main_arg1 : DevRef τ sig))) (Cert.Proof.Spec.dstOf (V (main_arg1 : DevRef τ sig)))
              (V (main_arg2 : DevRef τ sig)) (V (main_arg3 : DevRef τ sig)) (V (main_arg4 : DevRef τ sig)) (V (main_arg5 : DevRef τ sig)) (V (main_arg6 : DevRef τ sig)))
            (Cert.Proof.Spec.srcOf (V (main_arg1 : DevRef τ sig))) (Cert.Proof.Spec.dstOf (V (main_arg1 : DevRef τ sig)))
            (V (main_arg2 : DevRef τ sig)) (V (main_arg7 : DevRef τ sig)) (V (main_arg8 : DevRef τ sig)) (V (main_arg9 : DevRef τ sig)) (V (main_arg10 : DevRef τ sig)))
          (Cert.Proof.Spec.srcOf (V (main_arg1 : DevRef τ sig))) (Cert.Proof.Spec.dstOf (V (main_arg1 : DevRef τ sig)))
          (V (main_arg2 : DevRef τ sig)) (V (main_arg11 : DevRef τ sig)) (V (main_arg12 : DevRef τ sig)) (V (main_arg13 : DevRef τ sig)) (V (main_arg14 : DevRef τ sig)) := by
  rw [after_append, after_append, after_append, read_L2,
    read_L1, kept_L1_v1, kept_L1_v3, kept_L1_arg2, kept_L1_arg11, kept_L1_arg12, kept_L1_arg13, kept_L1_arg14,
    read_L0, kept_L0_v1, kept_L0_v3, kept_L0_arg2, kept_L0_arg7, kept_L0_arg8, kept_L0_arg9, kept_L0_arg10,
    kept_L0_arg11, kept_L0_arg12, kept_L0_arg13, kept_L0_arg14,
    read_Pre_v1, read_Pre_v3, kept_Pre_arg0, kept_Pre_arg2, kept_Pre_arg3, kept_Pre_arg4, kept_Pre_arg5, kept_Pre_arg6,
    kept_Pre_arg7, kept_Pre_arg8, kept_Pre_arg9, kept_Pre_arg10, kept_Pre_arg11, kept_Pre_arg12, kept_Pre_arg13, kept_Pre_arg14]

/-! ## The arguments are kept -/

/-- A reference none of the four lists writes keeps its contents over the whole line. -/
theorem kept_all {r : Ref sig .tc} (h0 : r ∉ writesPre) (h1 : r ∉ writesL0) (h2 : r ∉ writesL1) (h3 : r ∉ writesL2)
    (V : Valuation τ sig (Elt F)) :
    after (opsPre ++ opsL0 ++ opsL1 ++ opsL2) V (r : DevRef τ sig) = V (r : DevRef τ sig) := by
  rw [after_append, after_append, after_append, kept_L2 h3, kept_L1 h2, kept_L0 h1, kept_Pre h0]

theorem kept_all_arg0 (V : Valuation τ sig (Elt F)) : after (opsPre ++ opsL0 ++ opsL1 ++ opsL2) V (main_arg0 : DevRef τ sig) = V (main_arg0 : DevRef τ sig) := kept_all (by decide) (by decide) (by decide) (by decide) V
theorem kept_all_arg1 (V : Valuation τ sig (Elt F)) : after (opsPre ++ opsL0 ++ opsL1 ++ opsL2) V (main_arg1 : DevRef τ sig) = V (main_arg1 : DevRef τ sig) := kept_all (by decide) (by decide) (by decide) (by decide) V
theorem kept_all_arg2 (V : Valuation τ sig (Elt F)) : after (opsPre ++ opsL0 ++ opsL1 ++ opsL2) V (main_arg2 : DevRef τ sig) = V (main_arg2 : DevRef τ sig) := kept_all (by decide) (by decide) (by decide) (by decide) V
theorem kept_all_arg3 (V : Valuation τ sig (Elt F)) : after (opsPre ++ opsL0 ++ opsL1 ++ opsL2) V (main_arg3 : DevRef τ sig) = V (main_arg3 : DevRef τ sig) := kept_all (by decide) (by decide) (by decide) (by decide) V
theorem kept_all_arg4 (V : Valuation τ sig (Elt F)) : after (opsPre ++ opsL0 ++ opsL1 ++ opsL2) V (main_arg4 : DevRef τ sig) = V (main_arg4 : DevRef τ sig) := kept_all (by decide) (by decide) (by decide) (by decide) V
theorem kept_all_arg5 (V : Valuation τ sig (Elt F)) : after (opsPre ++ opsL0 ++ opsL1 ++ opsL2) V (main_arg5 : DevRef τ sig) = V (main_arg5 : DevRef τ sig) := kept_all (by decide) (by decide) (by decide) (by decide) V
theorem kept_all_arg6 (V : Valuation τ sig (Elt F)) : after (opsPre ++ opsL0 ++ opsL1 ++ opsL2) V (main_arg6 : DevRef τ sig) = V (main_arg6 : DevRef τ sig) := kept_all (by decide) (by decide) (by decide) (by decide) V
theorem kept_all_arg7 (V : Valuation τ sig (Elt F)) : after (opsPre ++ opsL0 ++ opsL1 ++ opsL2) V (main_arg7 : DevRef τ sig) = V (main_arg7 : DevRef τ sig) := kept_all (by decide) (by decide) (by decide) (by decide) V
theorem kept_all_arg8 (V : Valuation τ sig (Elt F)) : after (opsPre ++ opsL0 ++ opsL1 ++ opsL2) V (main_arg8 : DevRef τ sig) = V (main_arg8 : DevRef τ sig) := kept_all (by decide) (by decide) (by decide) (by decide) V
theorem kept_all_arg9 (V : Valuation τ sig (Elt F)) : after (opsPre ++ opsL0 ++ opsL1 ++ opsL2) V (main_arg9 : DevRef τ sig) = V (main_arg9 : DevRef τ sig) := kept_all (by decide) (by decide) (by decide) (by decide) V
theorem kept_all_arg10 (V : Valuation τ sig (Elt F)) : after (opsPre ++ opsL0 ++ opsL1 ++ opsL2) V (main_arg10 : DevRef τ sig) = V (main_arg10 : DevRef τ sig) := kept_all (by decide) (by decide) (by decide) (by decide) V
theorem kept_all_arg11 (V : Valuation τ sig (Elt F)) : after (opsPre ++ opsL0 ++ opsL1 ++ opsL2) V (main_arg11 : DevRef τ sig) = V (main_arg11 : DevRef τ sig) := kept_all (by decide) (by decide) (by decide) (by decide) V
theorem kept_all_arg12 (V : Valuation τ sig (Elt F)) : after (opsPre ++ opsL0 ++ opsL1 ++ opsL2) V (main_arg12 : DevRef τ sig) = V (main_arg12 : DevRef τ sig) := kept_all (by decide) (by decide) (by decide) (by decide) V
theorem kept_all_arg13 (V : Valuation τ sig (Elt F)) : after (opsPre ++ opsL0 ++ opsL1 ++ opsL2) V (main_arg13 : DevRef τ sig) = V (main_arg13 : DevRef τ sig) := kept_all (by decide) (by decide) (by decide) (by decide) V
theorem kept_all_arg14 (V : Valuation τ sig (Elt F)) : after (opsPre ++ opsL0 ++ opsL1 ++ opsL2) V (main_arg14 : DevRef τ sig) = V (main_arg14 : DevRef τ sig) := kept_all (by decide) (by decide) (by decide) (by decide) V

/-! ## The two statements of the run -/

/-- From any memory with zero counters every weakly fair execution of the reference terminates with its result at three
    layers of the arguments' launch contents, and every argument as launched. -/
theorem run_value (m' : (ℓ : Loc nD τ sig) → Buf (Elt F) ℓ) (ρ' : Dev nD → PrngReg) :
    θ_run (defs (F := F)) (onTc (τ := τ) (main (F := F))) ⟨m', fun _ => 0, ρ'⟩ (fun r => ∀ c : Dev nD,
      r.2.mem ((c.tc : Thread nD τ).loc main_v201)
        = Cert.Proof.Spec.layer
            (Cert.Proof.Spec.layer
              (Cert.Proof.Spec.layer (m' ((c.tc : Thread nD τ).loc main_arg0))
                (Cert.Proof.Spec.srcOf (m' ((c.tc : Thread nD τ).loc main_arg1))) (Cert.Proof.Spec.dstOf (m' ((c.tc : Thread nD τ).loc main_arg1)))
                (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)))
              (Cert.Proof.Spec.srcOf (m' ((c.tc : Thread nD τ).loc main_arg1))) (Cert.Proof.Spec.dstOf (m' ((c.tc : Thread nD τ).loc main_arg1)))
              (m' ((c.tc : Thread nD τ).loc main_arg2)) (m' ((c.tc : Thread nD τ).loc main_arg7)) (m' ((c.tc : Thread nD τ).loc main_arg8)) (m' ((c.tc : Thread nD τ).loc main_arg9)) (m' ((c.tc : Thread nD τ).loc main_arg10)))
            (Cert.Proof.Spec.srcOf (m' ((c.tc : Thread nD τ).loc main_arg1))) (Cert.Proof.Spec.dstOf (m' ((c.tc : Thread nD τ).loc main_arg1)))
            (m' ((c.tc : Thread nD τ).loc main_arg2)) (m' ((c.tc : Thread nD τ).loc main_arg11)) (m' ((c.tc : Thread nD τ).loc main_arg12)) (m' ((c.tc : Thread nD τ).loc main_arg13)) (m' ((c.tc : Thread nD τ).loc main_arg14))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)) :=
  (θ_run defs _ _).mono (fun _ h c => ⟨(h c main_v201).trans (read_all _),
      (h c main_arg0).trans (kept_all_arg0 _),
      (h c main_arg1).trans (kept_all_arg1 _),
      (h c main_arg2).trans (kept_all_arg2 _),
      (h c main_arg3).trans (kept_all_arg3 _),
      (h c main_arg4).trans (kept_all_arg4 _),
      (h c main_arg5).trans (kept_all_arg5 _),
      (h c main_arg6).trans (kept_all_arg6 _),
      (h c main_arg7).trans (kept_all_arg7 _),
      (h c main_arg8).trans (kept_all_arg8 _),
      (h c main_arg9).trans (kept_all_arg9 _),
      (h c main_arg10).trans (kept_all_arg10 _),
      (h c main_arg11).trans (kept_all_arg11 _),
      (h c main_arg12).trans (kept_all_arg12 _),
      (h c main_arg13).trans (kept_all_arg13 _),
      (h c main_arg14).trans (kept_all_arg14 _)⟩)
    (run_all m' ρ')

/-- The reference runs and its argument arrays end unchanged. -/
theorem frame_ref : Cert.frame_ReferenceIdeal (hReferenceIdeal := Cert.ReferenceIdeal.Gen.facts)
    (hPre_finite_inputs := Cert.Pre_finite_inputs.Gen.facts) :=
  fun m ρ _ => (θ_run defs _ _).mono (fun _ h c => ⟨
      (h c main_arg0).trans (kept_all_arg0 _),
      (h c main_arg1).trans (kept_all_arg1 _),
      (h c main_arg2).trans (kept_all_arg2 _),
      (h c main_arg3).trans (kept_all_arg3 _),
      (h c main_arg4).trans (kept_all_arg4 _),
      (h c main_arg5).trans (kept_all_arg5 _),
      (h c main_arg6).trans (kept_all_arg6 _),
      (h c main_arg7).trans (kept_all_arg7 _),
      (h c main_arg8).trans (kept_all_arg8 _),
      (h c main_arg9).trans (kept_all_arg9 _),
      (h c main_arg10).trans (kept_all_arg10 _),
      (h c main_arg11).trans (kept_all_arg11 _),
      (h c main_arg12).trans (kept_all_arg12 _),
      (h c main_arg13).trans (kept_all_arg13 _),
      (h c main_arg14).trans (kept_all_arg14 _)⟩)
    (run_all (F := Ideal) m ρ)

end Cert.ReferenceIdeal.RefRun

end
-- ==== Proof.lean ====
/-
  A three-layer graph convolution network with batch normalisation: the kernel program against its host reference.

  Each layer takes node features h (100000 × 128), the edge list (source and target rows), edge weights w and
  parameters W, b, γ, β:   x = h · Wᵀ;  deg v = 1 + Σ_{e → v} w e;  dinv = deg^(-1/2);
  o = Σ_{e → v} x (src e) · dinv (src e) · w e · dinv (dst e) + x · dinv² + b;  μ, σ² the column mean and biased variance of
  o over the nodes;  out = max(((o − μ) · (σ² + ε)^(-1/2)) · γ + β, 0).

  The reference runs all of it on the host.  The kernel program runs the projection x = h · Wᵀ and the final
  normalisation in two pipelined regions per layer (blocks of 5000 rows; the projection's operands narrowed to bf16, which
  at the ideal values is the identity) and everything between them on the host, with the same host operations in the
  same order as the reference.  So at the ideal values the two programs compute the same function, operation by
  operation: a region's product into a zero accumulator is the host's product, block by block; a region's normalisation
  over the row-shaped mean, reciprocal deviation, γ, β is the host's normalisation with the same vectors broadcast.  No
  algebraic law beyond that is used, so the finiteness of the inputs is never needed.

  The frames of the two kernel programs are the generated ones; the reference's frame and value come from its run as a
  list of host operations; the kernel program's value from the run of its segments with every buffer named.  The
  idealization rewrote nothing, so there is nothing to preserve.
-/
import proofs.«114926_j41686952575093_1_alg».proof.Defs
import proofs.«114926_j41686952575093_1_alg».proof.Proof.Gen.Kernel
import proofs.«114926_j41686952575093_1_alg».proof.Proof.Gen.Kernel.Frame
import proofs.«114926_j41686952575093_1_alg».proof.Proof.Gen.KernelIdeal
import proofs.«114926_j41686952575093_1_alg».proof.Proof.Gen.KernelIdeal.Frame
import proofs.«114926_j41686952575093_1_alg».proof.Proof.Gen.ReferenceIdeal
import proofs.«114926_j41686952575093_1_alg».proof.Proof.Gen.Pre_finite_inputs
import proofs.«114926_j41686952575093_1_alg».proof.Proof.KAll
import proofs.«114926_j41686952575093_1_alg».proof.Proof.RefAll
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- Both programs end with the three layers of their launched arguments in the result buffer; the arguments agree. -/
theorem algebraic : Cert.algebraic_KernelIdeal_ReferenceIdeal := by
  intro m ρ m' ρ' _ hagree
  refine ⟨_, Cert.Proof.KAll.run_value m ρ, ?_⟩
  refine (θ_run (Cert.ReferenceIdeal.defs (F := Ideal)) _ _).mono (fun r h c => ⟨(h c).1.trans ?_, (h c).2⟩)
    (Cert.ReferenceIdeal.RefRun.run_value (F := Ideal) m' ρ')
  obtain ⟨e0, e1, e2, e3, e4, e5, e6, e7, e8, e9, e10, e11, e12, e13, e14⟩ := hagree c
  rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, Cert.ReferenceIdeal.RefRun.frame_ref, trivial, algebraic⟩

end Cert.Proof

end
